-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x5x1 : Shape := ⟨3, ![128, 5, 1]⟩
abbrev S128x5x5 : Shape := ⟨3, ![128, 5, 5]⟩
abbrev S128x1x5 : Shape := ⟨3, ![128, 1, 5]⟩
abbrev S128x1x1 : Shape := ⟨3, ![128, 1, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S16384x5x1 : S_.BroadcastsInDim S16384x5x1 (![] : Fin 0 → Fin S16384x5x1.rank)
  reducesTo_S16384x5x1_S_d0_1_2 : S16384x5x1.ReducesTo [0, 1, 2] S_
  bcast_S_S16384x5x5 : S_.BroadcastsInDim S16384x5x5 (![] : Fin 0 → Fin S16384x5x5.rank)
  reducesTo_S16384x5x5_S_d0_1_2 : S16384x5x5.ReducesTo [0, 1, 2] S_
  bcast_S_S16384x1x5 : S_.BroadcastsInDim S16384x1x5 (![] : Fin 0 → Fin S16384x1x5.rank)
  reducesTo_S16384x1x5_S_d0_1_2 : S16384x1x5.ReducesTo [0, 1, 2] S_
  bcast_S_S16384x1x1 : S_.BroadcastsInDim S16384x1x1 (![] : Fin 0 → Fin S16384x1x1.rank)
  reducesTo_S16384x1x1_S_d0_1_2 : S16384x1x1.ReducesTo [0, 1, 2] S_
  bcast_S_S128x5x1 : S_.BroadcastsInDim S128x5x1 (![] : Fin 0 → Fin S128x5x1.rank)
  reducesTo_S128x5x1_S_d0_1_2 : S128x5x1.ReducesTo [0, 1, 2] S_
  bcast_S_S128x5x5 : S_.BroadcastsInDim S128x5x5 (![] : Fin 0 → Fin S128x5x5.rank)
  reducesTo_S128x5x5_S_d0_1_2 : S128x5x5.ReducesTo [0, 1, 2] S_
  bcast_S_S128x1x5 : S_.BroadcastsInDim S128x1x5 (![] : Fin 0 → Fin S128x1x5.rank)
  reducesTo_S128x1x5_S_d0_1_2 : S128x1x5.ReducesTo [0, 1, 2] S_
  bcast_S_S128x1x1 : S_.BroadcastsInDim S128x1x1 (![] : Fin 0 → Fin S128x1x1.rank)
  reducesTo_S128x1x1_S_d0_1_2 : S128x1x1.ReducesTo [0, 1, 2] S_

variable [Facts]

def fn_part4 {F : FTy → Type} [FloatOps F] (main_arg14 : FVec F S128x1x1 .f32) (main_arg15 : FVec F S128x1x1 .f32) (main_arg16 : FVec F S128x1x1 .f32) (main_v63 : IVec S_ 1) (main_v67 : IVec S_ 1) : IVec S_ 1 :=
  let main_v68 : IVec S_ 1 := andi main_v63 main_v67
  let main_v69 : FVec F S128x1x1 .f32 := Host.absf main_arg14
  let main_cst_26 : FVec F S_ .f32 := constant S_ .f32 0x7F800000#32
  let main_v70 : FVec F S128x1x1 .f32 := broadcastInDim S128x1x1 ![] bcast_S_S128x1x1 main_cst_26
  let main_v71 : IVec S128x1x1 1 := cmpf .olt main_v69 main_v70
  let main_c_27 : IVec S_ 1 := constantI S_ 1 1#1
  let main_v72 : IVec S_ 1 := (fun x v => Host.reduce IntOp.andi x v reducesTo_S128x1x1_S_d0_1_2 h_S_) main_v71 main_c_27
  let main_v73 : IVec S_ 1 := andi main_v68 main_v72
  let main_v74 : FVec F S128x1x1 .f32 := Host.absf main_arg15
  let main_cst_28 : FVec F S_ .f32 := constant S_ .f32 0x7F800000#32
  let main_v75 : FVec F S128x1x1 .f32 := broadcastInDim S128x1x1 ![] bcast_S_S128x1x1 main_cst_28
  let main_v76 : IVec S128x1x1 1 := cmpf .olt main_v74 main_v75
  let main_c_29 : IVec S_ 1 := constantI S_ 1 1#1
  let main_v77 : IVec S_ 1 := (fun x v => Host.reduce IntOp.andi x v reducesTo_S128x1x1_S_d0_1_2 h_S_) main_v76 main_c_29
  let main_v78 : IVec S_ 1 := andi main_v73 main_v77
  let main_v79 : FVec F S128x1x1 .f32 := Host.absf main_arg16
  let main_cst_30 : FVec F S_ .f32 := constant S_ .f32 0x7F800000#32
  let main_v80 : FVec F S128x1x1 .f32 := broadcastInDim S128x1x1 ![] bcast_S_S128x1x1 main_cst_30
  let main_v81 : IVec S128x1x1 1 := cmpf .olt main_v79 main_v80
  let main_c_31 : IVec S_ 1 := constantI S_ 1 1#1
  let main_v82 : IVec S_ 1 := (fun x v => Host.reduce IntOp.andi x v reducesTo_S128x1x1_S_d0_1_2 h_S_) main_v81 main_c_31
  let main_v83 : IVec S_ 1 := andi main_v78 main_v82
  main_v83

def fn_part3 {F : FTy → Type} [FloatOps F] (main_arg11 : FVec F S128x1x5 .f32) (main_arg12 : FVec F S128x5x1 .f32) (main_arg13 : FVec F S128x5x1 .f32) (main_arg14 : FVec F S128x1x1 .f32) (main_arg15 : FVec F S128x1x1 .f32) (main_arg16 : FVec F S128x1x1 .f32) (main_v48 : IVec S_ 1) (main_v49 : FVec F S128x5x5 .f32) (main_v50 : FVec F S128x5x5 .f32) : IVec S_ 1 :=
  let main_v51 : IVec S128x5x5 1 := cmpf .olt main_v49 main_v50
  let main_c_19 : IVec S_ 1 := constantI S_ 1 1#1
  let main_v52 : IVec S_ 1 := (fun x v => Host.reduce IntOp.andi x v reducesTo_S128x5x5_S_d0_1_2 h_S_) main_v51 main_c_19
  let main_v53 : IVec S_ 1 := andi main_v48 main_v52
  let main_v54 : FVec F S128x1x5 .f32 := Host.absf main_arg11
  let main_cst_20 : FVec F S_ .f32 := constant S_ .f32 0x7F800000#32
  let main_v55 : FVec F S128x1x5 .f32 := broadcastInDim S128x1x5 ![] bcast_S_S128x1x5 main_cst_20
  let main_v56 : IVec S128x1x5 1 := cmpf .olt main_v54 main_v55
  let main_c_21 : IVec S_ 1 := constantI S_ 1 1#1
  let main_v57 : IVec S_ 1 := (fun x v => Host.reduce IntOp.andi x v reducesTo_S128x1x5_S_d0_1_2 h_S_) main_v56 main_c_21
  let main_v58 : IVec S_ 1 := andi main_v53 main_v57
  let main_v59 : FVec F S128x5x1 .f32 := Host.absf main_arg12
  let main_cst_22 : FVec F S_ .f32 := constant S_ .f32 0x7F800000#32
  let main_v60 : FVec F S128x5x1 .f32 := broadcastInDim S128x5x1 ![] bcast_S_S128x5x1 main_cst_22
  let main_v61 : IVec S128x5x1 1 := cmpf .olt main_v59 main_v60
  let main_c_23 : IVec S_ 1 := constantI S_ 1 1#1
  let main_v62 : IVec S_ 1 := (fun x v => Host.reduce IntOp.andi x v reducesTo_S128x5x1_S_d0_1_2 h_S_) main_v61 main_c_23
  let main_v63 : IVec S_ 1 := andi main_v58 main_v62
  let main_v64 : FVec F S128x5x1 .f32 := Host.absf main_arg13
  let main_cst_24 : FVec F S_ .f32 := constant S_ .f32 0x7F800000#32
  let main_v65 : FVec F S128x5x1 .f32 := broadcastInDim S128x5x1 ![] bcast_S_S128x5x1 main_cst_24
  let main_v66 : IVec S128x5x1 1 := cmpf .olt main_v64 main_v65
  let main_c_25 : IVec S_ 1 := constantI S_ 1 1#1
  let main_v67 : IVec S_ 1 := (fun x v => Host.reduce IntOp.andi x v reducesTo_S128x5x1_S_d0_1_2 h_S_) main_v66 main_c_25
  fn_part4 (F := F) main_arg14 main_arg15 main_arg16 main_v63 main_v67

def fn_part2 {F : FTy → Type} [FloatOps F] (main_arg7 : FVec F S16384x1x1 .f32) (main_arg8 : FVec F S16384x1x1 .f32) (main_arg9 : FVec F S128x5x1 .f32) (main_arg10 : FVec F S128x5x5 .f32) (main_arg11 : FVec F S128x1x5 .f32) (main_arg12 : FVec F S128x5x1 .f32) (main_arg13 : FVec F S128x5x1 .f32) (main_arg14 : FVec F S128x1x1 .f32) (main_arg15 : FVec F S128x1x1 .f32) (main_arg16 : FVec F S128x1x1 .f32) (main_v33 : IVec S_ 1) : IVec S_ 1 :=
  let main_v34 : FVec F S16384x1x1 .f32 := Host.absf main_arg7
  let main_cst_12 : FVec F S_ .f32 := constant S_ .f32 0x7F800000#32
  let main_v35 : FVec F S16384x1x1 .f32 := broadcastInDim S16384x1x1 ![] bcast_S_S16384x1x1 main_cst_12
  let main_v36 : IVec S16384x1x1 1 := cmpf .olt main_v34 main_v35
  let main_c_13 : IVec S_ 1 := constantI S_ 1 1#1
  let main_v37 : IVec S_ 1 := (fun x v => Host.reduce IntOp.andi x v reducesTo_S16384x1x1_S_d0_1_2 h_S_) main_v36 main_c_13
  let main_v38 : IVec S_ 1 := andi main_v33 main_v37
  let main_v39 : FVec F S16384x1x1 .f32 := Host.absf main_arg8
  let main_cst_14 : FVec F S_ .f32 := constant S_ .f32 0x7F800000#32
  let main_v40 : FVec F S16384x1x1 .f32 := broadcastInDim S16384x1x1 ![] bcast_S_S16384x1x1 main_cst_14
  let main_v41 : IVec S16384x1x1 1 := cmpf .olt main_v39 main_v40
  let main_c_15 : IVec S_ 1 := constantI S_ 1 1#1
  let main_v42 : IVec S_ 1 := (fun x v => Host.reduce IntOp.andi x v reducesTo_S16384x1x1_S_d0_1_2 h_S_) main_v41 main_c_15
  let main_v43 : IVec S_ 1 := andi main_v38 main_v42
  let main_v44 : FVec F S128x5x1 .f32 := Host.absf main_arg9
  let main_cst_16 : FVec F S_ .f32 := constant S_ .f32 0x7F800000#32
  let main_v45 : FVec F S128x5x1 .f32 := broadcastInDim S128x5x1 ![] bcast_S_S128x5x1 main_cst_16
  let main_v46 : IVec S128x5x1 1 := cmpf .olt main_v44 main_v45
  let main_c_17 : IVec S_ 1 := constantI S_ 1 1#1
  let main_v47 : IVec S_ 1 := (fun x v => Host.reduce IntOp.andi x v reducesTo_S128x5x1_S_d0_1_2 h_S_) main_v46 main_c_17
  let main_v48 : IVec S_ 1 := andi main_v43 main_v47
  let main_v49 : FVec F S128x5x5 .f32 := Host.absf main_arg10
  let main_cst_18 : FVec F S_ .f32 := constant S_ .f32 0x7F800000#32
  let main_v50 : FVec F S128x5x5 .f32 := broadcastInDim S128x5x5 ![] bcast_S_S128x5x5 main_cst_18
  fn_part3 (F := F) main_arg11 main_arg12 main_arg13 main_arg14 main_arg15 main_arg16 main_v48 main_v49 main_v50

def fn_part1 {F : FTy → Type} [FloatOps F] (main_arg4 : FVec F S16384x5x1 .f32) (main_arg5 : FVec F S16384x5x1 .f32) (main_arg6 : FVec F S16384x1x1 .f32) (main_arg7 : FVec F S16384x1x1 .f32) (main_arg8 : FVec F S16384x1x1 .f32) (main_arg9 : FVec F S128x5x1 .f32) (main_arg10 : FVec F S128x5x5 .f32) (main_arg11 : FVec F S128x1x5 .f32) (main_arg12 : FVec F S128x5x1 .f32) (main_arg13 : FVec F S128x5x1 .f32) (main_arg14 : FVec F S128x1x1 .f32) (main_arg15 : FVec F S128x1x1 .f32) (main_arg16 : FVec F S128x1x1 .f32) (main_v13 : IVec S_ 1) (main_v16 : IVec S16384x1x5 1) : IVec S_ 1 :=
  let main_c_5 : IVec S_ 1 := constantI S_ 1 1#1
  let main_v17 : IVec S_ 1 := (fun x v => Host.reduce IntOp.andi x v reducesTo_S16384x1x5_S_d0_1_2 h_S_) main_v16 main_c_5
  let main_v18 : IVec S_ 1 := andi main_v13 main_v17
  let main_v19 : FVec F S16384x5x1 .f32 := Host.absf main_arg4
  let main_cst_6 : FVec F S_ .f32 := constant S_ .f32 0x7F800000#32
  let main_v20 : FVec F S16384x5x1 .f32 := broadcastInDim S16384x5x1 ![] bcast_S_S16384x5x1 main_cst_6
  let main_v21 : IVec S16384x5x1 1 := cmpf .olt main_v19 main_v20
  let main_c_7 : IVec S_ 1 := constantI S_ 1 1#1
  let main_v22 : IVec S_ 1 := (fun x v => Host.reduce IntOp.andi x v reducesTo_S16384x5x1_S_d0_1_2 h_S_) main_v21 main_c_7
  let main_v23 : IVec S_ 1 := andi main_v18 main_v22
  let main_v24 : FVec F S16384x5x1 .f32 := Host.absf main_arg5
  let main_cst_8 : FVec F S_ .f32 := constant S_ .f32 0x7F800000#32
  let main_v25 : FVec F S16384x5x1 .f32 := broadcastInDim S16384x5x1 ![] bcast_S_S16384x5x1 main_cst_8
  let main_v26 : IVec S16384x5x1 1 := cmpf .olt main_v24 main_v25
  let main_c_9 : IVec S_ 1 := constantI S_ 1 1#1
  let main_v27 : IVec S_ 1 := (fun x v => Host.reduce IntOp.andi x v reducesTo_S16384x5x1_S_d0_1_2 h_S_) main_v26 main_c_9
  let main_v28 : IVec S_ 1 := andi main_v23 main_v27
  let main_v29 : FVec F S16384x1x1 .f32 := Host.absf main_arg6
  let main_cst_10 : FVec F S_ .f32 := constant S_ .f32 0x7F800000#32
  let main_v30 : FVec F S16384x1x1 .f32 := broadcastInDim S16384x1x1 ![] bcast_S_S16384x1x1 main_cst_10
  let main_v31 : IVec S16384x1x1 1 := cmpf .olt main_v29 main_v30
  let main_c_11 : IVec S_ 1 := constantI S_ 1 1#1
  let main_v32 : IVec S_ 1 := (fun x v => Host.reduce IntOp.andi x v reducesTo_S16384x1x1_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2048x128 .f32) (main_arg1 : FVec F S16384x5x1 .f32) (main_arg2 : FVec F S16384x5x5 .f32) (main_arg3 : FVec F S16384x1x5 .f32) (main_arg4 : FVec F S16384x5x1 .f32) (main_arg5 : FVec F S16384x5x1 .f32) (main_arg6 : FVec F S16384x1x1 .f32) (main_arg7 : FVec F S16384x1x1 .f32) (main_arg8 : FVec F S16384x1x1 .f32) (main_arg9 : FVec F S128x5x1 .f32) (main_arg10 : FVec F S128x5x5 .f32) (main_arg11 : FVec F S128x1x5 .f32) (main_arg12 : FVec F S128x5x1 .f32) (main_arg13 : FVec F S128x5x1 .f32) (main_arg14 : FVec F S128x1x1 .f32) (main_arg15 : FVec F S128x1x1 .f32) (main_arg16 : FVec F S128x1x1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S16384x5x1 .f32 := Host.absf main_arg1
  let main_cst_0 : FVec F S_ .f32 := constant S_ .f32 0x7F800000#32
  let main_v5 : FVec F S16384x5x1 .f32 := broadcastInDim S16384x5x1 ![] bcast_S_S16384x5x1 main_cst_0
  let main_v6 : IVec S16384x5x1 1 := cmpf .olt main_v4 main_v5
  let main_c_1 : IVec S_ 1 := constantI S_ 1 1#1
  let main_v7 : IVec S_ 1 := (fun x v => Host.reduce IntOp.andi x v reducesTo_S16384x5x1_S_d0_1_2 h_S_) main_v6 main_c_1
  let main_v8 : IVec S_ 1 := andi main_v3 main_v7
  let main_v9 : FVec F S16384x5x5 .f32 := Host.absf main_arg2
  let main_cst_2 : FVec F S_ .f32 := constant S_ .f32 0x7F800000#32
  let main_v10 : FVec F S16384x5x5 .f32 := broadcastInDim S16384x5x5 ![] bcast_S_S16384x5x5 main_cst_2
  let main_v11 : IVec S16384x5x5 1 := cmpf .olt main_v9 main_v10
  let main_c_3 : IVec S_ 1 := constantI S_ 1 1#1
  let main_v12 : IVec S_ 1 := (fun x v => Host.reduce IntOp.andi x v reducesTo_S16384x5x5_S_d0_1_2 h_S_) main_v11 main_c_3
  let main_v13 : IVec S_ 1 := andi main_v8 main_v12
  let main_v14 : FVec F S16384x1x5 .f32 := Host.absf main_arg3
  let main_cst_4 : FVec F S_ .f32 := constant S_ .f32 0x7F800000#32
  let main_v15 : FVec F S16384x1x5 .f32 := broadcastInDim S16384x1x5 ![] bcast_S_S16384x1x5 main_cst_4
  let main_v16 : IVec S16384x1x5 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x5x1 : Shape := ⟨3, ![128, 5, 1]⟩
abbrev S128x5x5 : Shape := ⟨3, ![128, 5, 5]⟩
abbrev S128x1x5 : Shape := ⟨3, ![128, 1, 5]⟩
abbrev S128x1x1 : Shape := ⟨3, ![128, 1, 1]⟩
abbrev S128x2048 : Shape := ⟨2, ![128, 2048]⟩
abbrev S128x128x5 : Shape := ⟨3, ![128, 128, 5]⟩
abbrev S128x128x5x5 : Shape := ⟨4, ![128, 128, 5, 5]⟩
abbrev S128x5x128x5 : Shape := ⟨4, ![128, 5, 128, 5]⟩
abbrev S128x128x1 : Shape := ⟨3, ![128, 128, 1]⟩
abbrev S16x512 : Shape := ⟨2, ![16, 512]⟩
abbrev S16x128x5 : Shape := ⟨3, ![16, 128, 5]⟩
abbrev S16x5x128x5 : Shape := ⟨4, ![16, 5, 128, 5]⟩
abbrev S16x128x1 : Shape := ⟨3, ![16, 128, 1]⟩
abbrev S128x512 : Shape := ⟨2, ![128, 512]⟩
abbrev S1x512 : Shape := ⟨2, ![1, 512]⟩
abbrev S512 : Shape := ⟨1, ![512]⟩
abbrev S1x128x5 : Shape := ⟨3, ![1, 128, 5]⟩
abbrev S128x5 : Shape := ⟨2, ![128, 5]⟩
abbrev S128x1 : Shape := ⟨2, ![128, 1]⟩
abbrev S128 : Shape := ⟨1, ![128]⟩
abbrev S1x5x128x5 : Shape := ⟨4, ![1, 5, 128, 5]⟩
abbrev S5x128x5 : Shape := ⟨3, ![5, 128, 5]⟩
abbrev S1x128x1 : Shape := ⟨3, ![1, 128, 1]⟩
abbrev S128x1x5x5 : Shape := ⟨4, ![128, 1, 5, 5]⟩
abbrev S128x5x1x5 : Shape := ⟨4, ![128, 5, 1, 5]⟩
abbrev S1x2048 : Shape := ⟨2, ![1, 2048]⟩
abbrev S32x2048 : Shape := ⟨2, ![32, 2048]⟩
abbrev S32x1x5 : Shape := ⟨3, ![32, 1, 5]⟩
abbrev S32x5x1x5 : Shape := ⟨4, ![32, 5, 1, 5]⟩
abbrev S32x1x1 : Shape := ⟨3, ![32, 1, 1]⟩
abbrev S2048 : Shape := ⟨1, ![2048]⟩
abbrev S1x1x5 : Shape := ⟨3, ![1, 1, 5]⟩
abbrev S1x5 : Shape := ⟨2, ![1, 5]⟩
abbrev S1x1 : Shape := ⟨2, ![1, 1]⟩
abbrev S1 : Shape := ⟨1, ![1]⟩
abbrev S1x5x1x5 : Shape := ⟨4, ![1, 5, 1, 5]⟩
abbrev S5x1x5 : Shape := ⟨3, ![5, 1, 5]⟩
abbrev S1x1x1 : Shape := ⟨3, ![1, 1, 1]⟩
abbrev S2048x1 : Shape := ⟨2, ![2048, 1]⟩

abbrev nBuf : Space → Nat
  | .hbm => 35
  | .vmem => 41
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x5, .f32⟩
  | .hbm, ⟨3, _⟩ => ⟨S16384x1x5, .f32⟩
  | .hbm, ⟨4, _⟩ => ⟨S16384x5x1, .f32⟩
  | .hbm, ⟨5, _⟩ => ⟨S16384x5x1, .f32⟩
  | .hbm, ⟨6, _⟩ => ⟨S16384x1x1, .f32⟩
  | .hbm, ⟨7, _⟩ => ⟨S16384x1x1, .f32⟩
  | .hbm, ⟨8, _⟩ => ⟨S16384x1x1, .f32⟩
  | .hbm, ⟨9, _⟩ => ⟨S128x5x1, .f32⟩
  | .hbm, ⟨10, _⟩ => ⟨S128x5x5, .f32⟩
  | .hbm, ⟨11, _⟩ => ⟨S128x1x5, .f32⟩
  | .hbm, ⟨12, _⟩ => ⟨S128x5x1, .f32⟩
  | .hbm, ⟨13, _⟩ => ⟨S128x5x1, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x2048, .f32⟩
  | .hbm, ⟨18, _⟩ => ⟨S128x128x5, .f32⟩
  | .hbm, ⟨19, _⟩ => ⟨S128x128x5, .f32⟩
  | .hbm, ⟨20, _⟩ => ⟨S128x128x5x5, .f32⟩
  | .hbm, ⟨21, _⟩ => ⟨S128x5x128x5, .f32⟩
  | .hbm, ⟨22, _⟩ => ⟨S128x128x5, .f32⟩
  | .hbm, ⟨23, _⟩ => ⟨S128x128x5, .f32⟩
  | .hbm, ⟨24, _⟩ => ⟨S128x128x1, .f32⟩
  | .hbm, ⟨25, _⟩ => ⟨S128x128x1, .f32⟩
  | .hbm, ⟨26, _⟩ => ⟨S128x128x1, .f32⟩
  | .hbm, ⟨27, _⟩ => ⟨S128x2048, .f32⟩
  | .hbm, ⟨28, _⟩ => ⟨S128x1x5, .f32⟩
  | .hbm, ⟨29, _⟩ => ⟨S128x1x5, .f32⟩
  | .hbm, ⟨30, _⟩ => ⟨S128x1x5x5, .f32⟩
  | .hbm, ⟨31, _⟩ => ⟨S128x5x1x5, .f32⟩
  | .hbm, ⟨32, _⟩ => ⟨S128x1x5, .f32⟩
  | .hbm, ⟨33, _⟩ => ⟨S1x2048, .f32⟩
  | .hbm, ⟨34, _⟩ => ⟨S2048x1, .f32⟩
  | .local _ .vmem, ⟨0, _⟩ => ⟨S16x512, .f32⟩
  | .local _ .vmem, ⟨1, _⟩ => ⟨S16x512, .f32⟩
  | .local _ .vmem, ⟨2, _⟩ => ⟨S16x128x5, .f32⟩
  | .local _ .vmem, ⟨3, _⟩ => ⟨S16x128x5, .f32⟩
  | .local _ .vmem, ⟨4, _⟩ => ⟨S16x128x5, .f32⟩
  | .local _ .vmem, ⟨5, _⟩ => ⟨S16x128x5, .f32⟩
  | .local _ .vmem, ⟨6, _⟩ => ⟨S16x5x128x5, .f32⟩
  | .local _ .vmem, ⟨7, _⟩ => ⟨S16x5x128x5, .f32⟩
  | .local _ .vmem, ⟨8, _⟩ => ⟨S16x128x5, .f32⟩
  | .local _ .vmem, ⟨9, _⟩ => ⟨S16x128x5, .f32⟩
  | .local _ .vmem, ⟨10, _⟩ => ⟨S16x128x5, .f32⟩
  | .local _ .vmem, ⟨11, _⟩ => ⟨S16x128x5, .f32⟩
  | .local _ .vmem, ⟨12, _⟩ => ⟨S16x128x1, .f32⟩
  | .local _ .vmem, ⟨13, _⟩ => ⟨S16x128x1, .f32⟩
  | .local _ .vmem, ⟨14, _⟩ => ⟨S16x128x1, .f32⟩
  | .local _ .vmem, ⟨15, _⟩ => ⟨S16x128x1, .f32⟩
  | .local _ .vmem, ⟨16, _⟩ => ⟨S16x128x1, .f32⟩
  | .local _ .vmem, ⟨17, _⟩ => ⟨S16x128x1, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S32x2048, .f32⟩
  | .local _ .vmem, ⟨22, _⟩ => ⟨S32x2048, .f32⟩
  | .local _ .vmem, ⟨23, _⟩ => ⟨S32x1x5, .f32⟩
  | .local _ .vmem, ⟨24, _⟩ => ⟨S32x1x5, .f32⟩
  | .local _ .vmem, ⟨25, _⟩ => ⟨S32x1x5, .f32⟩
  | .local _ .vmem, ⟨26, _⟩ => ⟨S32x1x5, .f32⟩
  | .local _ .vmem, ⟨27, _⟩ => ⟨S32x5x1x5, .f32⟩
  | .local _ .vmem, ⟨28, _⟩ => ⟨S32x5x1x5, .f32⟩
  | .local _ .vmem, ⟨29, _⟩ => ⟨S32x1x5, .f32⟩
  | .local _ .vmem, ⟨30, _⟩ => ⟨S32x1x5, .f32⟩
  | .local _ .vmem, ⟨31, _⟩ => ⟨S32x1x5, .f32⟩
  | .local _ .vmem, ⟨32, _⟩ => ⟨S32x1x5, .f32⟩
  | .local _ .vmem, ⟨33, _⟩ => ⟨S32x1x1, .f32⟩
  | .local _ .vmem, ⟨34, _⟩ => ⟨S32x1x1, .f32⟩
  | .local _ .vmem, ⟨35, _⟩ => ⟨S32x1x1, .f32⟩
  | .local _ .vmem, ⟨36, _⟩ => ⟨S32x1x1, .f32⟩
  | .local _ .vmem, ⟨37, _⟩ => ⟨S32x1x1, .f32⟩
  | .local _ .vmem, ⟨38, _⟩ => ⟨S32x1x1, .f32⟩
  | .local _ .vmem, ⟨39, _⟩ => ⟨S1x2048, .f32⟩
  | .local _ .vmem, ⟨40, _⟩ => ⟨S1x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg5_1 : Ref sig .tc := ⟨.vmem, 32, rfl⟩
abbrev cc1_stg6_0 : Ref sig .tc := ⟨.vmem, 33, rfl⟩
abbrev cc1_stg6_1 : Ref sig .tc := ⟨.vmem, 34, rfl⟩
abbrev cc1_stg7_0 : Ref sig .tc := ⟨.vmem, 35, rfl⟩
abbrev cc1_stg7_1 : Ref sig .tc := ⟨.vmem, 36, rfl⟩
abbrev cc1_stg8_0 : Ref sig .tc := ⟨.vmem, 37, rfl⟩
abbrev cc1_stg8_1 : Ref sig .tc := ⟨.vmem, 38, rfl⟩
abbrev cc1_stg9_0 : Ref sig .tc := ⟨.vmem, 39, rfl⟩
abbrev cc1_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let v14 : Index := Scalar.indexCast arg13
  let c0_7 : Index := 0#32
  ![v14.toNat, 0]
def k0_off2 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v20 : Index := Scalar.indexCast arg13
  let c0_8 : Index := 0#32
  let c0_9 : Index := 0#32
  ![v20.toNat, 0, 0]
def k0_off3 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v96 : Index := Scalar.indexCast arg13
  let c0_12 : Index := 0#32
  let c0_13 : Index := 0#32
  let c0_14 : Index := 0#32
  ![v96.toNat, 0, 0, 0]
def k0_off4 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v315 : Index := Scalar.indexCast arg13
  let c0_19 : Index := 0#32
  let c0_20 : Index := 0#32
  ![v315.toNat, 0, 0]
def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x128x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x5x128x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x128x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x128x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![1, 4], ![false, false]⟩

@[reducible] def k1_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k1_off1 (k1_t1 : Fin k1_t1_loop.trips) : Fin 2 → Nat :=
  let c0_i32_1 : BitVec 32 := 0#32
  let c1_i32 : BitVec 32 := 1#32
  let arg13 : BitVec 32 := Scf.iv c0_i32_1 c1_i32 k1_t1
  let v14 : Index := Scalar.indexCast arg13
  let c0_7 : Index := 0#32
  ![v14.toNat, 0]
def k1_off2 (k1_t1 : Fin k1_t1_loop.trips) : Fin 3 → Nat :=
  let c0_i32_1 : BitVec 32 := 0#32
  let c1_i32 : BitVec 32 := 1#32
  let arg13 : BitVec 32 := Scf.iv c0_i32_1 c1_i32 k1_t1
  let v18 : Index := Scalar.indexCast arg13
  let c0_8 : Index := 0#32
  let c0_9 : Index := 0#32
  ![v18.toNat, 0, 0]
def k1_off3 (k1_t1 : Fin k1_t1_loop.trips) : Fin 4 → Nat :=
  let c0_i32_1 : BitVec 32 := 0#32
  let c1_i32 : BitVec 32 := 1#32
  let arg13 : BitVec 32 := Scf.iv c0_i32_1 c1_i32 k1_t1
  let v94 : Index := Scalar.indexCast arg13
  let c0_12 : Index := 0#32
  let c0_13 : Index := 0#32
  let c0_14 : Index := 0#32
  ![v94.toNat, 0, 0, 0]
def k1_off4 (k1_t1 : Fin k1_t1_loop.trips) : Fin 3 → Nat :=
  let c0_i32_1 : BitVec 32 := 0#32
  let c1_i32 : BitVec 32 := 1#32
  let arg13 : BitVec 32 := Scf.iv c0_i32_1 c1_i32 k1_t1
  let v313 : Index := Scalar.indexCast arg13
  let c0_19 : Index := 0#32
  let c0_20 : Index := 0#32
  ![v313.toNat, 0, 0]
def k1_cond2 (i : grid1.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x1x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x5x1x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S32x1x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S32x1x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S32x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S32x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S32x1x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

class Facts₀ : Prop where
  transposes_S2048x128_S128x2048_1_0 : S2048x128.Transposes [1, 0] S128x2048
  shapeCasts_S16384x5x1_S128x128x5 : S16384x5x1.ShapeCasts S128x128x5
  shapeCasts_S16384x5x5_S128x128x5x5 : S16384x5x5.ShapeCasts S128x128x5x5
  transposes_S128x128x5x5_S128x5x128x5_0_3_1_2 : S128x128x5x5.Transposes [0, 3, 1, 2] S128x5x128x5
  shapeCasts_S16384x1x5_S128x128x5 : S16384x1x5.ShapeCasts S128x128x5
  shapeCasts_S16384x1x1_S128x128x1 : S16384x1x1.ShapeCasts S128x128x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S1x512 : 0 < S1x512.numel
  shapeCasts_S1x512_S512 : S1x512.ShapeCasts S512
  shapeCasts_S512_S1x512 : S512.ShapeCasts S1x512
  shapeCasts_S1x512_S1x512 : S1x512.ShapeCasts S1x512
  broadcasts_S1x512_S128x512 : S1x512.Broadcasts S128x512
  h_S1x128x5 : 0 < S1x128x5.numel
  shapeCasts_S1x128x5_S128x5 : S1x128x5.ShapeCasts S128x5
  slices_S128x5_o0_0_S128x1 : S128x5.Slices ![0, 0] S128x1
  shapeCasts_S128x1_S128 : S128x1.ShapeCasts S128
  shapeCasts_S128_S128x1 : S128.ShapeCasts S128x1
  shapeCasts_S128x1_S128x1 : S128x1.ShapeCasts S128x1
  broadcasts_S128x1_S128x512 : S128x1.Broadcasts S128x512
  slices_S128x5_o0_1_S128x1 : S128x5.Slices ![0, 1] S128x1
  slices_S128x5_o0_2_S128x1 : S128x5.Slices ![0, 2] S128x1
  slices_S128x5_o0_3_S128x1 : S128x5.Slices ![0, 3] S128x1
  slices_S128x5_o0_4_S128x1 : S128x5.Slices ![0, 4] S128x1
  h_S1x5x128x5 : 0 < S1x5x128x5.numel
  shapeCasts_S1x5x128x5_S5x128x5 : S1x5x128x5.ShapeCasts S5x128x5
  slices_S5x128x5_o0_0_0_S1x128x1 : S5x128x5.Slices ![0, 0, 0] S1x128x1
  shapeCasts_S1x128x1_S128 : S1x128x1.ShapeCasts S128
  slices_S5x128x5_o1_0_0_S1x128x1 : S5x128x5.Slices ![1, 0, 0] S1x128x1
  slices_S5x128x5_o2_0_0_S1x128x1 : S5x128x5.Slices ![2, 0, 0] S1x128x1
  slices_S5x128x5_o3_0_0_S1x128x1 : S5x128x5.Slices ![3, 0, 0] S1x128x1
  slices_S5x128x5_o4_0_0_S1x128x1 : S5x128x5.Slices ![4, 0, 0] S1x128x1
  slices_S5x128x5_o0_0_1_S1x128x1 : S5x128x5.Slices ![0, 0, 1] S1x128x1
  slices_S5x128x5_o1_0_1_S1x128x1 : S5x128x5.Slices ![1, 0, 1] S1x128x1
  slices_S5x128x5_o2_0_1_S1x128x1 : S5x128x5.Slices ![2, 0, 1] S1x128x1
  slices_S5x128x5_o3_0_1_S1x128x1 : S5x128x5.Slices ![3, 0, 1] S1x128x1
  slices_S5x128x5_o4_0_1_S1x128x1 : S5x128x5.Slices ![4, 0, 1] S1x128x1
  slices_S5x128x5_o0_0_2_S1x128x1 : S5x128x5.Slices ![0, 0, 2] S1x128x1
  slices_S5x128x5_o1_0_2_S1x128x1 : S5x128x5.Slices ![1, 0, 2] S1x128x1
  slices_S5x128x5_o2_0_2_S1x128x1 : S5x128x5.Slices ![2, 0, 2] S1x128x1
  slices_S5x128x5_o3_0_2_S1x128x1 : S5x128x5.Slices ![3, 0, 2] S1x128x1
  slices_S5x128x5_o4_0_2_S1x128x1 : S5x128x5.Slices ![4, 0, 2] S1x128x1
  slices_S5x128x5_o0_0_3_S1x128x1 : S5x128x5.Slices ![0, 0, 3] S1x128x1
  slices_S5x128x5_o1_0_3_S1x128x1 : S5x128x5.Slices ![1, 0, 3] S1x128x1
  slices_S5x128x5_o2_0_3_S1x128x1 : S5x128x5.Slices ![2, 0, 3] S1x128x1
  slices_S5x128x5_o3_0_3_S1x128x1 : S5x128x5.Slices ![3, 0, 3] S1x128x1
  slices_S5x128x5_o4_0_3_S1x128x1 : S5x128x5.Slices ![4, 0, 3] S1x128x1
  slices_S5x128x5_o0_0_4_S1x128x1 : S5x128x5.Slices ![0, 0, 4] S1x128x1
  slices_S5x128x5_o1_0_4_S1x128x1 : S5x128x5.Slices ![1, 0, 4] S1x128x1
  slices_S5x128x5_o2_0_4_S1x128x1 : S5x128x5.Slices ![2, 0, 4] S1x128x1
  slices_S5x128x5_o3_0_4_S1x128x1 : S5x128x5.Slices ![3, 0, 4] S1x128x1
  slices_S5x128x5_o4_0_4_S1x128x1 : S5x128x5.Slices ![4, 0, 4] S1x128x1
  h_S1x128x1 : 0 < S1x128x1.numel
  shapeCasts_S1x128x1_S128x1 : S1x128x1.ShapeCasts S128x1
  shapeCasts_S128x5x1_S128x1x5 : S128x5x1.ShapeCasts S128x1x5
  shapeCasts_S128x5x5_S128x1x5x5 : S128x5x5.ShapeCasts S128x1x5x5
  transposes_S128x1x5x5_S128x5x1x5_0_3_1_2 : S128x1x5x5.Transposes [0, 3, 1, 2] S128x5x1x5
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S1x2048_S2048 : S1x2048.ShapeCasts S2048
  shapeCasts_S2048_S1x2048 : S2048.ShapeCasts S1x2048
  h_S1x1x5 : 0 < S1x1x5.numel
  shapeCasts_S1x1x5_S1x5 : S1x1x5.ShapeCasts S1x5
  slices_S1x5_o0_0_S1x1 : S1x5.Slices ![0, 0] S1x1
  shapeCasts_S1x1_S1 : S1x1.ShapeCasts S1
  shapeCasts_S1_S1x1 : S1.ShapeCasts S1x1
  shapeCasts_S1x1_S1x1 : S1x1.ShapeCasts S1x1
  broadcasts_S1x1_S1x2048 : S1x1.Broadcasts S1x2048
  slices_S1x5_o0_1_S1x1 : S1x5.Slices ![0, 1] S1x1
  slices_S1x5_o0_2_S1x1 : S1x5.Slices ![0, 2] S1x1
  slices_S1x5_o0_3_S1x1 : S1x5.Slices ![0, 3] S1x1
  slices_S1x5_o0_4_S1x1 : S1x5.Slices ![0, 4] S1x1
  h_S1x5x1x5 : 0 < S1x5x1x5.numel
  shapeCasts_S1x5x1x5_S5x1x5 : S1x5x1x5.ShapeCasts S5x1x5
  slices_S5x1x5_o0_0_0_S1x1x1 : S5x1x5.Slices ![0, 0, 0] S1x1x1
  shapeCasts_S1x1x1_S1 : S1x1x1.ShapeCasts S1
  slices_S5x1x5_o1_0_0_S1x1x1 : S5x1x5.Slices ![1, 0, 0] S1x1x1
  slices_S5x1x5_o2_0_0_S1x1x1 : S5x1x5.Slices ![2, 0, 0] S1x1x1
  slices_S5x1x5_o3_0_0_S1x1x1 : S5x1x5.Slices ![3, 0, 0] S1x1x1
  slices_S5x1x5_o4_0_0_S1x1x1 : S5x1x5.Slices ![4, 0, 0] S1x1x1
  slices_S5x1x5_o0_0_1_S1x1x1 : S5x1x5.Slices ![0, 0, 1] S1x1x1
  slices_S5x1x5_o1_0_1_S1x1x1 : S5x1x5.Slices ![1, 0, 1] S1x1x1
  slices_S5x1x5_o2_0_1_S1x1x1 : S5x1x5.Slices ![2, 0, 1] S1x1x1
  slices_S5x1x5_o3_0_1_S1x1x1 : S5x1x5.Slices ![3, 0, 1] S1x1x1
  slices_S5x1x5_o4_0_1_S1x1x1 : S5x1x5.Slices ![4, 0, 1] S1x1x1
  slices_S5x1x5_o0_0_2_S1x1x1 : S5x1x5.Slices ![0, 0, 2] S1x1x1
  slices_S5x1x5_o1_0_2_S1x1x1 : S5x1x5.Slices ![1, 0, 2] S1x1x1
  slices_S5x1x5_o2_0_2_S1x1x1 : S5x1x5.Slices ![2, 0, 2] S1x1x1
  slices_S5x1x5_o3_0_2_S1x1x1 : S5x1x5.Slices ![3, 0, 2] S1x1x1
  slices_S5x1x5_o4_0_2_S1x1x1 : S5x1x5.Slices ![4, 0, 2] S1x1x1
  slices_S5x1x5_o0_0_3_S1x1x1 : S5x1x5.Slices ![0, 0, 3] S1x1x1
  slices_S5x1x5_o1_0_3_S1x1x1 : S5x1x5.Slices ![1, 0, 3] S1x1x1
  slices_S5x1x5_o2_0_3_S1x1x1 : S5x1x5.Slices ![2, 0, 3] S1x1x1
  slices_S5x1x5_o3_0_3_S1x1x1 : S5x1x5.Slices ![3, 0, 3] S1x1x1
  slices_S5x1x5_o4_0_3_S1x1x1 : S5x1x5.Slices ![4, 0, 3] S1x1x1
  slices_S5x1x5_o0_0_4_S1x1x1 : S5x1x5.Slices ![0, 0, 4] S1x1x1
  slices_S5x1x5_o1_0_4_S1x1x1 : S5x1x5.Slices ![1, 0, 4] S1x1x1
  slices_S5x1x5_o2_0_4_S1x1x1 : S5x1x5.Slices ![2, 0, 4] S1x1x1
  slices_S5x1x5_o3_0_4_S1x1x1 : S5x1x5.Slices ![3, 0, 4] S1x1x1
  slices_S5x1x5_o4_0_4_S1x1x1 : S5x1x5.Slices ![4, 0, 4] S1x1x1
  h_S1x1x1 : 0 < S1x1x1.numel
  shapeCasts_S1x1x1_S1x1 : S1x1x1.ShapeCasts S1x1
  transposes_S1x2048_S2048x1_1_0 : S1x2048.Transposes [1, 0] S2048x1
  hrank0 : 0 < grid0.rank
  k0_t1_ok : k0_t1_loop.OK
  k0_off1_inb : ∀ k0_t1 : Fin k0_t1_loop.trips, ∀ a, (k0_off1 k0_t1) a + S1x512.size a ≤ S16x512.size a
  k0_off2_inb : ∀ k0_t1 : Fin k0_t1_loop.trips, ∀ a, (k0_off2 k0_t1) a + S1x128x5.size a ≤ S16x128x5.size a
  k0_off3_inb : ∀ k0_t1 : Fin k0_t1_loop.trips, ∀ a, (k0_off3 k0_t1) a + S1x5x128x5.size a ≤ S16x5x128x5.size a
  k0_off4_inb : ∀ k0_t1 : Fin k0_t1_loop.trips, ∀ a, (k0_off4 k0_t1) a + S1x128x1.size a ≤ S16x128x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S128x2048.size a
  hwx0_0 : ∀ i : grid0.Coords, EltTy.bits .f32 = 32 ∨ (Rect.block (s := S128x2048) S16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x5.size a ≤ S128x128x5.size a
  hwx0_1 : ∀ i : grid0.Coords, EltTy.bits .f32 = 32 ∨ (Rect.block (s := S128x128x5) S16x128x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x5.size a ≤ S128x128x5.size a
  hwx0_2 : ∀ i : grid0.Coords, EltTy.bits .f32 = 32 ∨ (Rect.block (s := S128x128x5) S16x128x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x5x128x5.size a ≤ S128x5x128x5.size a
  hwx0_3 : ∀ i : grid0.Coords, EltTy.bits .f32 = 32 ∨ (Rect.block (s := S128x5x128x5) S16x5x128x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x5.size a ≤ S128x128x5.size a
  hwx0_4 : ∀ i : grid0.Coords, EltTy.bits .f32 = 32 ∨ (Rect.block (s := S128x128x5) S16x128x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x5.size a ≤ S128x128x5.size a
  hwx0_5 : ∀ i : grid0.Coords, EltTy.bits .f32 = 32 ∨ (Rect.block (s := S128x128x5) S16x128x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128x1.size a ≤ S128x128x1.size a
  hwx0_6 : ∀ i : grid0.Coords, EltTy.bits .f32 = 32 ∨ (Rect.block (s := S128x128x1) S16x128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x1.size a ≤ S128x128x1.size a
  hwx0_7 : ∀ i : grid0.Coords, EltTy.bits .f32 = 32 ∨ (Rect.block (s := S128x128x1) S16x128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128x1.size a ≤ S128x128x1.size a
  hwx0_8 : ∀ i : grid0.Coords, EltTy.bits .f32 = 32 ∨ (Rect.block (s := S128x128x1) S16x128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x2048.size a
  hwx0_9 : ∀ i : grid0.Coords, EltTy.bits .f32 = 32 ∨ (Rect.block (s := S128x2048) S128x512.size (cc0_transform_9 i) (hinb0_9 i)).WholeWords (EltTy.packing .f32)
  hrank1 : 0 < grid1.rank
  k1_t1_ok : k1_t1_loop.OK
  k1_off1_inb : ∀ k1_t1 : Fin k1_t1_loop.trips, ∀ a, (k1_off1 k1_t1) a + S1x2048.size a ≤ S32x2048.size a
  k1_off2_inb : ∀ k1_t1 : Fin k1_t1_loop.trips, ∀ a, (k1_off2 k1_t1) a + S1x1x5.size a ≤ S32x1x5.size a
  k1_off3_inb : ∀ k1_t1 : Fin k1_t1_loop.trips, ∀ a, (k1_off3 k1_t1) a + S1x5x1x5.size a ≤ S32x5x1x5.size a
  k1_off4_inb : ∀ k1_t1 : Fin k1_t1_loop.trips, ∀ a, (k1_off4 k1_t1) a + S1x1x1.size a ≤ S32x1x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2048.size a ≤ S128x2048.size a
  hwx1_0 : ∀ i : grid1.Coords, EltTy.bits .f32 = 32 ∨ (Rect.block (s := S128x2048) S32x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x5.size a ≤ S128x1x5.size a
  hwx1_1 : ∀ i : grid1.Coords, EltTy.bits .f32 = 32 ∨ (Rect.block (s := S128x1x5) S32x1x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1x5.size a ≤ S128x1x5.size a
  hwx1_2 : ∀ i : grid1.Coords, EltTy.bits .f32 = 32 ∨ (Rect.block (s := S128x1x5) S32x1x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x5x1x5.size a ≤ S128x5x1x5.size a
  hwx1_3 : ∀ i : grid1.Coords, EltTy.bits .f32 = 32 ∨ (Rect.block (s := S128x5x1x5) S32x5x1x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x1x5.size a ≤ S128x1x5.size a
  hwx1_4 : ∀ i : grid1.Coords, EltTy.bits .f32 = 32 ∨ (Rect.block (s := S128x1x5) S32x1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x1x5.size a ≤ S128x1x5.size a
  hwx1_5 : ∀ i : grid1.Coords, EltTy.bits .f32 = 32 ∨ (Rect.block (s := S128x1x5) S32x1x5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x1x1.size a ≤ S128x1x1.size a
  hwx1_6 : ∀ i : grid1.Coords, EltTy.bits .f32 = 32 ∨ (Rect.block (s := S128x1x1) S32x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x1x1.size a ≤ S128x1x1.size a
  hwx1_7 : ∀ i : grid1.Coords, EltTy.bits .f32 = 32 ∨ (Rect.block (s := S128x1x1) S32x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S32x1x1.size a ≤ S128x1x1.size a
  hwx1_8 : ∀ i : grid1.Coords, EltTy.bits .f32 = 32 ∨ (Rect.block (s := S128x1x1) S32x1x1.size (cc1_transform_8 i) (hinb1_8 i)).WholeWords (EltTy.packing .f32)
  hstage1_9 : ∀ j, (stage1_9 j).IsWhole
  nbuf1_9 : grid1.bufCount reads1_9 false = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)

variable [Facts₀]

abbrev win0_0 : Pipeline.Window sig grid0 :=
  Pipeline.Window.ofSpec (Memref.whole main_v0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x5x128x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x128x5.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x128x5.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S16x128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S16x128x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S16x128x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10) S128x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v10) S32x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S32x1x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S32x1x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S32x5x1x5.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S32x1x5.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S32x1x5.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S32x1x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S32x1x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S32x1x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v16) S1x2048.size cc1_transform_9 reads1_9 true false 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x5x1 : Shape := ⟨3, ![128, 5, 1]⟩
abbrev S128x5x5 : Shape := ⟨3, ![128, 5, 5]⟩
abbrev S128x1x5 : Shape := ⟨3, ![128, 1, 5]⟩
abbrev S128x1x1 : Shape := ⟨3, ![128, 1, 1]⟩
abbrev S128x2048 : Shape := ⟨2, ![128, 2048]⟩
abbrev S128x128x2048 : Shape := ⟨3, ![128, 128, 2048]⟩
abbrev S16384x2048 : Shape := ⟨2, ![16384, 2048]⟩
abbrev S16384x1x2048 : Shape := ⟨3, ![16384, 1, 2048]⟩
abbrev S16384x5x2048 : Shape := ⟨3, ![16384, 5, 2048]⟩
abbrev S_ : Shape := ⟨0, ![]⟩
abbrev S128x1x2048 : Shape := ⟨3, ![128, 1, 2048]⟩
abbrev S128x5x2048 : Shape := ⟨3, ![128, 5, 2048]⟩
abbrev S1x2048 : Shape := ⟨2, ![1, 2048]⟩
abbrev S2048x1 : Shape := ⟨2, ![2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x5, .f32⟩
  | .hbm, ⟨3, _⟩ => ⟨S16384x1x5, .f32⟩
  | .hbm, ⟨4, _⟩ => ⟨S16384x5x1, .f32⟩
  | .hbm, ⟨5, _⟩ => ⟨S16384x5x1, .f32⟩
  | .hbm, ⟨6, _⟩ => ⟨S16384x1x1, .f32⟩
  | .hbm, ⟨7, _⟩ => ⟨S16384x1x1, .f32⟩
  | .hbm, ⟨8, _⟩ => ⟨S16384x1x1, .f32⟩
  | .hbm, ⟨9, _⟩ => ⟨S128x5x1, .f32⟩
  | .hbm, ⟨10, _⟩ => ⟨S128x5x5, .f32⟩
  | .hbm, ⟨11, _⟩ => ⟨S128x1x5, .f32⟩
  | .hbm, ⟨12, _⟩ => ⟨S128x5x1, .f32⟩
  | .hbm, ⟨13, _⟩ => ⟨S128x5x1, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x2048, .f32⟩
  | .hbm, ⟨18, _⟩ => ⟨S128x128x2048, .f32⟩
  | .hbm, ⟨19, _⟩ => ⟨S16384x2048, .f32⟩
  | .hbm, ⟨20, _⟩ => ⟨S16384x1x2048, .f32⟩
  | .hbm, ⟨21, _⟩ => ⟨S16384x5x2048, .f32⟩
  | .hbm, ⟨22, _⟩ => ⟨S16384x5x2048, .f32⟩
  | .hbm, ⟨23, _⟩ => ⟨S16384x5x2048, .f32⟩
  | .hbm, ⟨24, _⟩ => ⟨S16384x5x2048, .f32⟩
  | .hbm, ⟨25, _⟩ => ⟨S16384x5x2048, .f32⟩
  | .hbm, ⟨26, _⟩ => ⟨S_, .f32⟩
  | .hbm, ⟨27, _⟩ => ⟨S16384x5x2048, .f32⟩
  | .hbm, ⟨28, _⟩ => ⟨S16384x5x2048, .f32⟩
  | .hbm, ⟨29, _⟩ => ⟨S_, .f32⟩
  | .hbm, ⟨30, _⟩ => ⟨S16384x5x2048, .f32⟩
  | .hbm, ⟨31, _⟩ => ⟨S16384x5x2048, .f32⟩
  | .hbm, ⟨32, _⟩ => ⟨S16384x5x2048, .f32⟩
  | .hbm, ⟨33, _⟩ => ⟨S16384x5x2048, .f32⟩
  | .hbm, ⟨34, _⟩ => ⟨S16384x5x2048, .f32⟩
  | .hbm, ⟨35, _⟩ => ⟨S16384x5x2048, .f32⟩
  | .hbm, ⟨36, _⟩ => ⟨S16384x5x2048, .f32⟩
  | .hbm, ⟨37, _⟩ => ⟨S16384x5x2048, .f32⟩
  | .hbm, ⟨38, _⟩ => ⟨S_, .f32⟩
  | .hbm, ⟨39, _⟩ => ⟨S16384x5x2048, .f32⟩
  | .hbm, ⟨40, _⟩ => ⟨S16384x5x2048, .f32⟩
  | .hbm, ⟨41, _⟩ => ⟨S_, .f32⟩
  | .hbm, ⟨42, _⟩ => ⟨S16384x5x2048, .f32⟩
  | .hbm, ⟨43, _⟩ => ⟨S16384x5x2048, .f32⟩
  | .hbm, ⟨44, _⟩ => ⟨S16384x5x2048, .f32⟩
  | .hbm, ⟨45, _⟩ => ⟨S16384x1x2048, .f32⟩
  | .hbm, ⟨46, _⟩ => ⟨S16384x1x2048, .f32⟩
  | .hbm, ⟨47, _⟩ => ⟨S16384x1x2048, .f32⟩
  | .hbm, ⟨48, _⟩ => ⟨S16384x1x2048, .f32⟩
  | .hbm, ⟨49, _⟩ => ⟨S16384x1x2048, .f32⟩
  | .hbm, ⟨50, _⟩ => ⟨S16384x1x2048, .f32⟩
  | .hbm, ⟨51, _⟩ => ⟨S16384x1x2048, .f32⟩
  | .hbm, ⟨52, _⟩ => ⟨S16384x1x2048, .f32⟩
  | .hbm, ⟨53, _⟩ => ⟨S128x128x2048, .f32⟩
  | .hbm, ⟨54, _⟩ => ⟨S_, .f32⟩
  | .hbm, ⟨55, _⟩ => ⟨S128x2048, .f32⟩
  | .hbm, ⟨56, _⟩ => ⟨S2048x128, .f32⟩
  | .hbm, ⟨57, _⟩ => ⟨S128x2048, .f32⟩
  | .hbm, ⟨58, _⟩ => ⟨S128x1x2048, .f32⟩
  | .hbm, ⟨59, _⟩ => ⟨S128x2048, .f32⟩
  | .hbm, ⟨60, _⟩ => ⟨S128x1x2048, .f32⟩
  | .hbm, ⟨61, _⟩ => ⟨S128x5x2048, .f32⟩
  | .hbm, ⟨62, _⟩ => ⟨S128x5x2048, .f32⟩
  | .hbm, ⟨63, _⟩ => ⟨S128x5x2048, .f32⟩
  | .hbm, ⟨64, _⟩ => ⟨S128x5x2048, .f32⟩
  | .hbm, ⟨65, _⟩ => ⟨S128x5x2048, .f32⟩
  | .hbm, ⟨66, _⟩ => ⟨S_, .f32⟩
  | .hbm, ⟨67, _⟩ => ⟨S128x5x2048, .f32⟩
  | .hbm, ⟨68, _⟩ => ⟨S128x5x2048, .f32⟩
  | .hbm, ⟨69, _⟩ => ⟨S_, .f32⟩
  | .hbm, ⟨70, _⟩ => ⟨S128x5x2048, .f32⟩
  | .hbm, ⟨71, _⟩ => ⟨S128x5x2048, .f32⟩
  | .hbm, ⟨72, _⟩ => ⟨S128x5x2048, .f32⟩
  | .hbm, ⟨73, _⟩ => ⟨S128x5x2048, .f32⟩
  | .hbm, ⟨74, _⟩ => ⟨S128x5x2048, .f32⟩
  | .hbm, ⟨75, _⟩ => ⟨S128x5x2048, .f32⟩
  | .hbm, ⟨76, _⟩ => ⟨S128x5x2048, .f32⟩
  | .hbm, ⟨77, _⟩ => ⟨S128x5x2048, .f32⟩
  | .hbm, ⟨78, _⟩ => ⟨S_, .f32⟩
  | .hbm, ⟨79, _⟩ => ⟨S128x5x2048, .f32⟩
  | .hbm, ⟨80, _⟩ => ⟨S128x5x2048, .f32⟩
  | .hbm, ⟨81, _⟩ => ⟨S_, .f32⟩
  | .hbm, ⟨82, _⟩ => ⟨S128x5x2048, .f32⟩
  | .hbm, ⟨83, _⟩ => ⟨S128x5x2048, .f32⟩
  | .hbm, ⟨84, _⟩ => ⟨S128x5x2048, .f32⟩
  | .hbm, ⟨85, _⟩ => ⟨S128x1x2048, .f32⟩
  | .hbm, ⟨86, _⟩ => ⟨S128x1x2048, .f32⟩
  | .hbm, ⟨87, _⟩ => ⟨S128x1x2048, .f32⟩
  | .hbm, ⟨88, _⟩ => ⟨S128x1x2048, .f32⟩
  | .hbm, ⟨89, _⟩ => ⟨S128x1x2048, .f32⟩
  | .hbm, ⟨90, _⟩ => ⟨S128x1x2048, .f32⟩
  | .hbm, ⟨91, _⟩ => ⟨S128x1x2048, .f32⟩
  | .hbm, ⟨92, _⟩ => ⟨S128x1x2048, .f32⟩
  | .hbm, ⟨93, _⟩ => ⟨S_, .f32⟩
  | .hbm, ⟨94, _⟩ => ⟨S1x2048, .f32⟩
  | .hbm, ⟨95, _⟩ => ⟨S2048x1, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_0 : Ref sig .tc := ⟨.hbm, 93, rfl⟩
abbrev main_v43 : Ref sig .tc := ⟨.hbm, 94, rfl⟩
abbrev main_v44 : Ref sig .tc := ⟨.hbm, 95, rfl⟩

abbrev nD : Nat := 1
abbrev τ : Topo := Topo.v7x

variable {F : FTy → Type} [FloatOps F]

class Facts₀ : Prop where
  transposes_S2048x128_S128x2048_1_0 : S2048x128.Transposes [1, 0] S128x2048
  bcast_S128x2048_S128x128x2048_0_2 : S128x2048.BroadcastsInDim S128x128x2048 (![0, 2] : Fin 2 → Fin S128x128x2048.rank)
  shapeCasts_S128x128x2048_S16384x2048 : S128x128x2048.ShapeCasts S16384x2048
  bcast_S16384x2048_S16384x1x2048_0_2 : S16384x2048.BroadcastsInDim S16384x1x2048 (![0, 2] : Fin 2 → Fin S16384x1x2048.rank)
  bcast_S16384x5x1_S16384x5x2048_0_1_2 : S16384x5x1.BroadcastsInDim S16384x5x2048 (![0, 1, 2] : Fin 3 → Fin S16384x5x2048.rank)
  bcast_S_S16384x5x2048 : S_.BroadcastsInDim S16384x5x2048 (![] : Fin 0 → Fin S16384x5x2048.rank)
  bcast_S16384x1x1_S16384x1x2048_0_1_2 : S16384x1x1.BroadcastsInDim S16384x1x2048 (![0, 1, 2] : Fin 3 → Fin S16384x1x2048.rank)
  shapeCasts_S16384x1x2048_S128x128x2048 : S16384x1x2048.ShapeCasts S128x128x2048
  reducesTo_S128x128x2048_S128x2048_d0 : S128x128x2048.ReducesTo [0] S128x2048
  h_S_ : 0 < S_.numel
  transposes_S128x2048_S2048x128_1_0 : S128x2048.Transposes [1, 0] S2048x128
  bcast_S128x2048_S128x1x2048_0_2 : S128x2048.BroadcastsInDim S128x1x2048 (![0, 2] : Fin 2 → Fin S128x1x2048.rank)
  shapeCasts_S128x1x2048_S128x2048 : S128x1x2048.ShapeCasts S128x2048
  bcast_S128x5x1_S128x5x2048_0_1_2 : S128x5x1.BroadcastsInDim S128x5x2048 (![0, 1, 2] : Fin 3 → Fin S128x5x2048.rank)
  bcast_S_S128x5x2048 : S_.BroadcastsInDim S128x5x2048 (![] : Fin 0 → Fin S128x5x2048.rank)
  bcast_S128x1x1_S128x1x2048_0_1_2 : S128x1x1.BroadcastsInDim S128x1x2048 (![0, 1, 2] : Fin 3 → Fin S128x1x2048.rank)
  reducesTo_S128x1x2048_S1x2048_d0 : S128x1x2048.ReducesTo [0] S1x2048
  transposes_S1x2048_S2048x1_1_0 : S1x2048.Transposes [1, 0] S2048x1
  dot_S16384x5x1_S16384x1x2048_S16384x5x2048_2_1_1_2_0_0_wf : DotDims.WF S16384x5x1 S16384x1x2048 S16384x5x2048 [2] [1] [1] [2] [0] [0]
  dot_S16384x5x5_S16384x5x2048_S16384x5x2048_2_1_1_2_0_0_wf : DotDims.WF S16384x5x5 S16384x5x2048 S16384x5x2048 [2] [1] [1] [2] [0] [0]
  dot_S16384x1x5_S16384x5x2048_S16384x1x2048_2_1_1_2_0_0_wf : DotDims.WF S16384x1x5 S16384x5x2048 S16384x1x2048 [2] [1] [1] [2] [0] [0]
  dot_S128x5x1_S128x1x2048_S128x5x2048_2_1_1_2_0_0_wf : DotDims.WF S128x5x1 S128x1x2048 S128x5x2048 [2] [1] [1] [2] [0] [0]
  dot_S128x5x5_S128x5x2048_S128x5x2048_2_1_1_2_0_0_wf : DotDims.WF S128x5x5 S128x5x2048 S128x5x2048 [2] [1] [1] [2] [0] [0]
  dot_S128x1x5_S128x5x2048_S128x1x2048_2_1_1_2_0_0_wf : DotDims.WF S128x1x5 S128x5x2048 S128x1x2048 [2] [1] [1] [2] [0] [0]

variable [Facts₀]

def dot_S16384x5x1_S16384x1x2048_S16384x5x2048_2_1_1_2_0_0 : DotDims S16384x5x1 S16384x1x2048 S16384x5x2048 where
  lhsContracting := [2]
  rhsContracting := [1]
  lhsNonContracting := [1]
  rhsNonContracting := [2]
  lhsBatch := [0]
  rhsBatch := [0]
  wf := dot_S16384x5x1_S16384x1x2048_S16384x5x2048_2_1_1_2_0_0_wf
def dot_S16384x5x5_S16384x5x2048_S16384x5x2048_2_1_1_2_0_0 : DotDims S16384x5x5 S16384x5x2048 S16384x5x2048 where
  lhsContracting := [2]
  rhsContracting := [1]
  lhsNonContracting := [1]
  rhsNonContracting := [2]
  lhsBatch := [0]
  rhsBatch := [0]
  wf := dot_S16384x5x5_S16384x5x2048_S16384x5x2048_2_1_1_2_0_0_wf
def dot_S16384x1x5_S16384x5x2048_S16384x1x2048_2_1_1_2_0_0 : DotDims S16384x1x5 S16384x5x2048 S16384x1x2048 where
  lhsContracting := [2]
  rhsContracting := [1]
  lhsNonContracting := [1]
  rhsNonContracting := [2]
  lhsBatch := [0]
  rhsBatch := [0]
  wf := dot_S16384x1x5_S16384x5x2048_S16384x1x2048_2_1_1_2_0_0_wf
def dot_S128x5x1_S128x1x2048_S128x5x2048_2_1_1_2_0_0 : DotDims S128x5x1 S128x1x2048 S128x5x2048 where
  lhsContracting := [2]
  rhsContracting := [1]
  lhsNonContracting := [1]
  rhsNonContracting := [2]
  lhsBatch := [0]
  rhsBatch := [0]
  wf := dot_S128x5x1_S128x1x2048_S128x5x2048_2_1_1_2_0_0_wf
def dot_S128x5x5_S128x5x2048_S128x5x2048_2_1_1_2_0_0 : DotDims S128x5x5 S128x5x2048 S128x5x2048 where
  lhsContracting := [2]
  rhsContracting := [1]
  lhsNonContracting := [1]
  rhsNonContracting := [2]
  lhsBatch := [0]
  rhsBatch := [0]
  wf := dot_S128x5x5_S128x5x2048_S128x5x2048_2_1_1_2_0_0_wf
def dot_S128x1x5_S128x5x2048_S128x1x2048_2_1_1_2_0_0 : DotDims S128x1x5 S128x5x2048 S128x1x2048 where
  lhsContracting := [2]
  rhsContracting := [1]
  lhsNonContracting := [1]
  rhsNonContracting := [2]
  lhsBatch := [0]
  rhsBatch := [0]
  wf := dot_S128x1x5_S128x5x2048_S128x1x2048_2_1_1_2_0_0_wf

class Facts : Prop extends Facts₀ where

variable [Facts]
-- ==== Proof.Iface.lean ====
/-
  What the several-region assembly asks of each of the two kernel regions, as a record: the region's pipeline
  proof data over ANY entry contents of the core's buffers, with the five facts the launch of a region needs —
  its arrays are the entry contents, full shares, nothing owed, the body obligation at every grid point, and the
  region invariant entered from and returned to the class invariant (the scoped rest and the generator register).
-/
import proofs.«107607_j19129784336543_2_alg».proof.Proof.Gen.KernelIdeal.Launch
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Core `c`'s TensorCore buffers at some contents, read at a reference: what a region is entered from. -/
abbrev Entry (F : FTy → Type) [FloatOps F] : Type :=
  (c : Dev nD) → (b : Ref sig .tc) → Buf (Elt F) ((c : Thread nD τ).loc b)

/-- Region 0 (the first layer's pallas_call, pipeline `cfg0`) as the assembly sees it. -/
structure Region0 (F : FTy → Type) [FloatOps F] where
  dat : Entry F → (c : Dev nD) → Dat τ (Elt F) Unit ℕ (UR sig nD τ) ℕ cfg0 c
  hA : ∀ V c w, (dat V c).A w = V c (Pipeline.arrRef spec0 w)
  hq : ∀ V c, (dat V c).q = fun _ => fullShare
  howed : ∀ V c, (dat V c).owed = fun _ => 0
  hrec : ∀ V c, (dat V c).recorded 0 = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1 (the second layer's pallas_call, pipeline `cfg1`) as the assembly sees it. -/
structure Region1 (F : FTy → Type) [FloatOps F] where
  dat : Entry F → (c : Dev nD) → Dat τ (Elt F) Unit ℕ (UR sig nD τ) ℕ cfg1 c
  hA : ∀ V c w, (dat V c).A w = V c (Pipeline.arrRef spec1 w)
  hq : ∀ V c, (dat V c).q = fun _ => fullShare
  howed : ∀ V c, (dat V c).owed = fun _ => 0
  hrec : ∀ V c, (dat V c).recorded 0 = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

end Cert.KernelIdeal.Hand

end
-- ==== Proof.R0Shared.lean ====
/-
  The first layer's kernel region (grid 4 x 8, point t = b * 8 + ib): what its per-case runs and its proof data
  share. The body zeroes its accumulator when ib = 0 and copies it to the output block when ib = 7, so a point is in
  one of three cases by t mod 8; the output window is idle (neither stored nor written back) except at ib = 7; every
  input window's buffer holds its block of the array at every point; and the class invariant is the accumulator
  scratch at some contents beside the core's other scoped buffers and the generator register.
-/
import proofs.«107607_j19129784336543_2_alg».proof.Proof.Gen.KernelIdeal.Launch
import proofs.«107607_j19129784336543_2_alg».proof.Proof.Gen.KernelIdeal.Skeleton
import proofs.«107607_j19129784336543_2_alg».proof.Proof.Gen.KernelIdeal.Points
import proofs.«107607_j19129784336543_2_alg».proof.Proof.Gen.KernelIdeal.Loops
import proofs.«107607_j19129784336543_2_alg».proof.Proof.Iface
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current buffer holds its block at every point, fetched there or not: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current buffer holds its block at every point, fetched there or not: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- `ib = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- `ib = 7`, the last block of the summed axis, as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Away from `ib = 7` nothing is stored into the output block and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the body is called with -/

/-- One buffer of the output window, through which its contents are stated. -/
abbrev VO0_9 : View sig .tc .vmem S128x512 .f32 := (Memref.whole cc0_stg9_0 : Memref sig .tc .vmem S128x512 .f32).view
abbrev ms0_0 (t : Fin cfg0.N) : Memref sig .tc .vmem S16x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x5x128x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x5 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x5 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
/-- The accumulator: a whole scoped buffer of the kernel's own, which it carries from one point to the next. -/
abbrev scM0_0 : Memref sig .tc .vmem S128x512 .f32 := Memref.whole cc0_scratch0
abbrev VS0_0 : View sig .tc .vmem S128x512 .f32 := scM0_0.view

/-- The core's scoped buffers other than this region's windows' buffers and its accumulator (the second region's), unopened. -/
abbrev Rest0 (c : Dev nD) : sProp 𝕄 :=
  Pipeline.scopedRestBut (Ix := Unit) (Name := ℕ) (U := UR sig nD τ) (Lvl := ℕ) (Val := Elt F) spec0 c [cc0_scratch0]

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole, Idealize.SL.BI.bigSepL_singleton]
  rfl

end Cert.KernelIdeal.Hand

end
-- ==== Proof.R0RunA.lean ====
/-
  The first layer's kernel body at a point with ib = 0 (and ib ≠ 7): the accumulator, at any contents, is zeroed,
  the loop's sum over the point's 16 input features is added to it, and the output block is left untouched.
-/
import proofs.«107607_j19129784336543_2_alg».proof.Proof.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at anything, the output buffer at contents handed back untouched, the body runs to the continuation holding the inputs
    as they were, the accumulator with its pieces written. -/
noncomputable def kernelRun0_A (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) :
    Σ' (L9 : List (View.Piece (Elt F) S128x512 .f32)), { LS0 : List (View.Piece (Elt F) S128x512 .f32) //
      ∀ (xi9 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.R0RunB.lean ====
/-
  The first layer's kernel body at a point with 0 < ib < 7: the loop's sum over the point's 16 input features is
  added to the accumulator the point before left, and the output block is left untouched.
-/
import proofs.«107607_j19129784336543_2_alg».proof.Proof.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at what the point before left, the output buffer at contents handed back untouched, the body runs to the continuation holding the inputs
    as they were, the accumulator with its pieces written. -/
noncomputable def kernelRun0_B (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    Σ' (L9 : List (View.Piece (Elt F) S128x512 .f32)), { LS0 : List (View.Piece (Elt F) S128x512 .f32) //
      ∀ (xi9 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.R0RunC.lean ====
/-
  The first layer's kernel body at a point with ib = 7: the loop's sum over the point's 16 input features is added
  to the accumulator the point before left, and the result is copied into the output block.
-/
import proofs.«107607_j19129784336543_2_alg».proof.Proof.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at what the point before left, the output buffer at anything, the body runs to the continuation holding the inputs
    as they were, the output buffer with its pieces written and the accumulator with its. -/
noncomputable def kernelRun0_C (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    Σ' (L9 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.R0Dat.lean ====
/-
  The first layer's kernel region: its pipeline proof data. After the body at point t the accumulator holds the
  sum, over the blocks of input features the points of t's batch block have met so far, of the networks' outputs; it
  is defined by recursion on the point (reset where ib = 0), each step the pieces the point's run leaves, read back.
  The output block's buffer holds the accumulator where ib = 7 and is idle elsewhere. The region invariant is the
  class's before the first point and afterwards the accumulator at the contents the point before left. The body
  obligation holds at every point by the case's run.
-/
import proofs.«107607_j19129784336543_2_alg».proof.Proof.R0RunA
import proofs.«107607_j19129784336543_2_alg».proof.Proof.R0RunB
import proofs.«107607_j19129784336543_2_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## What each case leaves in the output block's buffer and in the accumulator -/

/-- What case A leaves in the output block's buffer: its pieces read back (none: a placeholder nothing consults, the window being idle there). -/
def out0_A_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) : Vec F S128x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's stores into the accumulator cover it. -/
theorem scover0_A_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (y : S128x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S128x512.size (by sl_kernel_rfl) y

/-- What case A leaves in the accumulator: its pieces read back. -/
def sout0_A_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) : Vec F S128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- What case B leaves in the output block's buffer: its pieces read back (none: a placeholder nothing consults, the window being idle there). -/
def out0_B_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's stores into the accumulator cover it. -/
theorem scover0_B_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S128x512.size (by sl_kernel_rfl) y

/-- What case B leaves in the accumulator: its pieces read back. -/
def sout0_B_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's one store into the output block's buffer covers it. -/
theorem cover0_C_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S128x512.size (by sl_kernel_rfl) y

/-- What case C leaves in the output block's buffer: its pieces read back. -/
def out0_C_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's stores into the accumulator cover it. -/
theorem scover0_C_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S128x512.size (by sl_kernel_rfl) y

/-- What case C leaves in the accumulator: its pieces read back. -/
def sout0_C_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-! ## The accumulation over the points -/

/-- What the output block's buffer and the accumulator hold after the body at position `n`: the case the closed forms
    select there, run at the point's memrefs and input blocks, over the accumulator the position before left. -/
def outsAt0 (c : Dev nD) : (n : ℕ) → n < cfg0.N → Vec F S128x512 .f32 × Vec F S128x512 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, beside the core's other scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The pipeline's proof data -/

/-- The arrays as the region finds them; after the body at point `t` each input's buffer at its block and the output
    block's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outsAt0_C V c t h0 h1]
      unfold out0_C_9 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 32 := N_0; omega)

/-- Region 0 as the assembly sees it. -/
def region0 : Region0 F where
  dat := fun V c => dat0 V c
  hA := fun V c w => A_eq0 V c w
  hq := fun _ _ => rfl
  howed := fun _ _ => rfl
  hrec := fun _ _ => rfl
  hbody := fun V c => body_obligation0 V c
  hin := fun V c => hin0 V c
  hout := fun V c => hout0 V c

end Cert.KernelIdeal.Hand

end
-- ==== Proof.R1Shared.lean ====
/-
  Region 1 (the second layer's pallas_call, pipeline `cfg1`): what its three whole-body runs and its proof data
  share. The windows' blocks read off the entry contents; each input window's staging buffer holds its block at
  every point; the body's two branch conditions in closed form over the grid (the first holds at the points
  ≡ 0 mod 4, the second at the points ≡ 3 mod 4); where the output window is idle and not written back; the
  staging and scratch memrefs by name; and the class invariant with the kernel's own scratch split off the
  core's other scoped buffers.
-/
import proofs.«107607_j19129784336543_2_alg».proof.Proof.Iface
import proofs.«107607_j19129784336543_2_alg».proof.Proof.Gen.KernelIdeal.Skeleton
import proofs.«107607_j19129784336543_2_alg».proof.Proof.Gen.KernelIdeal.Points
import proofs.«107607_j19129784336543_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : Entry F)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional, from the grid coordinates: the inner coordinate is the last. -/
abbrev cond1_1 (i : grid1.Coords) : Prop := k1_cond2 i = 1#1
/-- It holds at the points ≡ 3 (mod 4): decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Where only the first conditional is taken the configuration calls the output window idle: nothing is stored into it. -/
theorem idleAt1_9_A : ∀ t : Fin cfg1.N, cond1_0 (grid1.coords t) → ¬cond1_1 (grid1.coords t) → cfg1.idle 9 (grid1.coords t) = true := by decide +kernel
/-- There the pipeline does not write the output window's block back. -/
theorem noFlush1_9_A : ∀ t : Fin cfg1.N, cond1_0 (grid1.coords t) → ¬cond1_1 (grid1.coords t) → (cfg1.win 9).flush t = false := by decide +kernel
/-- Where neither conditional is taken the output window is idle as well. -/
theorem idleAt1_9_B : ∀ t : Fin cfg1.N, ¬cond1_0 (grid1.coords t) → ¬cond1_1 (grid1.coords t) → cfg1.idle 9 (grid1.coords t) = true := by decide +kernel
/-- And not written back. -/
theorem noFlush1_9_B : ∀ t : Fin cfg1.N, ¬cond1_0 (grid1.coords t) → ¬cond1_1 (grid1.coords t) → (cfg1.win 9).flush t = false := by decide +kernel
/-- Where only the second conditional is taken the output window is live: the body stores into it. -/
theorem liveAt1_9_C : ∀ t : Fin cfg1.N, ¬cond1_0 (grid1.coords t) → cond1_1 (grid1.coords t) → cfg1.idle 9 (grid1.coords t) = false := by decide +kernel

/-! ## The staging and scratch memrefs -/

/-- One staging buffer of the output window, through which its contents are stated (the choice does not matter). -/
abbrev VO1_9 : View sig .tc .vmem S1x2048 .f32 := (Memref.whole cc1_stg9_0 : Memref sig .tc .vmem S1x2048 .f32).view
abbrev ms1_0 (t : Fin cfg1.N) : Memref sig .tc .vmem S32x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1x5 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x5x1x5 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1x5 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1x5 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x2048 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S1x2048 .f32 := Memref.whole cc1_scratch0
/-- The scratch the kernel carries between points, as a view: what it holds is stated through it. -/
abbrev VS1_0 : View sig .tc .vmem S1x2048 .f32 := scM1_0.view

/-! ## The class invariant with the scratch singled out -/

/-- The core's scoped buffers other than this pipeline's staging buffers and its own scratch (the first region's
    staging buffers and scratch), each at some contents: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents: the scoped rest is the
    scratch's buffer beside the remainder, and the generator register is at some state. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, Idealize.SL.BI.bigSepL_singleton]
  rfl

end Cert.KernelIdeal.Hand

end
-- ==== Proof.R1RunA.lean ====
/-
  Region 1's kernel body run whole in the case of the first conditional taken, the second not (the first point: the inner coordinate is 0).
  On whole staging memrefs, the nine inputs at their contents, the output's (which this case does not store into) at contents handed back untouched,
  the scratch at anything (the case zeroes it before reading it), the body runs to the continuation holding the inputs as they were
  and the scratch with its pieces written. The counted loop only loads the inputs and carries a register value; it is
  passed by its invariant. The pieces each written memref ends with are the witness the run finds.
-/
import proofs.«107607_j19129784336543_2_alg».proof.Proof.R1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_A (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) :
    Σ' (L9 : List (View.Piece (Elt F) S1x2048 .f32)), { LS0 : List (View.Piece (Elt F) S1x2048 .f32) //
      ∀ (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.R1RunB.lean ====
/-
  Region 1's kernel body run whole in the case of neither conditional taken (the points whose inner coordinate is neither 0 nor the last).
  On whole staging memrefs, the nine inputs at their contents, the output's (which this case does not store into) at contents handed back untouched,
  the scratch at what the point before left, the body runs to the continuation holding the inputs as they were
  and the scratch with its pieces written. The counted loop only loads the inputs and carries a register value; it is
  passed by its invariant. The pieces each written memref ends with are the witness the run finds.
-/
import proofs.«107607_j19129784336543_2_alg».proof.Proof.R1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_B (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    Σ' (L9 : List (View.Piece (Elt F) S1x2048 .f32)), { LS0 : List (View.Piece (Elt F) S1x2048 .f32) //
      ∀ (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.R1RunC.lean ====
/-
  Region 1's kernel body run whole in the case of the second conditional taken, the first not (the last point: the inner coordinate is the last).
  On whole staging memrefs, the nine inputs at their contents, the output's at anything,
  the scratch at what the point before left, the body runs to the continuation holding the inputs as they were, the output's buffer with its pieces written
  and the scratch with its pieces written. The counted loop only loads the inputs and carries a register value; it is
  passed by its invariant. The pieces each written memref ends with are the witness the run finds.
-/
import proofs.«107607_j19129784336543_2_alg».proof.Proof.R1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_C (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    Σ' (L9 : List (View.Piece (Elt F) S1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.R1Dat.lean ====
/-
  Region 1's pipeline proof data and body obligation, over any entry contents `V` of the core's buffers: what the
  output's staging buffer and the scratch hold after each case of the body (the pieces the runs found, read back;
  the scratch's pieces cover it in every case, the output's in the case that stores it), what they hold point by
  point (the scratch at each point over what the point before left: the accumulation), the region invariant
  (before the first point the class's; afterwards the scratch at the point before's contents, the core's other
  scoped buffers unopened, the generator register at some state), the proof data, the body obligation by cases on
  the point, and the invariant entered from and returned to the class invariant.
-/
import proofs.«107607_j19129784336543_2_alg».proof.Proof.R1RunA
import proofs.«107607_j19129784336543_2_alg».proof.Proof.R1RunB
import proofs.«107607_j19129784336543_2_alg».proof.Proof.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in the output's buffer and in the scratch -/

/-- Case A stores nothing into the output window (idle at its points and not written back there): no pieces — a
    placeholder that nothing consults. -/
def out1_A_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) : Vec F S1x2048 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's pieces for the scratch, which the kernel carries between points, cover it (whole-block stores). -/
theorem scover1_A_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (y : S1x2048.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S1x2048.size (by sl_kernel_rfl) y

/-- What case A leaves in the scratch: its pieces read back. -/
def sout1_A_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) : Vec F S1x2048 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case B stores nothing into the output window (idle at its points and not written back there): no pieces — a
    placeholder that nothing consults. -/
def out1_B_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's pieces for the scratch, which the kernel carries between points, cover it (whole-block stores). -/
theorem scover1_B_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S1x2048.size (by sl_kernel_rfl) y

/-- What case B leaves in the scratch: its pieces read back. -/
def sout1_B_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's one whole-block store into the output window tiles its block, so its pieces cover it. -/
theorem cover1_C_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S1x2048.size (by sl_kernel_rfl) y

/-- What case C leaves in the output window's staging buffer: its pieces read back. -/
def out1_C_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for the scratch, which the kernel carries between points, cover it (whole-block stores). -/
theorem scover1_C_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S1x2048.size (by sl_kernel_rfl) y

/-- What case C leaves in the scratch: its pieces read back. -/
def sout1_C_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

section Data
variable (V : Entry F)

/-! ## What the output's buffer and the scratch hold after each point -/

/-- THE ACCUMULATION. What the output window's staging buffer and the scratch hold after the body at position `n`
    (a pair: the output, then the scratch): the case the closed forms select at `n`, run at the point's memrefs and
    input blocks, the scratch read at what this leaves at `n - 1`. An assignment of the conditions no point meets is
    no case. -/
def outsAt1 (c : Dev nD) : (n : ℕ) → n < cfg1.N → Vec F S1x2048 .f32 × Vec F S1x2048 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 4 = 0 then
      if h1 : (n + 1) % 4 = 3 then
        False.elim (by have hN : n + 1 < 4 := lt_of_lt_of_eq hn (show cfg1.N = 4 from N_1); omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 4 = 3 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it, the core's other scoped buffers unopened, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents (the definition projected, never unfolded through `V`). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- Each input window is live at every point, so the body's post for it is its buffer at what the body leaves: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]
theorem leaves1_5 (c : Dev nD) (t : Fin cfg1.N) :
    (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from by
    unfold Dat.leavesExact; rw [liveAt1_5 t], after1_5]
theorem leaves1_6 (c : Dev nD) (t : Fin cfg1.N) :
    (dat1 V c).leavesExact 6 t = owns (c : Thread nD τ) (ms1_6 t) fullShare (iblk1 V c 6 t) := by
  rw [show (dat1 V c).leavesExact 6 t = owns (c : Thread nD τ) (ms1_6 t) fullShare ((dat1 V c).after 6 t) from by
    unfold Dat.leavesExact; rw [liveAt1_6 t], after1_6]
theorem leaves1_7 (c : Dev nD) (t : Fin cfg1.N) :
    (dat1 V c).leavesExact 7 t = owns (c : Thread nD τ) (ms1_7 t) fullShare (iblk1 V c 7 t) := by
  rw [show (dat1 V c).leavesExact 7 t = owns (c : Thread nD τ) (ms1_7 t) fullShare ((dat1 V c).after 7 t) from by
    unfold Dat.leavesExact; rw [liveAt1_7 t], after1_7]
theorem leaves1_8 (c : Dev nD) (t : Fin cfg1.N) :
    (dat1 V c).leavesExact 8 t = owns (c : Thread nD τ) (ms1_8 t) fullShare (iblk1 V c 8 t) := by
  rw [show (dat1 V c).leavesExact 8 t = owns (c : Thread nD τ) (ms1_8 t) fullShare ((dat1 V c).after 8 t) from by
    unfold Dat.leavesExact; rw [liveAt1_8 t], after1_8]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point. The inputs' memrefs hold their blocks; the closed forms say which case the point is in;
    so that case's run applies. The invariant hands the body the scratch at what the point before left (at anything
    at the first point) beside the unopened rest and the generator register, and takes the scratch back at this
    point's contents, which the case's pieces determine because they cover it; the core owes nothing throughout. Where
    the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [leaves1_0 V c t, leaves1_1 V c t, leaves1_2 V c t, leaves1_3 V c t, leaves1_4 V c t, leaves1_5 V c t, leaves1_6 V c t, leaves1_7 V c t, leaves1_8 V c t]
  by_cases h0 : t.val % 4 = 0
  · by_cases h1 : t.val % 4 = 3
    · exfalso; omega
    · rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; omega
  · by_cases h1 : t.val % 4 = 3
    · rw [show (dat1 V c).leavesExact 9 t = owns (c : Thread nD τ) (ms1_9 t) fullShare ((dat1 V c).after 9 t) from by
        unfold Dat.leavesExact; rw [liveAt1_9_C t (fun h => h0 ((hcond1_0 t).mp h)) ((hcond1_1 t).mpr h1)], after1_9]
      rw [outsAt1_C V c t h0 h1]
      unfold out1_C_9 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _)
    · rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 4 := N_1; omega)

end Data

/-! ## The region's record -/

/-- Region 1 as the several-region assembly asks for it. -/
def region1 : Region1 F where
  dat := dat1
  hA := fun V c w => A_eq1 V c w
  hq := fun _ _ => rfl
  howed := fun _ _ => rfl
  hrec := fun _ _ => rfl
  hbody := fun V c => body_obligation1 V c
  hin := fun V c => hin1 V c
  hout := fun V c => hout1 V c

end Cert.KernelIdeal.Hand

end
-- ==== Proof.Assemble.lean ====
/-
  The several-region assembly. The program's entry function is five items in a row: a stretch of host operations,
  the first layer's kernel region, a second stretch, the second layer's kernel region, a last stretch. Given, per
  region, the pipeline's proof data over any entry contents with the facts the launch of a region needs (the
  records of Iface.lean), the whole run is assembled here: the contents of every unscoped buffer between two items
  (a fold from the launch memory: a stretch rewrites the buffers its operations write; a region rewrites its
  windows' arrays to what its write-backs leave), each item as a segment over the thread state "every unscoped
  buffer at the current contents, the generator register at some state, nothing owed", the launch over the five
  segments, and the two consequences read off the last contents: every unscoped buffer ends at the last fold, and
  every argument ends as launched (no stretch writes one, and a region reads one only through an input window).
-/
import proofs.«107607_j19129784336543_2_alg».proof.Proof.Iface
import proofs.«107607_j19129784336543_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (R0 : Region0 F) (R1 : Region1 F)
variable (m : (ℓ : Loc nD τ sig) → Buf (Elt F) ℓ) (ρ : Dev nD → PrngReg)

/-! ## The buffer contents between the items: a fold from the launch memory -/

/-- Core c's buffers in the launch state (memory m, every counter zero, generator registers ρ). -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the core's references (what the first region's proof data take). -/
abbrev V1 : Entry F := fun c b => W1 m ρ c (Proc.devRef .tc b)
/-- At the first region's exit: its windows' arrays at what the pipeline leaves (an input as entered, the output's
    write-backs folded), every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 R0 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 R0 m ρ c (Proc.devRef .tc b) = W1 m ρ c (Proc.devRef .tc b) := by
  unfold W2; exact Pipeline.withArrays_of_ne spec0 c _ _ b hb
/-- The same read at the core's references (the first region's exit contents). -/
abbrev V2 : Entry F := fun c b => W2 R0 m ρ c (Proc.devRef .tc b)
theorem hF0 (c : Dev nD) (w : Fin cfg0.W) : (R0.dat (V1 m ρ) c).arrAt w cfg0.N = V2 R0 m ρ c (Pipeline.arrRef spec0 w) :=
  (W2_arr R0 m ρ c w).symm
theorem hrest0 (c : Dev nD) : ∀ b, b ∉ Finset.univ.image (Pipeline.arrRef spec0) → V2 R0 m ρ c b = V1 m ρ c b :=
  fun b hb => W2_of_ne R0 m ρ c b fun w e => hb (Finset.mem_image.mpr ⟨w, Finset.mem_univ _, e⟩)

/-- After the second host stretch (the second region's entry). -/
abbrev W3 : Dev nD → Valuation τ sig (Elt F) := fun c => StableHlo.after hostOps1 (W2 R0 m ρ c)
/-- The same read at the core's references (what the second region's proof data take). -/
abbrev V3 : Entry F := fun c b => W3 R0 m ρ c (Proc.devRef .tc b)
/-- At the second region's exit. -/
def W4 (c : Dev nD) : Valuation τ sig (Elt F) :=
  Pipeline.withArrays spec1 c (W3 R0 m ρ c) fun w => (R1.dat (V3 R0 m ρ) c).arrAt w cfg1.N
theorem W4_arr (c : Dev nD) (w : Fin cfg1.W) :
    W4 R0 R1 m ρ c (Proc.devRef .tc (Pipeline.arrRef spec1 w)) = (R1.dat (V3 R0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R0 R1 m ρ c (Proc.devRef .tc b) = W3 R0 m ρ c (Proc.devRef .tc b) := by
  unfold W4; exact Pipeline.withArrays_of_ne spec1 c _ _ b hb
/-- The same read at the core's references (the second region's exit contents). -/
abbrev V4 : Entry F := fun c b => W4 R0 R1 m ρ c (Proc.devRef .tc b)
theorem hF1 (c : Dev nD) (w : Fin cfg1.W) : (R1.dat (V3 R0 m ρ) c).arrAt w cfg1.N = V4 R0 R1 m ρ c (Pipeline.arrRef spec1 w) :=
  (W4_arr R0 R1 m ρ c w).symm
theorem hrest1 (c : Dev nD) : ∀ b, b ∉ Finset.univ.image (Pipeline.arrRef spec1) → V4 R0 R1 m ρ c b = V3 R0 m ρ c b :=
  fun b hb => W4_of_ne R0 R1 m ρ c b fun w e => hb (Finset.mem_image.mpr ⟨w, Finset.mem_univ _, e⟩)

/-- After the last host stretch: the contents the run ends at. -/
abbrev W5 : Dev nD → Valuation τ sig (Elt F) := fun c => StableHlo.after hostOps2 (W4 R0 R1 m ρ c)

/-! ### What each item keeps -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 R0 m ρ c (Proc.devRef .tc r) = W2 R0 m ρ c (Proc.devRef .tc r) :=
  StableHlo.after_of_writes_sub hostOps1 _ hostOps1_writes h
theorem W5_of (c : Dev nD) (r : Ref sig .tc) (h : r ∉ hostOps2_W) :
    W5 R0 R1 m ρ c (Proc.devRef .tc r) = W4 R0 R1 m ρ c (Proc.devRef .tc r) :=
  StableHlo.after_of_writes_sub hostOps2 _ hostOps2_writes h
/-- An input window's array leaves the first region as it entered: it is never written back. -/
theorem W2_in (c : Dev nD) (w : Fin cfg0.W) (hin : (cfg0.win w).isOut = false) :
    W2 R0 m ρ c (Proc.devRef .tc (Pipeline.arrRef spec0 w)) = W1 m ρ c (Proc.devRef .tc (Pipeline.arrRef spec0 w)) :=
  (W2_arr R0 m ρ c w).trans (((R0.dat (V1 m ρ) c).arrAt_in w hin _).trans (R0.hA (V1 m ρ) c w))
/-- An input window's array leaves the second region as it entered. -/
theorem W4_in (c : Dev nD) (w : Fin cfg1.W) (hin : (cfg1.win w).isOut = false) :
    W4 R0 R1 m ρ c (Proc.devRef .tc (Pipeline.arrRef spec1 w)) = W3 R0 m ρ c (Proc.devRef .tc (Pipeline.arrRef spec1 w)) :=
  (W4_arr R0 R1 m ρ c w).trans (((R1.dat (V3 R0 m ρ) c).arrAt_in w hin _).trans (R1.hA (V3 R0 m ρ) c w))

/-- A buffer that no host stretch writes, that is no array of the first region, and that the second region at most
    reads through an input window, ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r)
    (ha1 : (∀ w, Pipeline.arrRef spec1 w ≠ r) ∨ ∃ w, (cfg1.win w).isOut = false ∧ Pipeline.arrRef spec1 w = r) :
    W5 R0 R1 m ρ c (Proc.devRef .tc r) = m ((c : Thread nD τ).loc r) := by
  refine (W5_of R0 R1 m ρ c r h2).trans ?_
  have h43 : W4 R0 R1 m ρ c (Proc.devRef .tc r) = W3 R0 m ρ c (Proc.devRef .tc r) := by
    rcases ha1 with hne | ⟨w, hin, rfl⟩
    · exact W4_of_ne R0 R1 m ρ c r hne
    · exact W4_in R0 R1 m ρ c w hin
  exact h43.trans ((W3_of R0 m ρ c r h1).trans ((W2_of_ne R0 m ρ c r ha0).trans ((W1_of m ρ c r h0).trans rfl)))

/-! ### The regions' results, read back through the fold -/

/-- The first region's output array (window 9, the buffer main_v10) leaves it at the pipeline's last fold. -/
theorem W2_out (c : Dev nD) : W2 R0 m ρ c (Proc.devRef .tc main_v10) = (R0.dat (V1 m ρ) c).arrAt 9 cfg0.N :=
  W2_arr R0 m ρ c 9
/-- The second stretch does not write it: the second region reads it (its window 0) as the first region left it. -/
theorem V3_main_v10 (c : Dev nD) : V3 R0 m ρ c main_v10 = (R0.dat (V1 m ρ) c).arrAt 9 cfg0.N :=
  (W3_of R0 m ρ c main_v10 (by decide)).trans (W2_out R0 m ρ c)
/-- The second region's output array (window 9, the buffer main_v16) leaves it at the pipeline's last fold. -/
theorem W4_out (c : Dev nD) : W4 R0 R1 m ρ c (Proc.devRef .tc main_v16) = (R1.dat (V3 R0 m ρ) c).arrAt 9 cfg1.N :=
  W4_arr R0 R1 m ρ c 9

/-! ## The proof data family and the thread state -/

/-- Every pipeline's proof data, each at its region's entry contents: a literal match on the pipeline's number, so
    that the family at a numeral reduces to the region's own data. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 R0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with
    those references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the last contents, the generator
    register at some state. -/
abbrev Tₙ (c : Dev nD) : sProp 𝕄 := iprop(StableHlo.held (c : Thread nD τ) (Pipeline.ucRefs τ sig) (W5 R0 R1 m ρ c) ∗ ∃ r, prngReg c r)

/-! ## The regions as segments -/

set_option backward.isDefEq.respectTransparency.types false in
/-- The first region over the thread state: entered from every unscoped buffer at W1, left at W2. Its arrays are
    split out of the unscoped buffers and put back at the exit contents; the generator register and the scoped
    rest go into the region's invariant through the class invariant and come back through it; nothing owed. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (V1 m ρ) c).loose
  hwaits := Pipeline.hwaits_of_owed_zero _ _ _ _ L lv 0 fun c t => congrFun (R0.howed (V1 m ρ) c) t
  pre c := iprop(StableHlo.held (c : Thread nD τ) (Pipeline.ucRefs τ sig) (W1 m ρ c) ∗ R c)
  post c := iprop(StableHlo.held (c : Thread nD τ) (Pipeline.ucRefs τ sig) (W2 R0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => congrFun (R0.hq (V1 m ρ) c) w) (V1 m ρ c) fun w => R0.hA (V1 m ρ) c w
    rw [Pipeline.unscopedBufs_held] at hsplit
    have ho : ∀ t, (pdats R0 R1 m ρ 0 c).owed t = 0 := fun t => congrFun (R0.howed (V1 m ρ) c) t
    have hr : (pdats R0 R1 m ρ 0 c).recorded 0 = Set.univ := R0.hrec (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hr]; exact Set.mem_univ x)
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => congrFun (R0.hq (V1 m ρ) c) w)
      (V1 m ρ c) (V2 R0 m ρ c) ((pdats R0 R1 m ρ 0 c).arrAt · cfg0.N) (hF0 R0 m ρ c) (hrest0 R0 m ρ c)
    rw [Pipeline.unscopedBufs_held] at hjoin
    have ho : ∀ t, (pdats R0 R1 m ρ 0 c).owed t = 0 := fun t => congrFun (R0.howed (V1 m ρ) c) t
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- The second region over the thread state: entered from every unscoped buffer at W3, left at W4. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V3 R0 m ρ) c).loose
  hwaits := Pipeline.hwaits_of_owed_zero _ _ _ _ L lv 1 fun c t => congrFun (R1.howed (V3 R0 m ρ) c) t
  pre c := iprop(StableHlo.held (c : Thread nD τ) (Pipeline.ucRefs τ sig) (W3 R0 m ρ c) ∗ R c)
  post c := iprop(StableHlo.held (c : Thread nD τ) (Pipeline.ucRefs τ sig) (W4 R0 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => congrFun (R1.hq (V3 R0 m ρ) c) w) (V3 R0 m ρ c) fun w => R1.hA (V3 R0 m ρ) c w
    rw [Pipeline.unscopedBufs_held] at hsplit
    have ho : ∀ t, (pdats R0 R1 m ρ 1 c).owed t = 0 := fun t => congrFun (R1.howed (V3 R0 m ρ) c) t
    have hr : (pdats R0 R1 m ρ 1 c).recorded 0 = Set.univ := R1.hrec (V3 R0 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hr]; exact Set.mem_univ x)
      iexact HO
    isplitl [Hp]; · iexact Hp
    iexact Hrest
  hin c := by
    refine BIBase.Entails.trans ?_ (R1.hin (V3 R0 m ρ) c)
    unfold Pipeline.ΦA
    iintro ⟨Hp, -, Hr⟩
    isplitl [Hr]; · iexact Hr
    iexact Hp
  hout c := by
    rw [Pipeline.ownSems0_none]
    refine BIBase.Entails.trans (R1.hout (V3 R0 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => congrFun (R1.hq (V3 R0 m ρ) c) w)
      (V3 R0 m ρ c) (V4 R0 R1 m ρ c) ((pdats R0 R1 m ρ 1 c).arrAt · cfg1.N) (hF1 R0 R1 m ρ c) (hrest1 R0 R1 m ρ c)
    rw [Pipeline.unscopedBufs_held] at hjoin
    have ho : ∀ t, (pdats R0 R1 m ρ 1 c).owed t = 0 := fun t => congrFun (R1.howed (V3 R0 m ρ) c) t
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## The entry function as segments, and the launch -/

/-- The entry function's five segments in order: a host segment per stretch from the contents before it, a region
    per kernel call. -/
abbrev segs : List (Pipeline.Seg (pcfgs (F := F)) adm (pdats R0 R1 m ρ) () defs₀ 𝒱₀ L lv) :=
  [ .host (hseg hostOps0 hostOps0_sub hostOps0_fresh (W0 m ρ)),
    .region (reg0 R0 R1 m ρ),
    .host (hseg hostOps1 hostOps1_sub hostOps1_fresh (W2 R0 m ρ)),
    .region (reg1 R0 R1 m ρ),
    .host (hseg hostOps2 hostOps2_sub hostOps2_fresh (W4 R0 R1 m ρ)) ]
/-- The entry function IS the run of the segments: it is the chain of its five items, and so is the segments' run. -/
theorem main_run (c : Dev nD) : main (F := F) c = Pipeline.Seg.run (segs R0 R1 m ρ) := (main_chain c).trans (by chain_rfl)

/-- The last host segment's exit state is the last thread state beside the core owing nothing (the same conjuncts,
    bracketed the other way). -/
theorem last_chain (c : Dev nD) :
    (iprop(StableHlo.held (c : Thread nD τ) (Pipeline.ucRefs τ sig) (W5 R0 R1 m ρ c) ∗ R c) : sProp 𝕄)
      ⊢ iprop(Tₙ R0 R1 m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of the entry function on the cores
    terminates, nothing faulting, and in every final state every unscoped buffer of every core holds the last
    contents of the fold, W5: the launch over the five segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R0 R1 m ρ)
    (hch := ⟨fun _ => .rfl, fun _ => .rfl, fun _ => .rfl, fun _ => .rfl, fun _ => .rfl, fun c => last_chain R0 R1 m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 R0 R1 m ρ c) s')
      isplitl [Hh] <;> iassumption)
    (hQ := fun s h c => h c)

/-! ## The frame: every argument ends as launched -/

include R0 R1 in
/-- THE FRAME at any float model: every weakly fair execution of the entry function terminates, nothing faulting,
    and every final memory holds each of the seventeen arguments as launched. Read off the run's last contents: no
    host stretch writes an argument, none is an array of the first region, and the second region reads four of them
    (main_arg11, main_arg14, main_arg15, main_arg16) through input windows only. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W5_kept R0 R1 m ρ c main_arg0 (by decide) (by decide) (by decide) (by decide) (Or.inl (by decide))),
     (h c _ (mem_uc main_arg1 (by decide))).trans (W5_kept R0 R1 m ρ c main_arg1 (by decide) (by decide) (by decide) (by decide) (Or.inl (by decide))),
     (h c _ (mem_uc main_arg2 (by decide))).trans (W5_kept R0 R1 m ρ c main_arg2 (by decide) (by decide) (by decide) (by decide) (Or.inl (by decide))),
     (h c _ (mem_uc main_arg3 (by decide))).trans (W5_kept R0 R1 m ρ c main_arg3 (by decide) (by decide) (by decide) (by decide) (Or.inl (by decide))),
     (h c _ (mem_uc main_arg4 (by decide))).trans (W5_kept R0 R1 m ρ c main_arg4 (by decide) (by decide) (by decide) (by decide) (Or.inl (by decide))),
     (h c _ (mem_uc main_arg5 (by decide))).trans (W5_kept R0 R1 m ρ c main_arg5 (by decide) (by decide) (by decide) (by decide) (Or.inl (by decide))),
     (h c _ (mem_uc main_arg6 (by decide))).trans (W5_kept R0 R1 m ρ c main_arg6 (by decide) (by decide) (by decide) (by decide) (Or.inl (by decide))),
     (h c _ (mem_uc main_arg7 (by decide))).trans (W5_kept R0 R1 m ρ c main_arg7 (by decide) (by decide) (by decide) (by decide) (Or.inl (by decide))),
     (h c _ (mem_uc main_arg8 (by decide))).trans (W5_kept R0 R1 m ρ c main_arg8 (by decide) (by decide) (by decide) (by decide) (Or.inl (by decide))),
     (h c _ (mem_uc main_arg9 (by decide))).trans (W5_kept R0 R1 m ρ c main_arg9 (by decide) (by decide) (by decide) (by decide) (Or.inl (by decide))),
     (h c _ (mem_uc main_arg10 (by decide))).trans (W5_kept R0 R1 m ρ c main_arg10 (by decide) (by decide) (by decide) (by decide) (Or.inl (by decide))),
     (h c _ (mem_uc main_arg11 (by decide))).trans (W5_kept R0 R1 m ρ c main_arg11 (by decide) (by decide) (by decide) (by decide) (Or.inr ⟨5, rfl, rfl⟩)),
     (h c _ (mem_uc main_arg12 (by decide))).trans (W5_kept R0 R1 m ρ c main_arg12 (by decide) (by decide) (by decide) (by decide) (Or.inl (by decide))),
     (h c _ (mem_uc main_arg13 (by decide))).trans (W5_kept R0 R1 m ρ c main_arg13 (by decide) (by decide) (by decide) (by decide) (Or.inl (by decide))),
     (h c _ (mem_uc main_arg14 (by decide))).trans (W5_kept R0 R1 m ρ c main_arg14 (by decide) (by decide) (by decide) (by decide) (Or.inr ⟨6, rfl, rfl⟩)),
     (h c _ (mem_uc main_arg15 (by decide))).trans (W5_kept R0 R1 m ρ c main_arg15 (by decide) (by decide) (by decide) (by decide) (Or.inr ⟨7, rfl, rfl⟩)),
     (h c _ (mem_uc main_arg16 (by decide))).trans (W5_kept R0 R1 m ρ c main_arg16 (by decide) (by decide) (by decide) (by decide) (Or.inr ⟨8, rfl, rfl⟩))⟩)
    (run_all R0 R1 m ρ)

end Cert.KernelIdeal.Hand

end
-- ==== Proof.Bits.Iface.lean ====
/-
  What the several-region assembly asks of each of the two kernel regions, as a record: the region's pipeline
  proof data over ANY entry contents of the core's buffers, with the five facts the launch of a region needs —
  its arrays are the entry contents, full shares, nothing owed, the body obligation at every grid point, and the
  region invariant entered from and returned to the class invariant (the scoped rest and the generator register).
-/
import proofs.«107607_j19129784336543_2_alg».proof.Proof.Gen.Kernel.Launch
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-- Core `c`'s TensorCore buffers at some contents, read at a reference: what a region is entered from. -/
abbrev Entry (F : FTy → Type) [FloatOps F] : Type :=
  (c : Dev nD) → (b : Ref sig .tc) → Buf (Elt F) ((c : Thread nD τ).loc b)

/-- Region 0 (the first layer's pallas_call, pipeline `cfg0`) as the assembly sees it. -/
structure Region0 (F : FTy → Type) [FloatOps F] where
  dat : Entry F → (c : Dev nD) → Dat τ (Elt F) Unit ℕ (UR sig nD τ) ℕ cfg0 c
  hA : ∀ V c w, (dat V c).A w = V c (Pipeline.arrRef spec0 w)
  hq : ∀ V c, (dat V c).q = fun _ => fullShare
  howed : ∀ V c, (dat V c).owed = fun _ => 0
  hrec : ∀ V c, (dat V c).recorded 0 = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1 (the second layer's pallas_call, pipeline `cfg1`) as the assembly sees it. -/
structure Region1 (F : FTy → Type) [FloatOps F] where
  dat : Entry F → (c : Dev nD) → Dat τ (Elt F) Unit ℕ (UR sig nD τ) ℕ cfg1 c
  hA : ∀ V c w, (dat V c).A w = V c (Pipeline.arrRef spec1 w)
  hq : ∀ V c, (dat V c).q = fun _ => fullShare
  howed : ∀ V c, (dat V c).owed = fun _ => 0
  hrec : ∀ V c, (dat V c).recorded 0 = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

end Cert.Kernel.Hand

end
-- ==== Proof.Bits.R0Shared.lean ====
/-
  The first layer's kernel region (grid 4 x 8, point t = b * 8 + ib): what its per-case runs and its proof data
  share. The body zeroes its accumulator when ib = 0 and copies it to the output block when ib = 7, so a point is in
  one of three cases by t mod 8; the output window is idle (neither stored nor written back) except at ib = 7; every
  input window's buffer holds its block of the array at every point; and the class invariant is the accumulator
  scratch at some contents beside the core's other scoped buffers and the generator register.
-/
import proofs.«107607_j19129784336543_2_alg».proof.Proof.Gen.Kernel.Launch
import proofs.«107607_j19129784336543_2_alg».proof.Proof.Gen.Kernel.Skeleton
import proofs.«107607_j19129784336543_2_alg».proof.Proof.Gen.Kernel.Points
import proofs.«107607_j19129784336543_2_alg».proof.Proof.Gen.Kernel.Loops
import proofs.«107607_j19129784336543_2_alg».proof.Proof.Bits.Iface
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current buffer holds its block at every point, fetched there or not: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current buffer holds its block at every point, fetched there or not: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- `ib = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- `ib = 7`, the last block of the summed axis, as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Away from `ib = 7` nothing is stored into the output block and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the body is called with -/

/-- One buffer of the output window, through which its contents are stated. -/
abbrev VO0_9 : View sig .tc .vmem S128x512 .f32 := (Memref.whole cc0_stg9_0 : Memref sig .tc .vmem S128x512 .f32).view
abbrev ms0_0 (t : Fin cfg0.N) : Memref sig .tc .vmem S16x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x5x128x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x5 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x5 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
/-- The accumulator: a whole scoped buffer of the kernel's own, which it carries from one point to the next. -/
abbrev scM0_0 : Memref sig .tc .vmem S128x512 .f32 := Memref.whole cc0_scratch0
abbrev VS0_0 : View sig .tc .vmem S128x512 .f32 := scM0_0.view

/-- The core's scoped buffers other than this region's windows' buffers and its accumulator (the second region's), unopened. -/
abbrev Rest0 (c : Dev nD) : sProp 𝕄 :=
  Pipeline.scopedRestBut (Ix := Unit) (Name := ℕ) (U := UR sig nD τ) (Lvl := ℕ) (Val := Elt F) spec0 c [cc0_scratch0]

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole, Idealize.SL.BI.bigSepL_singleton]
  rfl

end Cert.Kernel.Hand

end
-- ==== Proof.Bits.R0RunA.lean ====
/-
  The first layer's kernel body at a point with ib = 0 (and ib ≠ 7): the accumulator, at any contents, is zeroed,
  the loop's sum over the point's 16 input features is added to it, and the output block is left untouched.
-/
import proofs.«107607_j19129784336543_2_alg».proof.Proof.Bits.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at anything, the output buffer at contents handed back untouched, the body runs to the continuation holding the inputs
    as they were, the accumulator with its pieces written. -/
noncomputable def kernelRun0_A (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) :
    Σ' (L9 : List (View.Piece (Elt F) S128x512 .f32)), { LS0 : List (View.Piece (Elt F) S128x512 .f32) //
      ∀ (xi9 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.Bits.R0RunB.lean ====
/-
  The first layer's kernel body at a point with 0 < ib < 7: the loop's sum over the point's 16 input features is
  added to the accumulator the point before left, and the output block is left untouched.
-/
import proofs.«107607_j19129784336543_2_alg».proof.Proof.Bits.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at what the point before left, the output buffer at contents handed back untouched, the body runs to the continuation holding the inputs
    as they were, the accumulator with its pieces written. -/
noncomputable def kernelRun0_B (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    Σ' (L9 : List (View.Piece (Elt F) S128x512 .f32)), { LS0 : List (View.Piece (Elt F) S128x512 .f32) //
      ∀ (xi9 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.Bits.R0RunC.lean ====
/-
  The first layer's kernel body at a point with ib = 7: the loop's sum over the point's 16 input features is added
  to the accumulator the point before left, and the result is copied into the output block.
-/
import proofs.«107607_j19129784336543_2_alg».proof.Proof.Bits.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block's buffer and in the accumulator, as pieces, with the run: on
    whole memrefs, the nine inputs at their contents, the accumulator at what the point before left, the output buffer at anything, the body runs to the continuation holding the inputs
    as they were, the output buffer with its pieces written and the accumulator with its. -/
noncomputable def kernelRun0_C (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    Σ' (L9 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__mlpkan_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlpkan_kernel_eq_skeleton]; unfold cc0__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.Kernel.Hand

end
-- ==== Proof.Bits.R0Dat.lean ====
/-
  The first layer's kernel region: its pipeline proof data. After the body at point t the accumulator holds the
  sum, over the blocks of input features the points of t's batch block have met so far, of the networks' outputs; it
  is defined by recursion on the point (reset where ib = 0), each step the pieces the point's run leaves, read back.
  The output block's buffer holds the accumulator where ib = 7 and is idle elsewhere. The region invariant is the
  class's before the first point and afterwards the accumulator at the contents the point before left. The body
  obligation holds at every point by the case's run.
-/
import proofs.«107607_j19129784336543_2_alg».proof.Proof.Bits.R0RunA
import proofs.«107607_j19129784336543_2_alg».proof.Proof.Bits.R0RunB
import proofs.«107607_j19129784336543_2_alg».proof.Proof.Bits.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## What each case leaves in the output block's buffer and in the accumulator -/

/-- What case A leaves in the output block's buffer: its pieces read back (none: a placeholder nothing consults, the window being idle there). -/
def out0_A_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) : Vec F S128x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's stores into the accumulator cover it. -/
theorem scover0_A_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (y : S128x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S128x512.size (by sl_kernel_rfl) y

/-- What case A leaves in the accumulator: its pieces read back. -/
def sout0_A_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) : Vec F S128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- What case B leaves in the output block's buffer: its pieces read back (none: a placeholder nothing consults, the window being idle there). -/
def out0_B_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's stores into the accumulator cover it. -/
theorem scover0_B_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S128x512.size (by sl_kernel_rfl) y

/-- What case B leaves in the accumulator: its pieces read back. -/
def sout0_B_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's one store into the output block's buffer covers it. -/
theorem cover0_C_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S128x512.size (by sl_kernel_rfl) y

/-- What case C leaves in the output block's buffer: its pieces read back. -/
def out0_C_9 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's stores into the accumulator cover it. -/
theorem scover0_C_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) (y : S128x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S128x512.size (by sl_kernel_rfl) y

/-- What case C leaves in the accumulator: its pieces read back. -/
def sout0_C_0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) : Vec F S128x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-! ## The accumulation over the points -/

/-- What the output block's buffer and the accumulator hold after the body at position `n`: the case the closed forms
    select there, run at the point's memrefs and input blocks, over the accumulator the position before left. -/
def outsAt0 (c : Dev nD) : (n : ℕ) → n < cfg0.N → Vec F S128x512 .f32 × Vec F S128x512 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, beside the core's other scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The pipeline's proof data -/

/-- The arrays as the region finds them; after the body at point `t` each input's buffer at its block and the output
    block's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outsAt0_C V c t h0 h1]
      unfold out0_C_9 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t (fun h => h1 ((hcond0_1 t).mp h))) (noFlush0_9 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 32 := N_0; omega)

/-- Region 0 as the assembly sees it. -/
def region0 : Region0 F where
  dat := fun V c => dat0 V c
  hA := fun V c w => A_eq0 V c w
  hq := fun _ _ => rfl
  howed := fun _ _ => rfl
  hrec := fun _ _ => rfl
  hbody := fun V c => body_obligation0 V c
  hin := fun V c => hin0 V c
  hout := fun V c => hout0 V c

end Cert.Kernel.Hand

end
-- ==== Proof.Bits.R1Shared.lean ====
/-
  Region 1 (the second layer's pallas_call, pipeline `cfg1`): what its three whole-body runs and its proof data
  share. The windows' blocks read off the entry contents; each input window's staging buffer holds its block at
  every point; the body's two branch conditions in closed form over the grid (the first holds at the points
  ≡ 0 mod 4, the second at the points ≡ 3 mod 4); where the output window is idle and not written back; the
  staging and scratch memrefs by name; and the class invariant with the kernel's own scratch split off the
  core's other scoped buffers.
-/
import proofs.«107607_j19129784336543_2_alg».proof.Proof.Bits.Iface
import proofs.«107607_j19129784336543_2_alg».proof.Proof.Gen.Kernel.Skeleton
import proofs.«107607_j19129784336543_2_alg».proof.Proof.Gen.Kernel.Points
import proofs.«107607_j19129784336543_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : Entry F)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional, from the grid coordinates: the inner coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional, from the grid coordinates: the inner coordinate is the last. -/
abbrev cond1_1 (i : grid1.Coords) : Prop := k1_cond2 i = 1#1
/-- It holds at the points ≡ 3 (mod 4): decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Where only the first conditional is taken the configuration calls the output window idle: nothing is stored into it. -/
theorem idleAt1_9_A : ∀ t : Fin cfg1.N, cond1_0 (grid1.coords t) → ¬cond1_1 (grid1.coords t) → cfg1.idle 9 (grid1.coords t) = true := by decide +kernel
/-- There the pipeline does not write the output window's block back. -/
theorem noFlush1_9_A : ∀ t : Fin cfg1.N, cond1_0 (grid1.coords t) → ¬cond1_1 (grid1.coords t) → (cfg1.win 9).flush t = false := by decide +kernel
/-- Where neither conditional is taken the output window is idle as well. -/
theorem idleAt1_9_B : ∀ t : Fin cfg1.N, ¬cond1_0 (grid1.coords t) → ¬cond1_1 (grid1.coords t) → cfg1.idle 9 (grid1.coords t) = true := by decide +kernel
/-- And not written back. -/
theorem noFlush1_9_B : ∀ t : Fin cfg1.N, ¬cond1_0 (grid1.coords t) → ¬cond1_1 (grid1.coords t) → (cfg1.win 9).flush t = false := by decide +kernel
/-- Where only the second conditional is taken the output window is live: the body stores into it. -/
theorem liveAt1_9_C : ∀ t : Fin cfg1.N, ¬cond1_0 (grid1.coords t) → cond1_1 (grid1.coords t) → cfg1.idle 9 (grid1.coords t) = false := by decide +kernel

/-! ## The staging and scratch memrefs -/

/-- One staging buffer of the output window, through which its contents are stated (the choice does not matter). -/
abbrev VO1_9 : View sig .tc .vmem S1x2048 .f32 := (Memref.whole cc1_stg9_0 : Memref sig .tc .vmem S1x2048 .f32).view
abbrev ms1_0 (t : Fin cfg1.N) : Memref sig .tc .vmem S32x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1x5 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x5x1x5 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x1x5 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1x5 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x2048 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S1x2048 .f32 := Memref.whole cc1_scratch0
/-- The scratch the kernel carries between points, as a view: what it holds is stated through it. -/
abbrev VS1_0 : View sig .tc .vmem S1x2048 .f32 := scM1_0.view

/-! ## The class invariant with the scratch singled out -/

/-- The core's scoped buffers other than this pipeline's staging buffers and its own scratch (the first region's
    staging buffers and scratch), each at some contents: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents: the scoped rest is the
    scratch's buffer beside the remainder, and the generator register is at some state. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, Idealize.SL.BI.bigSepL_singleton]
  rfl

end Cert.Kernel.Hand

end
-- ==== Proof.Bits.R1RunA.lean ====
/-
  Region 1's kernel body run whole in the case of the first conditional taken, the second not (the first point: the inner coordinate is 0).
  On whole staging memrefs, the nine inputs at their contents, the output's (which this case does not store into) at contents handed back untouched,
  the scratch at anything (the case zeroes it before reading it), the body runs to the continuation holding the inputs as they were
  and the scratch with its pieces written. The counted loop only loads the inputs and carries a register value; it is
  passed by its invariant. The pieces each written memref ends with are the witness the run finds.
-/
import proofs.«107607_j19129784336543_2_alg».proof.Proof.Bits.R1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_A (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) :
    Σ' (L9 : List (View.Piece (Elt F) S1x2048 .f32)), { LS0 : List (View.Piece (Elt F) S1x2048 .f32) //
      ∀ (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.Bits.R1RunB.lean ====
/-
  Region 1's kernel body run whole in the case of neither conditional taken (the points whose inner coordinate is neither 0 nor the last).
  On whole staging memrefs, the nine inputs at their contents, the output's (which this case does not store into) at contents handed back untouched,
  the scratch at what the point before left, the body runs to the continuation holding the inputs as they were
  and the scratch with its pieces written. The counted loop only loads the inputs and carries a register value; it is
  passed by its invariant. The pieces each written memref ends with are the witness the run finds.
-/
import proofs.«107607_j19129784336543_2_alg».proof.Proof.Bits.R1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_B (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    Σ' (L9 : List (View.Piece (Elt F) S1x2048 .f32)), { LS0 : List (View.Piece (Elt F) S1x2048 .f32) //
      ∀ (xi9 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.Bits.R1RunC.lean ====
/-
  Region 1's kernel body run whole in the case of the second conditional taken, the first not (the last point: the inner coordinate is the last).
  On whole staging memrefs, the nine inputs at their contents, the output's at anything,
  the scratch at what the point before left, the body runs to the continuation holding the inputs as they were, the output's buffer with its pieces written
  and the scratch with its pieces written. The counted loop only loads the inputs and carries a register value; it is
  passed by its invariant. The pieces each written memref ends with are the witness the run finds.
-/
import proofs.«107607_j19129784336543_2_alg».proof.Proof.Bits.R1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref (`L9`) and in the scratch (`LS0`), as pieces (last
    first), with the proof that the body runs from the memrefs as described above to the continuation holding them
    so written. -/
noncomputable def kernelRun1_C (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    Σ' (L9 : List (View.Piece (Elt F) S1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1__mlpkan_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__mlpkan_kernel_eq_skeleton]; unfold cc1__mlpkan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.Kernel.Hand

end
-- ==== Proof.Bits.R1Dat.lean ====
/-
  Region 1's pipeline proof data and body obligation, over any entry contents `V` of the core's buffers: what the
  output's staging buffer and the scratch hold after each case of the body (the pieces the runs found, read back;
  the scratch's pieces cover it in every case, the output's in the case that stores it), what they hold point by
  point (the scratch at each point over what the point before left: the accumulation), the region invariant
  (before the first point the class's; afterwards the scratch at the point before's contents, the core's other
  scoped buffers unopened, the generator register at some state), the proof data, the body obligation by cases on
  the point, and the invariant entered from and returned to the class invariant.
-/
import proofs.«107607_j19129784336543_2_alg».proof.Proof.Bits.R1RunA
import proofs.«107607_j19129784336543_2_alg».proof.Proof.Bits.R1RunB
import proofs.«107607_j19129784336543_2_alg».proof.Proof.Bits.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in the output's buffer and in the scratch -/

/-- Case A stores nothing into the output window (idle at its points and not written back there): no pieces — a
    placeholder that nothing consults. -/
def out1_A_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) : Vec F S1x2048 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's pieces for the scratch, which the kernel carries between points, cover it (whole-block stores). -/
theorem scover1_A_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (y : S1x2048.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S1x2048.size (by sl_kernel_rfl) y

/-- What case A leaves in the scratch: its pieces read back. -/
def sout1_A_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) : Vec F S1x2048 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case B stores nothing into the output window (idle at its points and not written back there): no pieces — a
    placeholder that nothing consults. -/
def out1_B_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's pieces for the scratch, which the kernel carries between points, cover it (whole-block stores). -/
theorem scover1_B_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S1x2048.size (by sl_kernel_rfl) y

/-- What case B leaves in the scratch: its pieces read back. -/
def sout1_B_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Case C's one whole-block store into the output window tiles its block, so its pieces cover it. -/
theorem cover1_C_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S1x2048.size (by sl_kernel_rfl) y

/-- What case C leaves in the output window's staging buffer: its pieces read back. -/
def out1_C_9 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's pieces for the scratch, which the kernel carries between points, cover it (whole-block stores). -/
theorem scover1_C_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) (y : S1x2048.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S1x2048.size (by sl_kernel_rfl) y

/-- What case C leaves in the scratch: its pieces read back. -/
def sout1_C_0 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) : Vec F S1x2048 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

section Data
variable (V : Entry F)

/-! ## What the output's buffer and the scratch hold after each point -/

/-- THE ACCUMULATION. What the output window's staging buffer and the scratch hold after the body at position `n`
    (a pair: the output, then the scratch): the case the closed forms select at `n`, run at the point's memrefs and
    input blocks, the scratch read at what this leaves at `n - 1`. An assignment of the conditions no point meets is
    no case. -/
def outsAt1 (c : Dev nD) : (n : ℕ) → n < cfg1.N → Vec F S1x2048 .f32 × Vec F S1x2048 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 4 = 0 then
      if h1 : (n + 1) % 4 = 3 then
        False.elim (by have hN : n + 1 < 4 := lt_of_lt_of_eq hn (show cfg1.N = 4 from N_1); omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 4 = 3 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it, the core's other scoped buffers unopened, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

/-- The proof data's arrays are the region-entry contents (the definition projected, never unfolded through `V`). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- Each input window is live at every point, so the body's post for it is its buffer at what the body leaves: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]
theorem leaves1_5 (c : Dev nD) (t : Fin cfg1.N) :
    (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from by
    unfold Dat.leavesExact; rw [liveAt1_5 t], after1_5]
theorem leaves1_6 (c : Dev nD) (t : Fin cfg1.N) :
    (dat1 V c).leavesExact 6 t = owns (c : Thread nD τ) (ms1_6 t) fullShare (iblk1 V c 6 t) := by
  rw [show (dat1 V c).leavesExact 6 t = owns (c : Thread nD τ) (ms1_6 t) fullShare ((dat1 V c).after 6 t) from by
    unfold Dat.leavesExact; rw [liveAt1_6 t], after1_6]
theorem leaves1_7 (c : Dev nD) (t : Fin cfg1.N) :
    (dat1 V c).leavesExact 7 t = owns (c : Thread nD τ) (ms1_7 t) fullShare (iblk1 V c 7 t) := by
  rw [show (dat1 V c).leavesExact 7 t = owns (c : Thread nD τ) (ms1_7 t) fullShare ((dat1 V c).after 7 t) from by
    unfold Dat.leavesExact; rw [liveAt1_7 t], after1_7]
theorem leaves1_8 (c : Dev nD) (t : Fin cfg1.N) :
    (dat1 V c).leavesExact 8 t = owns (c : Thread nD τ) (ms1_8 t) fullShare (iblk1 V c 8 t) := by
  rw [show (dat1 V c).leavesExact 8 t = owns (c : Thread nD τ) (ms1_8 t) fullShare ((dat1 V c).after 8 t) from by
    unfold Dat.leavesExact; rw [liveAt1_8 t], after1_8]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
/-- The body at any point. The inputs' memrefs hold their blocks; the closed forms say which case the point is in;
    so that case's run applies. The invariant hands the body the scratch at what the point before left (at anything
    at the first point) beside the unopened rest and the generator register, and takes the scratch back at this
    point's contents, which the case's pieces determine because they cover it; the core owes nothing throughout. Where
    the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [leaves1_0 V c t, leaves1_1 V c t, leaves1_2 V c t, leaves1_3 V c t, leaves1_4 V c t, leaves1_5 V c t, leaves1_6 V c t, leaves1_7 V c t, leaves1_8 V c t]
  by_cases h0 : t.val % 4 = 0
  · by_cases h1 : t.val % 4 = 3
    · exfalso; omega
    · rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; omega
  · by_cases h1 : t.val % 4 = 3
    · rw [show (dat1 V c).leavesExact 9 t = owns (c : Thread nD τ) (ms1_9 t) fullShare ((dat1 V c).after 9 t) from by
        unfold Dat.leavesExact; rw [liveAt1_9_C t (fun h => h0 ((hcond1_0 t).mp h)) ((hcond1_1 t).mpr h1)], after1_9]
      rw [outsAt1_C V c t h0 h1]
      unfold out1_C_9 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _)
    · rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 4 := N_1; omega)

end Data

/-! ## The region's record -/

/-- Region 1 as the several-region assembly asks for it. -/
def region1 : Region1 F where
  dat := dat1
  hA := fun V c w => A_eq1 V c w
  hq := fun _ _ => rfl
  howed := fun _ _ => rfl
  hrec := fun _ _ => rfl
  hbody := fun V c => body_obligation1 V c
  hin := fun V c => hin1 V c
  hout := fun V c => hout1 V c

end Cert.Kernel.Hand

end
-- ==== Proof.Bits.Assemble.lean ====
/-
  The several-region assembly. The program's entry function is five items in a row: a stretch of host operations,
  the first layer's kernel region, a second stretch, the second layer's kernel region, a last stretch. Given, per
  region, the pipeline's proof data over any entry contents with the facts the launch of a region needs (the
  records of Iface.lean), the whole run is assembled here: the contents of every unscoped buffer between two items
  (a fold from the launch memory: a stretch rewrites the buffers its operations write; a region rewrites its
  windows' arrays to what its write-backs leave), each item as a segment over the thread state "every unscoped
  buffer at the current contents, the generator register at some state, nothing owed", the launch over the five
  segments, and the two consequences read off the last contents: every unscoped buffer ends at the last fold, and
  every argument ends as launched (no stretch writes one, and a region reads one only through an input window).
-/
import proofs.«107607_j19129784336543_2_alg».proof.Proof.Bits.Iface
import proofs.«107607_j19129784336543_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (R0 : Region0 F) (R1 : Region1 F)
variable (m : (ℓ : Loc nD τ sig) → Buf (Elt F) ℓ) (ρ : Dev nD → PrngReg)

/-! ## The buffer contents between the items: a fold from the launch memory -/

/-- Core c's buffers in the launch state (memory m, every counter zero, generator registers ρ). -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the core's references (what the first region's proof data take). -/
abbrev V1 : Entry F := fun c b => W1 m ρ c (Proc.devRef .tc b)
/-- At the first region's exit: its windows' arrays at what the pipeline leaves (an input as entered, the output's
    write-backs folded), every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 R0 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 R0 m ρ c (Proc.devRef .tc b) = W1 m ρ c (Proc.devRef .tc b) := by
  unfold W2; exact Pipeline.withArrays_of_ne spec0 c _ _ b hb
/-- The same read at the core's references (the first region's exit contents). -/
abbrev V2 : Entry F := fun c b => W2 R0 m ρ c (Proc.devRef .tc b)
theorem hF0 (c : Dev nD) (w : Fin cfg0.W) : (R0.dat (V1 m ρ) c).arrAt w cfg0.N = V2 R0 m ρ c (Pipeline.arrRef spec0 w) :=
  (W2_arr R0 m ρ c w).symm
theorem hrest0 (c : Dev nD) : ∀ b, b ∉ Finset.univ.image (Pipeline.arrRef spec0) → V2 R0 m ρ c b = V1 m ρ c b :=
  fun b hb => W2_of_ne R0 m ρ c b fun w e => hb (Finset.mem_image.mpr ⟨w, Finset.mem_univ _, e⟩)

/-- After the second host stretch (the second region's entry). -/
abbrev W3 : Dev nD → Valuation τ sig (Elt F) := fun c => StableHlo.after hostOps1 (W2 R0 m ρ c)
/-- The same read at the core's references (what the second region's proof data take). -/
abbrev V3 : Entry F := fun c b => W3 R0 m ρ c (Proc.devRef .tc b)
/-- At the second region's exit. -/
def W4 (c : Dev nD) : Valuation τ sig (Elt F) :=
  Pipeline.withArrays spec1 c (W3 R0 m ρ c) fun w => (R1.dat (V3 R0 m ρ) c).arrAt w cfg1.N
theorem W4_arr (c : Dev nD) (w : Fin cfg1.W) :
    W4 R0 R1 m ρ c (Proc.devRef .tc (Pipeline.arrRef spec1 w)) = (R1.dat (V3 R0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R0 R1 m ρ c (Proc.devRef .tc b) = W3 R0 m ρ c (Proc.devRef .tc b) := by
  unfold W4; exact Pipeline.withArrays_of_ne spec1 c _ _ b hb
/-- The same read at the core's references (the second region's exit contents). -/
abbrev V4 : Entry F := fun c b => W4 R0 R1 m ρ c (Proc.devRef .tc b)
theorem hF1 (c : Dev nD) (w : Fin cfg1.W) : (R1.dat (V3 R0 m ρ) c).arrAt w cfg1.N = V4 R0 R1 m ρ c (Pipeline.arrRef spec1 w) :=
  (W4_arr R0 R1 m ρ c w).symm
theorem hrest1 (c : Dev nD) : ∀ b, b ∉ Finset.univ.image (Pipeline.arrRef spec1) → V4 R0 R1 m ρ c b = V3 R0 m ρ c b :=
  fun b hb => W4_of_ne R0 R1 m ρ c b fun w e => hb (Finset.mem_image.mpr ⟨w, Finset.mem_univ _, e⟩)

/-- After the last host stretch: the contents the run ends at. -/
abbrev W5 : Dev nD → Valuation τ sig (Elt F) := fun c => StableHlo.after hostOps2 (W4 R0 R1 m ρ c)

/-! ### What each item keeps -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 R0 m ρ c (Proc.devRef .tc r) = W2 R0 m ρ c (Proc.devRef .tc r) :=
  StableHlo.after_of_writes_sub hostOps1 _ hostOps1_writes h
theorem W5_of (c : Dev nD) (r : Ref sig .tc) (h : r ∉ hostOps2_W) :
    W5 R0 R1 m ρ c (Proc.devRef .tc r) = W4 R0 R1 m ρ c (Proc.devRef .tc r) :=
  StableHlo.after_of_writes_sub hostOps2 _ hostOps2_writes h
/-- An input window's array leaves the first region as it entered: it is never written back. -/
theorem W2_in (c : Dev nD) (w : Fin cfg0.W) (hin : (cfg0.win w).isOut = false) :
    W2 R0 m ρ c (Proc.devRef .tc (Pipeline.arrRef spec0 w)) = W1 m ρ c (Proc.devRef .tc (Pipeline.arrRef spec0 w)) :=
  (W2_arr R0 m ρ c w).trans (((R0.dat (V1 m ρ) c).arrAt_in w hin _).trans (R0.hA (V1 m ρ) c w))
/-- An input window's array leaves the second region as it entered. -/
theorem W4_in (c : Dev nD) (w : Fin cfg1.W) (hin : (cfg1.win w).isOut = false) :
    W4 R0 R1 m ρ c (Proc.devRef .tc (Pipeline.arrRef spec1 w)) = W3 R0 m ρ c (Proc.devRef .tc (Pipeline.arrRef spec1 w)) :=
  (W4_arr R0 R1 m ρ c w).trans (((R1.dat (V3 R0 m ρ) c).arrAt_in w hin _).trans (R1.hA (V3 R0 m ρ) c w))

/-- A buffer that no host stretch writes, that is no array of the first region, and that the second region at most
    reads through an input window, ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r)
    (ha1 : (∀ w, Pipeline.arrRef spec1 w ≠ r) ∨ ∃ w, (cfg1.win w).isOut = false ∧ Pipeline.arrRef spec1 w = r) :
    W5 R0 R1 m ρ c (Proc.devRef .tc r) = m ((c : Thread nD τ).loc r) := by
  refine (W5_of R0 R1 m ρ c r h2).trans ?_
  have h43 : W4 R0 R1 m ρ c (Proc.devRef .tc r) = W3 R0 m ρ c (Proc.devRef .tc r) := by
    rcases ha1 with hne | ⟨w, hin, rfl⟩
    · exact W4_of_ne R0 R1 m ρ c r hne
    · exact W4_in R0 R1 m ρ c w hin
  exact h43.trans ((W3_of R0 m ρ c r h1).trans ((W2_of_ne R0 m ρ c r ha0).trans ((W1_of m ρ c r h0).trans rfl)))

/-! ### The regions' results, read back through the fold -/

/-- The first region's output array (window 9, the buffer main_v10) leaves it at the pipeline's last fold. -/
theorem W2_out (c : Dev nD) : W2 R0 m ρ c (Proc.devRef .tc main_v10) = (R0.dat (V1 m ρ) c).arrAt 9 cfg0.N :=
  W2_arr R0 m ρ c 9
/-- The second stretch does not write it: the second region reads it (its window 0) as the first region left it. -/
theorem V3_main_v10 (c : Dev nD) : V3 R0 m ρ c main_v10 = (R0.dat (V1 m ρ) c).arrAt 9 cfg0.N :=
  (W3_of R0 m ρ c main_v10 (by decide)).trans (W2_out R0 m ρ c)
/-- The second region's output array (window 9, the buffer main_v16) leaves it at the pipeline's last fold. -/
theorem W4_out (c : Dev nD) : W4 R0 R1 m ρ c (Proc.devRef .tc main_v16) = (R1.dat (V3 R0 m ρ) c).arrAt 9 cfg1.N :=
  W4_arr R0 R1 m ρ c 9

/-! ## The proof data family and the thread state -/

/-- Every pipeline's proof data, each at its region's entry contents: a literal match on the pipeline's number, so
    that the family at a numeral reduces to the region's own data. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 R0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with
    those references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the last contents, the generator
    register at some state. -/
abbrev Tₙ (c : Dev nD) : sProp 𝕄 := iprop(StableHlo.held (c : Thread nD τ) (Pipeline.ucRefs τ sig) (W5 R0 R1 m ρ c) ∗ ∃ r, prngReg c r)

/-! ## The regions as segments -/

set_option backward.isDefEq.respectTransparency.types false in
/-- The first region over the thread state: entered from every unscoped buffer at W1, left at W2. Its arrays are
    split out of the unscoped buffers and put back at the exit contents; the generator register and the scoped
    rest go into the region's invariant through the class invariant and come back through it; nothing owed. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (V1 m ρ) c).loose
  hwaits := Pipeline.hwaits_of_owed_zero _ _ _ _ L lv 0 fun c t => congrFun (R0.howed (V1 m ρ) c) t
  pre c := iprop(StableHlo.held (c : Thread nD τ) (Pipeline.ucRefs τ sig) (W1 m ρ c) ∗ R c)
  post c := iprop(StableHlo.held (c : Thread nD τ) (Pipeline.ucRefs τ sig) (W2 R0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => congrFun (R0.hq (V1 m ρ) c) w) (V1 m ρ c) fun w => R0.hA (V1 m ρ) c w
    rw [Pipeline.unscopedBufs_held] at hsplit
    have ho : ∀ t, (pdats R0 R1 m ρ 0 c).owed t = 0 := fun t => congrFun (R0.howed (V1 m ρ) c) t
    have hr : (pdats R0 R1 m ρ 0 c).recorded 0 = Set.univ := R0.hrec (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hr]; exact Set.mem_univ x)
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => congrFun (R0.hq (V1 m ρ) c) w)
      (V1 m ρ c) (V2 R0 m ρ c) ((pdats R0 R1 m ρ 0 c).arrAt · cfg0.N) (hF0 R0 m ρ c) (hrest0 R0 m ρ c)
    rw [Pipeline.unscopedBufs_held] at hjoin
    have ho : ∀ t, (pdats R0 R1 m ρ 0 c).owed t = 0 := fun t => congrFun (R0.howed (V1 m ρ) c) t
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- The second region over the thread state: entered from every unscoped buffer at W3, left at W4. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V3 R0 m ρ) c).loose
  hwaits := Pipeline.hwaits_of_owed_zero _ _ _ _ L lv 1 fun c t => congrFun (R1.howed (V3 R0 m ρ) c) t
  pre c := iprop(StableHlo.held (c : Thread nD τ) (Pipeline.ucRefs τ sig) (W3 R0 m ρ c) ∗ R c)
  post c := iprop(StableHlo.held (c : Thread nD τ) (Pipeline.ucRefs τ sig) (W4 R0 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => congrFun (R1.hq (V3 R0 m ρ) c) w) (V3 R0 m ρ c) fun w => R1.hA (V3 R0 m ρ) c w
    rw [Pipeline.unscopedBufs_held] at hsplit
    have ho : ∀ t, (pdats R0 R1 m ρ 1 c).owed t = 0 := fun t => congrFun (R1.howed (V3 R0 m ρ) c) t
    have hr : (pdats R0 R1 m ρ 1 c).recorded 0 = Set.univ := R1.hrec (V3 R0 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (by rw [hr]; exact Set.mem_univ x)
      iexact HO
    isplitl [Hp]; · iexact Hp
    iexact Hrest
  hin c := by
    refine BIBase.Entails.trans ?_ (R1.hin (V3 R0 m ρ) c)
    unfold Pipeline.ΦA
    iintro ⟨Hp, -, Hr⟩
    isplitl [Hr]; · iexact Hr
    iexact Hp
  hout c := by
    rw [Pipeline.ownSems0_none]
    refine BIBase.Entails.trans (R1.hout (V3 R0 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => congrFun (R1.hq (V3 R0 m ρ) c) w)
      (V3 R0 m ρ c) (V4 R0 R1 m ρ c) ((pdats R0 R1 m ρ 1 c).arrAt · cfg1.N) (hF1 R0 R1 m ρ c) (hrest1 R0 R1 m ρ c)
    rw [Pipeline.unscopedBufs_held] at hjoin
    have ho : ∀ t, (pdats R0 R1 m ρ 1 c).owed t = 0 := fun t => congrFun (R1.howed (V3 R0 m ρ) c) t
    unfold Pipeline.Dat.owesAt Pipeline.owesWithin
    rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## The entry function as segments, and the launch -/

/-- The entry function's five segments in order: a host segment per stretch from the contents before it, a region
    per kernel call. -/
abbrev segs : List (Pipeline.Seg (pcfgs (F := F)) adm (pdats R0 R1 m ρ) () defs₀ 𝒱₀ L lv) :=
  [ .host (hseg hostOps0 hostOps0_sub hostOps0_fresh (W0 m ρ)),
    .region (reg0 R0 R1 m ρ),
    .host (hseg hostOps1 hostOps1_sub hostOps1_fresh (W2 R0 m ρ)),
    .region (reg1 R0 R1 m ρ),
    .host (hseg hostOps2 hostOps2_sub hostOps2_fresh (W4 R0 R1 m ρ)) ]
/-- The entry function IS the run of the segments: it is the chain of its five items, and so is the segments' run. -/
theorem main_run (c : Dev nD) : main (F := F) c = Pipeline.Seg.run (segs R0 R1 m ρ) := (main_chain c).trans (by chain_rfl)

/-- The last host segment's exit state is the last thread state beside the core owing nothing (the same conjuncts,
    bracketed the other way). -/
theorem last_chain (c : Dev nD) :
    (iprop(StableHlo.held (c : Thread nD τ) (Pipeline.ucRefs τ sig) (W5 R0 R1 m ρ c) ∗ R c) : sProp 𝕄)
      ⊢ iprop(Tₙ R0 R1 m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of the entry function on the cores
    terminates, nothing faulting, and in every final state every unscoped buffer of every core holds the last
    contents of the fold, W5: the launch over the five segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R0 R1 m ρ)
    (hch := ⟨fun _ => .rfl, fun _ => .rfl, fun _ => .rfl, fun _ => .rfl, fun _ => .rfl, fun c => last_chain R0 R1 m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 R0 R1 m ρ c) s')
      isplitl [Hh] <;> iassumption)
    (hQ := fun s h c => h c)

/-! ## The frame: every argument ends as launched -/

include R0 R1 in
/-- THE FRAME at any float model: every weakly fair execution of the entry function terminates, nothing faulting,
    and every final memory holds each of the seventeen arguments as launched. Read off the run's last contents: no
    host stretch writes an argument, none is an array of the first region, and the second region reads four of them
    (main_arg11, main_arg14, main_arg15, main_arg16) through input windows only. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W5_kept R0 R1 m ρ c main_arg0 (by decide) (by decide) (by decide) (by decide) (Or.inl (by decide))),
     (h c _ (mem_uc main_arg1 (by decide))).trans (W5_kept R0 R1 m ρ c main_arg1 (by decide) (by decide) (by decide) (by decide) (Or.inl (by decide))),
     (h c _ (mem_uc main_arg2 (by decide))).trans (W5_kept R0 R1 m ρ c main_arg2 (by decide) (by decide) (by decide) (by decide) (Or.inl (by decide))),
     (h c _ (mem_uc main_arg3 (by decide))).trans (W5_kept R0 R1 m ρ c main_arg3 (by decide) (by decide) (by decide) (by decide) (Or.inl (by decide))),
     (h c _ (mem_uc main_arg4 (by decide))).trans (W5_kept R0 R1 m ρ c main_arg4 (by decide) (by decide) (by decide) (by decide) (Or.inl (by decide))),
     (h c _ (mem_uc main_arg5 (by decide))).trans (W5_kept R0 R1 m ρ c main_arg5 (by decide) (by decide) (by decide) (by decide) (Or.inl (by decide))),
     (h c _ (mem_uc main_arg6 (by decide))).trans (W5_kept R0 R1 m ρ c main_arg6 (by decide) (by decide) (by decide) (by decide) (Or.inl (by decide))),
     (h c _ (mem_uc main_arg7 (by decide))).trans (W5_kept R0 R1 m ρ c main_arg7 (by decide) (by decide) (by decide) (by decide) (Or.inl (by decide))),
     (h c _ (mem_uc main_arg8 (by decide))).trans (W5_kept R0 R1 m ρ c main_arg8 (by decide) (by decide) (by decide) (by decide) (Or.inl (by decide))),
     (h c _ (mem_uc main_arg9 (by decide))).trans (W5_kept R0 R1 m ρ c main_arg9 (by decide) (by decide) (by decide) (by decide) (Or.inl (by decide))),
     (h c _ (mem_uc main_arg10 (by decide))).trans (W5_kept R0 R1 m ρ c main_arg10 (by decide) (by decide) (by decide) (by decide) (Or.inl (by decide))),
     (h c _ (mem_uc main_arg11 (by decide))).trans (W5_kept R0 R1 m ρ c main_arg11 (by decide) (by decide) (by decide) (by decide) (Or.inr ⟨5, rfl, rfl⟩)),
     (h c _ (mem_uc main_arg12 (by decide))).trans (W5_kept R0 R1 m ρ c main_arg12 (by decide) (by decide) (by decide) (by decide) (Or.inl (by decide))),
     (h c _ (mem_uc main_arg13 (by decide))).trans (W5_kept R0 R1 m ρ c main_arg13 (by decide) (by decide) (by decide) (by decide) (Or.inl (by decide))),
     (h c _ (mem_uc main_arg14 (by decide))).trans (W5_kept R0 R1 m ρ c main_arg14 (by decide) (by decide) (by decide) (by decide) (Or.inr ⟨6, rfl, rfl⟩)),
     (h c _ (mem_uc main_arg15 (by decide))).trans (W5_kept R0 R1 m ρ c main_arg15 (by decide) (by decide) (by decide) (by decide) (Or.inr ⟨7, rfl, rfl⟩)),
     (h c _ (mem_uc main_arg16 (by decide))).trans (W5_kept R0 R1 m ρ c main_arg16 (by decide) (by decide) (by decide) (by decide) (Or.inr ⟨8, rfl, rfl⟩))⟩)
    (run_all R0 R1 m ρ)

end Cert.Kernel.Hand

end
-- ==== Proof.Spec.lean ====
/-
  The function both programs compute, on the extended reals.

  A SUB-NETWORK is a 1-5-5-1 perceptron on one scalar: from the input x it forms five first-layer units
  silu (w0 k · x + b0 k), five second-layer units silu (Σ_k w1 m k · unit1 k + b1 m), the affine read-out
  Σ_m w2 m · unit2 m + b2, and returns read-out · s + x · r (a scaled output plus a linear skip). Here
  silu z = z · logistic z and logistic z = 1 / (1 + e^(-z)) with the extended reals' conventions at the infinities.

  A LAYER with I inputs and J outputs owns I · J such sub-networks, numbered n = i · J + j; its output j at batch row b is
  the sum over the inputs i of sub-network (i, j) applied to input i of row b. The program is two layers: 128 → 128
  (sub-networks 0 … 16383, parameters w0_*, b0_*, s0, r0) and 128 → 1 (sub-networks 0 … 127, parameters w1_*, b1_*, s1, r1),
  on 2048 batch rows. Parameter arrays are indexed [sub-network, output unit, input unit] as the reference stores them:
  first-layer weights [n, k, 0], second-layer weights [n, m, k], read-out weights [n, 0, m], biases [n, unit, 0],
  scale and skip [n, 0, 0].
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The literal shapes of the arguments and of the result -/

abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x5x1 : Shape := ⟨3, ![128, 5, 1]⟩
abbrev S128x5x5 : Shape := ⟨3, ![128, 5, 5]⟩
abbrev S128x1x5 : Shape := ⟨3, ![128, 1, 5]⟩
abbrev S128x1x1 : Shape := ⟨3, ![128, 1, 1]⟩
abbrev S2048x1 : Shape := ⟨2, ![2048, 1]⟩

/-! ## One sub-network -/

/-- silu z = z · logistic z. -/
def silu (z : EReal) : EReal := z * Idealize.ShloMosaic.Ideal.logistic z

/-- One 1-5-5-1 sub-network on the scalar x: first-layer units silu (w0 k · x + b0 k), second-layer units
    silu (Σ_k w1 m k · unit1 k + b1 m), the read-out Σ_m w2 m · unit2 m + b2, returned as read-out · s + x · r. -/
def net (w0 b0 : Fin 5 → EReal) (w1 : Fin 5 → Fin 5 → EReal) (b1 w2 : Fin 5 → EReal) (b2 s r x : EReal) : EReal :=
  (((∑ m : Fin 5, w2 m * silu ((∑ k : Fin 5, w1 m k * silu (w0 k * x + b0 k)) + b1 m)) + b2) * s) + x * r

/-! ## The two layers -/

/-- The number i · 128 + j of the first layer's sub-network from input i to output j. -/
def nidx (i j : Fin 128) : Fin 16384 := ⟨i.val * 128 + j.val, by have := i.isLt; have := j.isLt; omega⟩

theorem nidx_val (i j : Fin 128) : (nidx i j).val = i.val * 128 + j.val := rfl

/-- The first layer's output j at batch row b: the sum over the 128 inputs i of sub-network i · 128 + j
    applied to x[b, i]. -/
def hidden (x : S2048x128.Idx → EReal) (w0_0 : S16384x5x1.Idx → EReal) (w0_1 : S16384x5x5.Idx → EReal)
    (w0_2 : S16384x1x5.Idx → EReal) (b0_0 b0_1 : S16384x5x1.Idx → EReal) (b0_2 s0 r0 : S16384x1x1.Idx → EReal)
    (j : Fin 128) (b : Fin 2048) : EReal :=
  ∑ i : Fin 128, net (fun k => w0_0 (ix3 (nidx i j) k (0 : Fin 1))) (fun k => b0_0 (ix3 (nidx i j) k (0 : Fin 1)))
    (fun m k => w0_1 (ix3 (nidx i j) m k)) (fun m => b0_1 (ix3 (nidx i j) m (0 : Fin 1)))
    (fun m => w0_2 (ix3 (nidx i j) (0 : Fin 1) m)) (b0_2 (ix3 (nidx i j) (0 : Fin 1) (0 : Fin 1)))
    (s0 (ix3 (nidx i j) (0 : Fin 1) (0 : Fin 1))) (r0 (ix3 (nidx i j) (0 : Fin 1) (0 : Fin 1))) (x (ix2 b i))

/-- The result: at batch row q 0 (the second coordinate of q ranges over one value), the sum over the 128 first-layer
    outputs j of the second layer's sub-network j applied to the first layer's output j at that row. The sixteen
    parameter arrays come in the order of the reference's signature. -/
def G (x : S2048x128.Idx → EReal) (w0_0 : S16384x5x1.Idx → EReal) (w0_1 : S16384x5x5.Idx → EReal)
    (w0_2 : S16384x1x5.Idx → EReal) (b0_0 b0_1 : S16384x5x1.Idx → EReal) (b0_2 s0 r0 : S16384x1x1.Idx → EReal)
    (w1_0 : S128x5x1.Idx → EReal) (w1_1 : S128x5x5.Idx → EReal) (w1_2 : S128x1x5.Idx → EReal)
    (b1_0 b1_1 : S128x5x1.Idx → EReal) (b1_2 s1 r1 : S128x1x1.Idx → EReal) : S2048x1.Idx → EReal :=
  fun q => ∑ j : Fin 128, net (fun k => w1_0 (ix3 j k (0 : Fin 1))) (fun k => b1_0 (ix3 j k (0 : Fin 1)))
    (fun m k => w1_1 (ix3 j m k)) (fun m => b1_1 (ix3 j m (0 : Fin 1)))
    (fun m => w1_2 (ix3 j (0 : Fin 1) m)) (b1_2 (ix3 j (0 : Fin 1) (0 : Fin 1)))
    (s1 (ix3 j (0 : Fin 1) (0 : Fin 1))) (r1 (ix3 j (0 : Fin 1) (0 : Fin 1)))
    (hidden x w0_0 w0_1 w0_2 b0_0 b0_1 b0_2 s0 r0 j (q 0))

end Cert.Spec

end
-- ==== Proof.RefIsSpecL0.lean ====
/-
  The reference's first layer, read at an index on the extended reals.

  Sub-network n of the first layer sees the input x[b, n / 128] (the reference repeats each column of x 128 times along
  the sub-network axis), runs the 1-5-5-1 perceptron of Cert.Spec.net on it with the parameters stored at n, and the
  layer's output j at row b is the sum over i of sub-network i · 128 + j (the reshape [16384, 1, 2048] → [128, 128, 2048]
  puts sub-network i · 128 + j at (i, j), and the sum runs over the first axis, from the constant 0).
-/
import proofs.«107607_j19129784336543_2_alg».proof.Defs
import proofs.«107607_j19129784336543_2_alg».proof.Proof.Gen.ReferenceIdeal.Run
import proofs.«107607_j19129784336543_2_alg».proof.Proof.Gen.ReferenceIdeal.Read
import proofs.«107607_j19129784336543_2_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 : (⟨S2048x128, .f32⟩ : BufTy).Contents (Elt Ideal)) (x1 : (⟨S16384x5x1, .f32⟩ : BufTy).Contents (Elt Ideal))
  (x2 : (⟨S16384x5x5, .f32⟩ : BufTy).Contents (Elt Ideal)) (x3 : (⟨S16384x1x5, .f32⟩ : BufTy).Contents (Elt Ideal))
  (x4 x5 : (⟨S16384x5x1, .f32⟩ : BufTy).Contents (Elt Ideal)) (x6 x7 x8 : (⟨S16384x1x1, .f32⟩ : BufTy).Contents (Elt Ideal))

/-! ## The two constants -/

theorem one_f32 : FloatOps.ofBits (F := Ideal) .f32 0x3F800000#32 = (1 : EReal) := Ideal.ofBits_one_f32
theorem zero_f32 : FloatOps.ofBits (F := Ideal) .f32 0x00000000#32 = (0 : EReal) := Ideal.ofBits_zero_f32

/-! ## The first affine map: w0 k · x + b0 k -/

theorem lidx4 (n : Fin 16384) (k : Fin 5) (b : Fin 2048) (κ : Fin 1) :
    lidx_main_v4 (ix3 n k b) κ = ix3 n k κ :=
  funext fun a => Fin.ext (by match a with | ⟨0, _⟩ => rfl | ⟨1, _⟩ => rfl | ⟨2, _⟩ => rfl)
theorem ridx4 (n : Fin 16384) (k : Fin 5) (b : Fin 2048) (κ : Fin 1) :
    ridx_main_v4 (ix3 n k b) κ = ix3 n κ b :=
  funext fun a => Fin.ext (by match a with | ⟨0, _⟩ => rfl | ⟨1, _⟩ => rfl | ⟨2, _⟩ => rfl)
theorem idx5 (n : Fin 16384) (k : Fin 5) (b : Fin 2048) :
    idx_main_v5 (ix3 n k b) = ix3 n k (0 : Fin 1) :=
  funext fun a => Fin.ext (by match a with | ⟨0, _⟩ => rfl | ⟨1, _⟩ => rfl | ⟨2, _⟩ => rfl)

theorem v6_at (n : Fin 16384) (k : Fin 5) (b : Fin 2048) :
    val_main_v6 (F := Ideal) x0 x1 x4 (ix3 n k b)
      = x1 (ix3 n k (0 : Fin 1)) * val_main_v3 (F := Ideal) x0 (ix3 n (0 : Fin 1) b) + x4 (ix3 n k (0 : Fin 1)) := by
  rw [val_main_v6_apply, val_main_v4_apply, val_main_v5_apply, Fin.sum_univ_one, lidx4, ridx4, idx5]
  rfl

/-- The reference's expansion of silu — negate, exponential, 1 + ·, 1 / ·, multiply — is z · logistic z. -/
theorem v7_silu (i : S16384x5x2048.Idx) :
    val_main_v7 (F := Ideal) x0 x1 x4 i = Cert.Spec.silu (val_main_v6 (F := Ideal) x0 x1 x4 i) := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, one_f32]
  rfl

/-! ## The second affine map: Σ_k w1 m k · unit1 k + b1 m -/

theorem lidx8 (n : Fin 16384) (m : Fin 5) (b : Fin 2048) (k : Fin 5) :
    lidx_main_v8 (ix3 n m b) k = ix3 n m k :=
  funext fun a => Fin.ext (by match a with | ⟨0, _⟩ => rfl | ⟨1, _⟩ => rfl | ⟨2, _⟩ => rfl)
theorem ridx8 (n : Fin 16384) (m : Fin 5) (b : Fin 2048) (k : Fin 5) :
    ridx_main_v8 (ix3 n m b) k = ix3 n k b :=
  funext fun a => Fin.ext (by match a with | ⟨0, _⟩ => rfl | ⟨1, _⟩ => rfl | ⟨2, _⟩ => rfl)
theorem idx9 (n : Fin 16384) (m : Fin 5) (b : Fin 2048) :
    idx_main_v9 (ix3 n m b) = ix3 n m (0 : Fin 1) :=
  funext fun a => Fin.ext (by match a with | ⟨0, _⟩ => rfl | ⟨1, _⟩ => rfl | ⟨2, _⟩ => rfl)

theorem v10_at (n : Fin 16384) (m : Fin 5) (b : Fin 2048) :
    val_main_v10 (F := Ideal) x0 x1 x2 x4 x5 (ix3 n m b)
      = (∑ k : Fin 5, x2 (ix3 n m k) * val_main_v7 (F := Ideal) x0 x1 x4 (ix3 n k b)) + x5 (ix3 n m (0 : Fin 1)) := by
  rw [val_main_v10_apply, val_main_v8_apply, val_main_v9_apply, idx9]
  simp only [lidx8, ridx8]
  rfl

theorem v11_silu (i : S16384x5x2048.Idx) :
    val_main_v11 (F := Ideal) x0 x1 x2 x4 x5 i = Cert.Spec.silu (val_main_v10 (F := Ideal) x0 x1 x2 x4 x5 i) := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply, one_f32]
  rfl

/-! ## The read-out, the scale and the skip -/

theorem lidx12 (n : Fin 16384) (z : Fin 1) (b : Fin 2048) (m : Fin 5) :
    lidx_main_v12 (ix3 n z b) m = ix3 n z m :=
  funext fun a => Fin.ext (by match a with | ⟨0, _⟩ => rfl | ⟨1, _⟩ => rfl | ⟨2, _⟩ => rfl)
theorem ridx12 (n : Fin 16384) (z : Fin 1) (b : Fin 2048) (m : Fin 5) :
    ridx_main_v12 (ix3 n z b) m = ix3 n m b :=
  funext fun a => Fin.ext (by match a with | ⟨0, _⟩ => rfl | ⟨1, _⟩ => rfl | ⟨2, _⟩ => rfl)
theorem idx13 (n : Fin 16384) (z : Fin 1) (b : Fin 2048) :
    idx_main_v13 (ix3 n z b) = ix3 n (0 : Fin 1) (0 : Fin 1) :=
  funext fun a => Fin.ext (by match a with | ⟨0, _⟩ => rfl | ⟨1, _⟩ => rfl | ⟨2, _⟩ => rfl)
theorem idx15 (n : Fin 16384) (z : Fin 1) (b : Fin 2048) :
    idx_main_v15 (ix3 n z b) = ix3 n (0 : Fin 1) (0 : Fin 1) :=
  funext fun a => Fin.ext (by match a with | ⟨0, _⟩ => rfl | ⟨1, _⟩ => rfl | ⟨2, _⟩ => rfl)
theorem idx17 (n : Fin 16384) (z : Fin 1) (b : Fin 2048) :
    idx_main_v17 (ix3 n z b) = ix3 n (0 : Fin 1) (0 : Fin 1) :=
  funext fun a => Fin.ext (by match a with | ⟨0, _⟩ => rfl | ⟨1, _⟩ => rfl | ⟨2, _⟩ => rfl)

theorem v14_at (n : Fin 16384) (b : Fin 2048) :
    val_main_v14 (F := Ideal) x0 x1 x2 x3 x4 x5 x6 (ix3 n (0 : Fin 1) b)
      = (∑ m : Fin 5, x3 (ix3 n (0 : Fin 1) m) * val_main_v11 (F := Ideal) x0 x1 x2 x4 x5 (ix3 n m b))
        + x6 (ix3 n (0 : Fin 1) (0 : Fin 1)) := by
  rw [val_main_v14_apply, val_main_v12_apply, val_main_v13_apply, idx13]
  simp only [lidx12, ridx12]
  rfl

theorem v19_at (n : Fin 16384) (b : Fin 2048) :
    val_main_v19 (F := Ideal) x0 x1 x2 x3 x4 x5 x6 x7 x8 (ix3 n (0 : Fin 1) b)
      = val_main_v14 (F := Ideal) x0 x1 x2 x3 x4 x5 x6 (ix3 n (0 : Fin 1) b) * x7 (ix3 n (0 : Fin 1) (0 : Fin 1))
        + val_main_v3 (F := Ideal) x0 (ix3 n (0 : Fin 1) b) * x8 (ix3 n (0 : Fin 1) (0 : Fin 1)) := by
  rw [val_main_v19_apply, val_main_v16_apply, val_main_v18_apply, val_main_v15_apply, val_main_v17_apply, idx15, idx17]
  rfl

/-- Sub-network n of the first layer at batch row b, as the reference computes it, is the perceptron of the
    specification on the value the reference feeds it. -/
theorem v19_net (n : Fin 16384) (b : Fin 2048) :
    val_main_v19 (F := Ideal) x0 x1 x2 x3 x4 x5 x6 x7 x8 (ix3 n (0 : Fin 1) b)
      = Cert.Spec.net (fun k => x1 (ix3 n k (0 : Fin 1))) (fun k => x4 (ix3 n k (0 : Fin 1)))
          (fun m k => x2 (ix3 n m k)) (fun m => x5 (ix3 n m (0 : Fin 1))) (fun m => x3 (ix3 n (0 : Fin 1) m))
          (x6 (ix3 n (0 : Fin 1) (0 : Fin 1))) (x7 (ix3 n (0 : Fin 1) (0 : Fin 1))) (x8 (ix3 n (0 : Fin 1) (0 : Fin 1)))
          (val_main_v3 (F := Ideal) x0 (ix3 n (0 : Fin 1) b)) := by
  rw [v19_at, v14_at]
  simp only [v11_silu, v10_at, v7_silu, v6_at]
  rfl

/-! ## The input of a sub-network, and the sum over the layer's inputs -/

/-- Sub-network i · 128 + j reads x[b, i]: the column i of x repeated 128 times along the sub-network axis. -/
theorem v3_at (i j : Fin 128) (b : Fin 2048) :
    val_main_v3 (F := Ideal) x0 (ix3 (Cert.Spec.nidx i j) (0 : Fin 1) b) = x0 (ix2 b i) := by
  rw [val_main_v3_apply, val_main_v2_apply, val_main_v1_apply, val_main_v0_apply]
  have hi := i.isLt; have hj := j.isLt; have hb := b.isLt
  refine congrArg x0 (funext fun a => Fin.ext ?_)
  match a with
  | ⟨0, _⟩ => show ((i.val * 128 + j.val) * 2048 + b.val) % 2048 = b.val; omega
  | ⟨1, _⟩ => show ((i.val * 128 + j.val) * 2048 + b.val) / 262144 = i.val; omega

theorem idx20 (i j : Fin 128) (b : Fin 2048) :
    idx_main_v20 (ix3 i j b) = ix3 (Cert.Spec.nidx i j) (0 : Fin 1) b := by
  have hi := i.isLt; have hj := j.isLt; have hb := b.isLt
  refine funext fun a => Fin.ext ?_
  match a with
  | ⟨0, _⟩ => show ((i.val * 128 + j.val) * 2048 + b.val) / 2048 = i.val * 128 + j.val; omega
  | ⟨1, _⟩ => rfl
  | ⟨2, _⟩ => show ((i.val * 128 + j.val) * 2048 + b.val) % 2048 = b.val; omega

theorem idx21 (j : Fin 128) (b : Fin 2048) (i : Fin 128) :
    idx_main_v21 (ix2 j b) i = ix3 i j b :=
  funext fun a => Fin.ext (by match a with | ⟨0, _⟩ => rfl | ⟨1, _⟩ => rfl | ⟨2, _⟩ => rfl)

theorem v21_at (j : Fin 128) (b : Fin 2048) :
    val_main_v21 (F := Ideal) x0 x1 x2 x3 x4 x5 x6 x7 x8 (ix2 j b)
      = ∑ i : Fin 128, val_main_v19 (F := Ideal) x0 x1 x2 x3 x4 x5 x6 x7 x8 (ix3 (Cert.Spec.nidx i j) (0 : Fin 1) b) := by
  rw [val_main_v21_apply, val_main_cst_apply, zero_f32, zero_add]
  simp only [idx21, val_main_v20_apply, idx20]

/-- The reference's first layer is the specification's. -/
theorem v21_hidden (j : Fin 128) (b : Fin 2048) :
    val_main_v21 (F := Ideal) x0 x1 x2 x3 x4 x5 x6 x7 x8 (ix2 j b)
      = Cert.Spec.hidden x0 x1 x2 x3 x4 x5 x6 x7 x8 j b := by
  rw [v21_at]
  simp only [v19_net, v3_at]
  rfl

end Cert.ReferenceIdeal.RefValue

end
-- ==== Proof.RefIsSpecL1.lean ====
/-
  The reference's second layer, read at an index on the extended reals.

  Between the layers the reference transposes the first layer's output twice (the two transposes cancel), inserts a
  unit axis, and feeds row b of output j to sub-network j of the second layer, which has one output: the result at
  row b is the sum over j of sub-network j, from the constant 0.
-/
import proofs.«107607_j19129784336543_2_alg».proof.Defs
import proofs.«107607_j19129784336543_2_alg».proof.Proof.Gen.ReferenceIdeal.Run
import proofs.«107607_j19129784336543_2_alg».proof.Proof.Gen.ReferenceIdeal.Read
import proofs.«107607_j19129784336543_2_alg».proof.Proof.Spec
import proofs.«107607_j19129784336543_2_alg».proof.Proof.RefIsSpecL0
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 : (⟨S2048x128, .f32⟩ : BufTy).Contents (Elt Ideal)) (x1 : (⟨S16384x5x1, .f32⟩ : BufTy).Contents (Elt Ideal))
  (x2 : (⟨S16384x5x5, .f32⟩ : BufTy).Contents (Elt Ideal)) (x3 : (⟨S16384x1x5, .f32⟩ : BufTy).Contents (Elt Ideal))
  (x4 x5 : (⟨S16384x5x1, .f32⟩ : BufTy).Contents (Elt Ideal)) (x6 x7 x8 : (⟨S16384x1x1, .f32⟩ : BufTy).Contents (Elt Ideal))
  (x9 : (⟨S128x5x1, .f32⟩ : BufTy).Contents (Elt Ideal)) (x10 : (⟨S128x5x5, .f32⟩ : BufTy).Contents (Elt Ideal))
  (x11 : (⟨S128x1x5, .f32⟩ : BufTy).Contents (Elt Ideal)) (x12 x13 : (⟨S128x5x1, .f32⟩ : BufTy).Contents (Elt Ideal))
  (x14 x15 x16 : (⟨S128x1x1, .f32⟩ : BufTy).Contents (Elt Ideal))

/-! ## The input of a second-layer sub-network is the first layer's output -/

theorem v26_at (j : Fin 128) (b : Fin 2048) :
    val_main_v26 (F := Ideal) x0 x1 x2 x3 x4 x5 x6 x7 x8 (ix3 j (0 : Fin 1) b)
      = val_main_v21 (F := Ideal) x0 x1 x2 x3 x4 x5 x6 x7 x8 (ix2 j b) := by
  rw [val_main_v26_apply, val_main_v25_apply, val_main_v24_apply, val_main_v23_apply, val_main_v22_apply]
  have hj := j.isLt; have hb := b.isLt
  refine congrArg (val_main_v21 (F := Ideal) x0 x1 x2 x3 x4 x5 x6 x7 x8) (funext fun a => Fin.ext ?_)
  match a with
  | ⟨0, _⟩ => show (j.val * 2048 + b.val) / 2048 = j.val; omega
  | ⟨1, _⟩ => show (j.val * 2048 + b.val) % 2048 = b.val; omega

/-! ## The first affine map -/

theorem lidx27 (j : Fin 128) (k : Fin 5) (b : Fin 2048) (κ : Fin 1) :
    lidx_main_v27 (ix3 j k b) κ = ix3 j k κ :=
  funext fun a => Fin.ext (by match a with | ⟨0, _⟩ => rfl | ⟨1, _⟩ => rfl | ⟨2, _⟩ => rfl)
theorem ridx27 (j : Fin 128) (k : Fin 5) (b : Fin 2048) (κ : Fin 1) :
    ridx_main_v27 (ix3 j k b) κ = ix3 j κ b :=
  funext fun a => Fin.ext (by match a with | ⟨0, _⟩ => rfl | ⟨1, _⟩ => rfl | ⟨2, _⟩ => rfl)
theorem idx28 (j : Fin 128) (k : Fin 5) (b : Fin 2048) :
    idx_main_v28 (ix3 j k b) = ix3 j k (0 : Fin 1) :=
  funext fun a => Fin.ext (by match a with | ⟨0, _⟩ => rfl | ⟨1, _⟩ => rfl | ⟨2, _⟩ => rfl)

theorem v29_at (j : Fin 128) (k : Fin 5) (b : Fin 2048) :
    val_main_v29 (F := Ideal) x0 x1 x2 x3 x4 x5 x6 x7 x8 x9 x12 (ix3 j k b)
      = x9 (ix3 j k (0 : Fin 1)) * val_main_v26 (F := Ideal) x0 x1 x2 x3 x4 x5 x6 x7 x8 (ix3 j (0 : Fin 1) b) + x12 (ix3 j k (0 : Fin 1)) := by
  rw [val_main_v29_apply, val_main_v27_apply, val_main_v28_apply, Fin.sum_univ_one, lidx27, ridx27, idx28]
  rfl

theorem v30_silu (i : S128x5x2048.Idx) :
    val_main_v30 (F := Ideal) x0 x1 x2 x3 x4 x5 x6 x7 x8 x9 x12 i = Cert.Spec.silu (val_main_v29 (F := Ideal) x0 x1 x2 x3 x4 x5 x6 x7 x8 x9 x12 i) := by
  rw [val_main_v30_apply, val_main_call2_v5_apply, val_main_call2_v4_apply, val_main_call2_cst_0_apply,
    val_main_call2_v3_apply, val_main_call2_v2_apply, val_main_call2_cst_apply, val_main_call2_v1_apply,
    val_main_call2_v0_apply, one_f32]
  rfl

/-! ## The second affine map -/

theorem lidx31 (j : Fin 128) (m : Fin 5) (b : Fin 2048) (k : Fin 5) :
    lidx_main_v31 (ix3 j m b) k = ix3 j m k :=
  funext fun a => Fin.ext (by match a with | ⟨0, _⟩ => rfl | ⟨1, _⟩ => rfl | ⟨2, _⟩ => rfl)
theorem ridx31 (j : Fin 128) (m : Fin 5) (b : Fin 2048) (k : Fin 5) :
    ridx_main_v31 (ix3 j m b) k = ix3 j k b :=
  funext fun a => Fin.ext (by match a with | ⟨0, _⟩ => rfl | ⟨1, _⟩ => rfl | ⟨2, _⟩ => rfl)
theorem idx32 (j : Fin 128) (m : Fin 5) (b : Fin 2048) :
    idx_main_v32 (ix3 j m b) = ix3 j m (0 : Fin 1) :=
  funext fun a => Fin.ext (by match a with | ⟨0, _⟩ => rfl | ⟨1, _⟩ => rfl | ⟨2, _⟩ => rfl)

theorem v33_at (j : Fin 128) (m : Fin 5) (b : Fin 2048) :
    val_main_v33 (F := Ideal) x0 x1 x2 x3 x4 x5 x6 x7 x8 x9 x10 x12 x13 (ix3 j m b)
      = (∑ k : Fin 5, x10 (ix3 j m k) * val_main_v30 (F := Ideal) x0 x1 x2 x3 x4 x5 x6 x7 x8 x9 x12 (ix3 j k b)) + x13 (ix3 j m (0 : Fin 1)) := by
  rw [val_main_v33_apply, val_main_v31_apply, val_main_v32_apply, idx32]
  simp only [lidx31, ridx31]
  rfl

theorem v34_silu (i : S128x5x2048.Idx) :
    val_main_v34 (F := Ideal) x0 x1 x2 x3 x4 x5 x6 x7 x8 x9 x10 x12 x13 i
      = Cert.Spec.silu (val_main_v33 (F := Ideal) x0 x1 x2 x3 x4 x5 x6 x7 x8 x9 x10 x12 x13 i) := by
  rw [val_main_v34_apply, val_main_call3_v5_apply, val_main_call3_v4_apply, val_main_call3_cst_0_apply,
    val_main_call3_v3_apply, val_main_call3_v2_apply, val_main_call3_cst_apply, val_main_call3_v1_apply,
    val_main_call3_v0_apply, one_f32]
  rfl

/-! ## The read-out, the scale and the skip -/

theorem lidx35 (j : Fin 128) (z : Fin 1) (b : Fin 2048) (m : Fin 5) :
    lidx_main_v35 (ix3 j z b) m = ix3 j z m :=
  funext fun a => Fin.ext (by match a with | ⟨0, _⟩ => rfl | ⟨1, _⟩ => rfl | ⟨2, _⟩ => rfl)
theorem ridx35 (j : Fin 128) (z : Fin 1) (b : Fin 2048) (m : Fin 5) :
    ridx_main_v35 (ix3 j z b) m = ix3 j m b :=
  funext fun a => Fin.ext (by match a with | ⟨0, _⟩ => rfl | ⟨1, _⟩ => rfl | ⟨2, _⟩ => rfl)
theorem idx36 (j : Fin 128) (z : Fin 1) (b : Fin 2048) :
    idx_main_v36 (ix3 j z b) = ix3 j (0 : Fin 1) (0 : Fin 1) :=
  funext fun a => Fin.ext (by match a with | ⟨0, _⟩ => rfl | ⟨1, _⟩ => rfl | ⟨2, _⟩ => rfl)
theorem idx38 (j : Fin 128) (z : Fin 1) (b : Fin 2048) :
    idx_main_v38 (ix3 j z b) = ix3 j (0 : Fin 1) (0 : Fin 1) :=
  funext fun a => Fin.ext (by match a with | ⟨0, _⟩ => rfl | ⟨1, _⟩ => rfl | ⟨2, _⟩ => rfl)
theorem idx40 (j : Fin 128) (z : Fin 1) (b : Fin 2048) :
    idx_main_v40 (ix3 j z b) = ix3 j (0 : Fin 1) (0 : Fin 1) :=
  funext fun a => Fin.ext (by match a with | ⟨0, _⟩ => rfl | ⟨1, _⟩ => rfl | ⟨2, _⟩ => rfl)

theorem v37_at (j : Fin 128) (b : Fin 2048) :
    val_main_v37 (F := Ideal) x0 x1 x2 x3 x4 x5 x6 x7 x8 x9 x10 x11 x12 x13 x14 (ix3 j (0 : Fin 1) b)
      = (∑ m : Fin 5, x11 (ix3 j (0 : Fin 1) m) * val_main_v34 (F := Ideal) x0 x1 x2 x3 x4 x5 x6 x7 x8 x9 x10 x12 x13 (ix3 j m b))
        + x14 (ix3 j (0 : Fin 1) (0 : Fin 1)) := by
  rw [val_main_v37_apply, val_main_v35_apply, val_main_v36_apply, idx36]
  simp only [lidx35, ridx35]
  rfl

theorem v42_at (j : Fin 128) (b : Fin 2048) :
    val_main_v42 (F := Ideal) x0 x1 x2 x3 x4 x5 x6 x7 x8 x9 x10 x11 x12 x13 x14 x15 x16 (ix3 j (0 : Fin 1) b)
      = val_main_v37 (F := Ideal) x0 x1 x2 x3 x4 x5 x6 x7 x8 x9 x10 x11 x12 x13 x14 (ix3 j (0 : Fin 1) b) * x15 (ix3 j (0 : Fin 1) (0 : Fin 1))
        + val_main_v26 (F := Ideal) x0 x1 x2 x3 x4 x5 x6 x7 x8 (ix3 j (0 : Fin 1) b) * x16 (ix3 j (0 : Fin 1) (0 : Fin 1)) := by
  rw [val_main_v42_apply, val_main_v39_apply, val_main_v41_apply, val_main_v38_apply, val_main_v40_apply, idx38, idx40]
  rfl

/-- Sub-network j of the second layer at batch row b, as the reference computes it, is the perceptron of the
    specification on the first layer's output j at row b. -/
theorem v42_net (j : Fin 128) (b : Fin 2048) :
    val_main_v42 (F := Ideal) x0 x1 x2 x3 x4 x5 x6 x7 x8 x9 x10 x11 x12 x13 x14 x15 x16 (ix3 j (0 : Fin 1) b)
      = Cert.Spec.net (fun k => x9 (ix3 j k (0 : Fin 1))) (fun k => x12 (ix3 j k (0 : Fin 1)))
          (fun m k => x10 (ix3 j m k)) (fun m => x13 (ix3 j m (0 : Fin 1))) (fun m => x11 (ix3 j (0 : Fin 1) m))
          (x14 (ix3 j (0 : Fin 1) (0 : Fin 1))) (x15 (ix3 j (0 : Fin 1) (0 : Fin 1))) (x16 (ix3 j (0 : Fin 1) (0 : Fin 1)))
          (Cert.Spec.hidden x0 x1 x2 x3 x4 x5 x6 x7 x8 j b) := by
  rw [v42_at, v37_at]
  simp only [v34_silu, v33_at, v30_silu, v29_at, v26_at, v21_hidden]
  rfl

/-! ## The sum over the second layer's inputs -/

theorem idx43 (z : Fin 1) (b : Fin 2048) (j : Fin 128) :
    idx_main_v43 (ix2 z b) j = ix3 j z b :=
  funext fun a => Fin.ext (by match a with | ⟨0, _⟩ => rfl | ⟨1, _⟩ => rfl | ⟨2, _⟩ => rfl)

theorem v43_at (b : Fin 2048) :
    val_main_v43 (F := Ideal) x0 x1 x2 x3 x4 x5 x6 x7 x8 x9 x10 x11 x12 x13 x14 x15 x16 (ix2 (0 : Fin 1) b)
      = ∑ j : Fin 128, val_main_v42 (F := Ideal) x0 x1 x2 x3 x4 x5 x6 x7 x8 x9 x10 x11 x12 x13 x14 x15 x16 (ix3 j (0 : Fin 1) b) := by
  rw [val_main_v43_apply, val_main_cst_0_apply, zero_f32, zero_add]
  simp only [idx43]

end Cert.ReferenceIdeal.RefValue

end
-- ==== Proof.RefIsSpec.lean ====
/-
  The reference computes the specification.

  Reading the reference's result at batch row b: the last transpose swaps the unit axis with the batch axis, the last
  sum adds the 128 second-layer sub-networks from the constant 0, each of them is Cert.Spec.net on the first layer's
  output, and the first layer's output is Cert.Spec.hidden. So every weakly fair execution of the reference ends with
  its result buffer at Cert.Spec.G of its seventeen argument arrays, and with those arrays unchanged.
-/
import proofs.«107607_j19129784336543_2_alg».proof.Defs
import proofs.«107607_j19129784336543_2_alg».proof.Proof.Gen.ReferenceIdeal.Run
import proofs.«107607_j19129784336543_2_alg».proof.Proof.Gen.ReferenceIdeal.Read
import proofs.«107607_j19129784336543_2_alg».proof.Proof.Spec
import proofs.«107607_j19129784336543_2_alg».proof.Proof.Gen.Pre_finite_inputs
import proofs.«107607_j19129784336543_2_alg».proof.Proof.RefIsSpecL0
import proofs.«107607_j19129784336543_2_alg».proof.Proof.RefIsSpecL1
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx

open Idealize.ShloMosaic.TcCoe Idealize.SL.Sem

/-- The reference's result, as a function of its argument arrays, is the specification, index by index. -/
theorem result_eq (x0 : (⟨S2048x128, .f32⟩ : BufTy).Contents (Elt Ideal)) (x1 : (⟨S16384x5x1, .f32⟩ : BufTy).Contents (Elt Ideal))
    (x2 : (⟨S16384x5x5, .f32⟩ : BufTy).Contents (Elt Ideal)) (x3 : (⟨S16384x1x5, .f32⟩ : BufTy).Contents (Elt Ideal))
    (x4 x5 : (⟨S16384x5x1, .f32⟩ : BufTy).Contents (Elt Ideal)) (x6 x7 x8 : (⟨S16384x1x1, .f32⟩ : BufTy).Contents (Elt Ideal))
    (x9 : (⟨S128x5x1, .f32⟩ : BufTy).Contents (Elt Ideal)) (x10 : (⟨S128x5x5, .f32⟩ : BufTy).Contents (Elt Ideal))
    (x11 : (⟨S128x1x5, .f32⟩ : BufTy).Contents (Elt Ideal)) (x12 x13 : (⟨S128x5x1, .f32⟩ : BufTy).Contents (Elt Ideal))
    (x14 x15 x16 : (⟨S128x1x1, .f32⟩ : BufTy).Contents (Elt Ideal)) :
    val_main_v44 (F := Ideal) x0 x1 x2 x3 x4 x5 x6 x7 x8 x9 x10 x11 x12 x13 x14 x15 x16 = Cert.Spec.G x0 x1 x2 x3 x4 x5 x6 x7 x8 x9 x10 x11 x12 x13 x14 x15 x16 := by
  funext q
  obtain ⟨b, z, rfl⟩ : ∃ (b : Fin 2048) (z : Fin 1), q = ix2 b z := ⟨q 0, q 1, eq_ix2 q⟩
  obtain rfl : z = 0 := Subsingleton.elim _ _
  have e : idx_main_v44 (ix2 b (0 : Fin 1)) = ix2 (0 : Fin 1) b :=
    funext fun a => Fin.ext (by match a with | ⟨0, _⟩ => rfl | ⟨1, _⟩ => rfl)
  rw [val_main_v44_apply, e, v43_at]
  simp only [v42_net]
  rfl

/-- The reference's frame: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the reference terminates with its result buffer at the specification of its
    seventeen argument arrays, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans ((val_main_v44_eq m c).trans (result_eq _ _ _ _ _ _ _ _ _ _ _ _ _ _ _ _ _)), (h c).2⟩)
    (Cert.ReferenceIdeal.Value.run (F := Ideal) m ρ)

end Cert.ReferenceIdeal.RefValue

end
-- ==== Proof.TripTerm0.lean ====
/-
  One trip of the first layer's loop as a pure function: from the accumulator carried into the trip and the nine
  rows the trip loads — row k of the transposed input block, of the first-layer weights and biases, of the 5 x 5
  second-layer weights and their biases, of the output weights, bias, scale and residual weight — to the accumulator
  carried out of it: the accumulator plus, at each output feature and batch position, one sub-network's output.
-/
import proofs.«107607_j19129784336543_2_alg».proof.Proof.Gen.KernelIdeal.Skeleton

noncomputable section

namespace Cert.KernelIdeal.Val

open Idealize.ShloMosaic Idealize.ShloMosaic.TcCoe
open Cert.KernelIdeal Cert.KernelIdeal.Gen

variable {F : FTy → Type} [FloatOps F]

/-- What trip k yields, over the rows it loads (v2 from the input block, v3 … v10 from the eight parameter blocks). -/
def tripTerm0 (acc : FVec F S128x512 .f32) (v2 : Vec F S1x512 .f32) (v3 v4 : Vec F S1x128x5 .f32) (v5 : Vec F S1x5x128x5 .f32)
    (v6 v7 : Vec F S1x128x5 .f32) (v8 v9 v10 : Vec F S1x128x1 .f32) : FVec F S128x512 .f32 :=
  k0_pay3 acc (k0_pay5 v2)
        (k0_pay26
          (k0_pay12 (k0_pay5 v2)
            (k0_pay6 v3)
            (k0_pay7 v4))
          (k0_pay13 v5)
          (k0_pay17
            (k0_pay10 v2
              v3
              v4)
            (k0_pay11 (k0_pay5 v2)
              (k0_pay6 v3)
              (k0_pay7 v4))
            (k0_pay12 (k0_pay5 v2)
              (k0_pay6 v3)
              (k0_pay7 v4))
            (k0_pay13 v5)
            (k0_pay15
              (k0_pay8 v2
                v3
                v4)
              (k0_pay9 v2
                v3
                v4)
              v5
              v6)
            (k0_pay16 v5))
          (k0_pay20
            (k0_pay18
              (k0_pay8 v2
                v3
                v4)
              (k0_pay9 v2
                v3
                v4)
              (k0_pay10 v2
                v3
                v4)
              (k0_pay11 (k0_pay5 v2)
                (k0_pay6 v3)
                (k0_pay7 v4))
              (k0_pay13 v5)
              (k0_pay14 v6))
            (k0_pay19
              (k0_pay12 (k0_pay5 v2)
                (k0_pay6 v3)
                (k0_pay7 v4))
              (k0_pay13 v5)))
          (k0_pay21
            (k0_pay8 v2
              v3
              v4)
            (k0_pay9 v2
              v3
              v4)
            (k0_pay10 v2
              v3
              v4)
            (k0_pay11 (k0_pay5 v2)
              (k0_pay6 v3)
              (k0_pay7 v4))
            (k0_pay12 (k0_pay5 v2)
              (k0_pay6 v3)
              (k0_pay7 v4))
            (k0_pay13 v5)
            (k0_pay14 v6))
          (k0_pay24
            (k0_pay9 v2
              v3
              v4)
            (k0_pay10 v2
              v3
              v4)
            (k0_pay11 (k0_pay5 v2)
              (k0_pay6 v3)
              (k0_pay7 v4))
            (k0_pay12 (k0_pay5 v2)
              (k0_pay6 v3)
              (k0_pay7 v4))
            (k0_pay13 v5)
            (k0_pay22
              (k0_pay8 v2
                v3
                v4)
              (k0_pay13 v5)
              (k0_pay14 v6))
            (k0_pay23
              (k0_pay13 v5)))
          (k0_pay25
            (k0_pay8 v2
              v3
              v4)
            (k0_pay9 v2
              v3
              v4)
            (k0_pay10 v2
              v3
              v4)
            (k0_pay11 (k0_pay5 v2)
              (k0_pay6 v3)
              (k0_pay7 v4))
            (k0_pay13 v5)
            (k0_pay14 v6))
          v7
          v8)
        v9
        v10

end Cert.KernelIdeal.Val

end
-- ==== Proof.R0Val.lean ====
/-
  The first layer's kernel region, its values. One trip of the loop yields the trip's pure function of the nine rows
  it loads; the loop from the zero block is the iterate of the trips; and the cases' found pieces read back in closed
  form: a point leaves in the accumulator what the point before left (zero where ib = 0) plus the loop's sum over
  the point's 16 input features, and where ib = 7 the output block's buffer holds that same sum.
-/
import proofs.«107607_j19129784336543_2_alg».proof.Proof.R0Dat
import proofs.«107607_j19129784336543_2_alg».proof.Proof.TripTerm0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Val (tripTerm0)

theorem hz2 : (![0, 0] : Fin 2 → Nat) = fun _ => 0 := funext fun a => by fin_cases a <;> rfl

/-- The zero block the reset stores. -/
abbrev zero0 : FVec F S128x512 .f32 := k0_pay1 (F := F)

/-! ## One trip -/

unseal Cert.KernelIdeal.Gen.trip_k0_t1 in
/-- Trip k's yield is the trip's pure function of the accumulator and of row k of each input block. -/
theorem tripR0_eq (𝒱 : Variants) (c : Dev nD) (bd : Option 𝒱.V) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) (acc : FVec F S128x512 .f32) :
    tripR_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 X_arg10 k acc
      = tripTerm0 acc
        (View.readAt (Elt F) arg2.view (Rect.unit (s := S16x512) (k0_off1 k) S1x512.size (k0_off1_inb k)).toLoadRect X_arg2)
        (View.readAt (Elt F) arg3.view (Rect.unit (s := S16x128x5) (k0_off2 k) S1x128x5.size (k0_off2_inb k)).toLoadRect X_arg3)
        (View.readAt (Elt F) arg4.view (Rect.unit (s := S16x128x5) (k0_off2 k) S1x128x5.size (k0_off2_inb k)).toLoadRect X_arg4)
        (View.readAt (Elt F) arg5.view (Rect.unit (s := S16x5x128x5) (k0_off3 k) S1x5x128x5.size (k0_off3_inb k)).toLoadRect X_arg5)
        (View.readAt (Elt F) arg6.view (Rect.unit (s := S16x128x5) (k0_off2 k) S1x128x5.size (k0_off2_inb k)).toLoadRect X_arg6)
        (View.readAt (Elt F) arg7.view (Rect.unit (s := S16x128x5) (k0_off2 k) S1x128x5.size (k0_off2_inb k)).toLoadRect X_arg7)
        (View.readAt (Elt F) arg8.view (Rect.unit (s := S16x128x1) (k0_off4 k) S1x128x1.size (k0_off4_inb k)).toLoadRect X_arg8)
        (View.readAt (Elt F) arg9.view (Rect.unit (s := S16x128x1) (k0_off4 k) S1x128x1.size (k0_off4_inb k)).toLoadRect X_arg9)
        (View.readAt (Elt F) arg10.view (Rect.unit (s := S16x128x1) (k0_off4 k) S1x128x1.size (k0_off4_inb k)).toLoadRect X_arg10) := by
  unfold tripR_k0_t1
  unfold trip_k0_t1
  dsimp only
  sl_unfold_run_names
  rfl

/-! ## The loop -/

/-- The loop's result at a point: the carried value after all 16 trips, from the zero block, over the point's input blocks. -/
def loop0 (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (n : ℕ) : FVec F S128x512 .f32 :=
  st_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) (k0_pay2 (F := F)) n

/-! ## What the cases leave -/

theorem sout0_B_0_eq (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop0 c i arg2 harg2 arg3 harg3 arg4 harg4 arg5 harg5 arg6 harg6 arg7 harg7 arg8 harg8 arg9 harg9 arg10 harg10 arg11 harg11 arg12 harg12 x0 x1 x2 x3 x4 x5 x6 x7 x8 k0_t1_loop.trips) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  rw [View.canon_unit_zero hz2]
  unfold k0_pay4 loop0
  simp only [View.readAt_eq_ld, harg12.read_unread, View.ld_unit_zero (S := S128x512) hz2, shapeCast_self]

theorem sout0_C_0_eq (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop0 c i arg2 harg2 arg3 harg3 arg4 harg4 arg5 harg5 arg6 harg6 arg7 harg7 arg8 harg8 arg9 harg9 arg10 harg10 arg11 harg11 arg12 harg12 x0 x1 x2 x3 x4 x5 x6 x7 x8 k0_t1_loop.trips) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2]
  unfold k0_pay4 loop0
  simp only [View.readAt_eq_ld, harg12.read_unread, View.ld_unit_zero (S := S128x512) hz2, shapeCast_self]

/-- Where ib = 7 the output block's buffer ends holding the accumulator's new contents. -/
theorem out0_C_9_eq (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : ¬cond0_0 i) (hc1 : cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) (xs0 : Vec F S128x512 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop0 c i arg2 harg2 arg3 harg3 arg4 harg4 arg5 harg5 arg6 harg6 arg7 harg7 arg8 harg8 arg9 harg9 arg10 harg10 arg11 harg11 arg12 harg12 x0 x1 x2 x3 x4 x5 x6 x7 x8 k0_t1_loop.trips) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2, View.readCov_unit_zero (S := S128x512) _ hz2]
  unfold k0_pay4 loop0
  simp only [View.readAt_eq_ld, harg12.read_unread, View.ld_unit_zero (S := S128x512) hz2, shapeCast_self]

/-- Where ib = 0 the accumulator is zeroed first. -/
theorem sout0_A_0_eq (c : Dev nD) (i : grid0.Coords) (arg2 : Memref sig .tc .vmem S16x512 .f32) (harg2 : arg2.IsWhole) (arg3 : Memref sig .tc .vmem S16x128x5 .f32) (harg3 : arg3.IsWhole) (arg4 : Memref sig .tc .vmem S16x128x5 .f32) (harg4 : arg4.IsWhole) (arg5 : Memref sig .tc .vmem S16x5x128x5 .f32) (harg5 : arg5.IsWhole) (arg6 : Memref sig .tc .vmem S16x128x5 .f32) (harg6 : arg6.IsWhole) (arg7 : Memref sig .tc .vmem S16x128x5 .f32) (harg7 : arg7.IsWhole) (arg8 : Memref sig .tc .vmem S16x128x1 .f32) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S128x512 .f32) (harg11 : arg11.IsWhole) (arg12 : Memref sig .tc .vmem S128x512 .f32) (harg12 : arg12.IsWhole) (hc0 : cond0_0 i) (hc1 : ¬cond0_1 i)
    (x0 : Vec F S16x512 .f32) (x1 : Vec F S16x128x5 .f32) (x2 : Vec F S16x128x5 .f32) (x3 : Vec F S16x5x128x5 .f32) (x4 : Vec F S16x128x5 .f32) (x5 : Vec F S16x128x5 .f32) (x6 : Vec F S16x128x1 .f32) (x7 : Vec F S16x128x1 .f32) (x8 : Vec F S16x128x1 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = addf zero0 (loop0 c i arg2 harg2 arg3 harg3 arg4 harg4 arg5 harg5 arg6 harg6 arg7 harg7 arg8 harg8 arg9 harg9 arg10 harg10 arg11 harg11 arg12 harg12 x0 x1 x2 x3 x4 x5 x6 x7 x8 k0_t1_loop.trips) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S128x512) hz2, View.readCov_unit_zero (S := S128x512) _ hz2]
  unfold k0_pay4 loop0
  simp only [View.readAt_eq_ld, View.ld_unit_zero (S := S128x512) hz2, shapeCast_self]

end Cert.KernelIdeal.Hand

end
-- ==== Proof.R0Sum.lean ====
/-
  The first layer's kernel region: what the accumulator holds after each point, as a recursion over the points'
  loop sums — reset to zero plus the point's sum where ib = 0, the previous contents plus the point's sum elsewhere —
  and, where ib = 7, the output block's buffer holding the same.
-/
import proofs.«107607_j19129784336543_2_alg».proof.Proof.R0Val

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The loop's sum at point `t`: over the 16 input features of the point's block, from the zero block. -/
def L0 (c : Dev nD) (t : Fin cfg0.N) : FVec F S128x512 .f32 :=
  loop0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) k0_t1_loop.trips

set_option maxHeartbeats 4000000 in
theorem outsAt0_snd_A (c : Dev nD) (t : Fin cfg0.N) (h0 : t.val % 8 = 0) (h1 : ¬t.val % 8 = 7) :
    (outsAt0 V c t.val t.isLt).2 = addf zero0 (L0 V c t) :=
  (congrArg Prod.snd (outsAt0_A V c t h0 h1)).trans
    (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))

set_option maxHeartbeats 4000000 in
theorem outsAt0_snd_B (c : Dev nD) (t : Fin cfg0.N) (h0 : ¬t.val % 8 = 0) (h1 : ¬t.val % 8 = 7) :
    (outsAt0 V c t.val t.isLt).2 = addf (outsAt0 V c (t.val - 1) (Nat.lt_of_le_of_lt (Nat.sub_le _ _) t.isLt)).2 (L0 V c t) :=
  (congrArg Prod.snd (outsAt0_B V c t h0 h1)).trans
    (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2)

set_option maxHeartbeats 4000000 in
theorem outsAt0_snd_C (c : Dev nD) (t : Fin cfg0.N) (h0 : ¬t.val % 8 = 0) (h1 : t.val % 8 = 7) :
    (outsAt0 V c t.val t.isLt).2 = addf (outsAt0 V c (t.val - 1) (Nat.lt_of_le_of_lt (Nat.sub_le _ _) t.isLt)).2 (L0 V c t) :=
  (congrArg Prod.snd (outsAt0_C V c t h0 h1)).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2)

set_option maxHeartbeats 4000000 in
theorem outsAt0_fst_C (c : Dev nD) (t : Fin cfg0.N) (h0 : ¬t.val % 8 = 0) (h1 : t.val % 8 = 7) :
    (outsAt0 V c t.val t.isLt).1 = addf (outsAt0 V c (t.val - 1) (Nat.lt_of_le_of_lt (Nat.sub_le _ _) t.isLt)).2 (L0 V c t) :=
  (congrArg Prod.fst (outsAt0_C V c t h0 h1)).trans
    (out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2)

/-- The accumulator after position `n`. -/
def acc0 (c : Dev nD) : (n : ℕ) → n < cfg0.N → FVec F S128x512 .f32
  | 0, h => addf zero0 (L0 V c ⟨0, h⟩)
  | n + 1, h => if (n + 1) % 8 = 0 then addf zero0 (L0 V c ⟨n + 1, h⟩) else addf (acc0 c n (Nat.lt_of_succ_lt h)) (L0 V c ⟨n + 1, h⟩)

/-- After every point the accumulator holds `acc0`. -/
theorem outsAt0_snd (c : Dev nD) : ∀ (n : ℕ) (hn : n < cfg0.N), (outsAt0 V c n hn).2 = acc0 V c n hn := by
  intro n
  induction n with
  | zero =>
    intro hn
    exact outsAt0_snd_A V c ⟨0, hn⟩ (Nat.zero_mod _) (by simp)
  | succ n ih =>
    intro hn
    by_cases h0 : (n + 1) % 8 = 0
    · have h1 : ¬(n + 1) % 8 = 7 := by omega
      exact (outsAt0_snd_A V c ⟨n + 1, hn⟩ h0 h1).trans (if_pos h0).symm
    · by_cases h1 : (n + 1) % 8 = 7
      · refine (outsAt0_snd_C V c ⟨n + 1, hn⟩ h0 h1).trans ((congrArg (fun z => addf z (L0 V c ⟨n + 1, hn⟩)) (ih (Nat.lt_of_succ_lt hn))).trans (if_neg h0).symm)
      · refine (outsAt0_snd_B V c ⟨n + 1, hn⟩ h0 h1).trans ((congrArg (fun z => addf z (L0 V c ⟨n + 1, hn⟩)) (ih (Nat.lt_of_succ_lt hn))).trans (if_neg h0).symm)

/-- Where ib = 7 the output block's buffer holds the accumulator's contents. -/
theorem outsAt0_fst (c : Dev nD) (t : Fin cfg0.N) (h1 : t.val % 8 = 7) : (outsAt0 V c t.val t.isLt).1 = acc0 V c t.val t.isLt := by
  have h0 : ¬t.val % 8 = 0 := by omega
  rw [← outsAt0_snd V c t.val t.isLt, outsAt0_fst_C V c t h0 h1, outsAt0_snd_C V c t h0 h1]

end Cert.KernelIdeal.Hand

end
-- ==== Proof.R0Block.lean ====
/-
  The first layer's kernel region: its windows' blocks and the loop's row loads read at an index. Element (k, …) of
  an input window's block at point t = b * 8 + ib is element (ib * 16 + k, …) of the window's array (the input block
  also offsets its batch axis by b * 512); and the trip-k load of a block is its row k.
-/
import proofs.«107607_j19129784336543_2_alg».proof.Proof.R0Shared
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry F)

/-! ## Where the windows' blocks sit -/

theorem idx0_0 : ∀ t : Fin cfg0.N, win0_0.index t (0 : Fin 2) = t.val % 8 ∧ win0_0.index t (1 : Fin 2) = t.val / 8 :=
  (by decide +kernel : ∀ t : Fin grid0.N, _)
theorem idx0_1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val % 8 ∧ win0_2.index t (1 : Fin 3) = 0 ∧ win0_2.index t (2 : Fin 3) = 0 :=
  (by decide +kernel : ∀ t : Fin grid0.N, _)
theorem idx0_3 : ∀ t : Fin cfg0.N, win0_3.index t (0 : Fin 4) = t.val % 8 ∧ win0_3.index t (1 : Fin 4) = 0 ∧ win0_3.index t (2 : Fin 4) = 0 ∧ win0_3.index t (3 : Fin 4) = 0 :=
  (by decide +kernel : ∀ t : Fin grid0.N, _)
theorem idx0_4 : ∀ t : Fin cfg0.N, win0_4.index t (0 : Fin 3) = t.val % 8 ∧ win0_4.index t (1 : Fin 3) = 0 ∧ win0_4.index t (2 : Fin 3) = 0 :=
  (by decide +kernel : ∀ t : Fin grid0.N, _)
theorem idx0_5 : ∀ t : Fin cfg0.N, win0_5.index t (0 : Fin 3) = t.val % 8 ∧ win0_5.index t (1 : Fin 3) = 0 ∧ win0_5.index t (2 : Fin 3) = 0 :=
  (by decide +kernel : ∀ t : Fin grid0.N, _)
theorem idx0_6 : ∀ t : Fin cfg0.N, win0_6.index t (0 : Fin 3) = t.val % 8 ∧ win0_6.index t (1 : Fin 3) = 0 ∧ win0_6.index t (2 : Fin 3) = 0 :=
  (by decide +kernel : ∀ t : Fin grid0.N, _)
theorem idx0_7 : ∀ t : Fin cfg0.N, win0_7.index t (0 : Fin 3) = t.val % 8 ∧ win0_7.index t (1 : Fin 3) = 0 ∧ win0_7.index t (2 : Fin 3) = 0 :=
  (by decide +kernel : ∀ t : Fin grid0.N, _)
theorem idx0_8 : ∀ t : Fin cfg0.N, win0_8.index t (0 : Fin 3) = t.val % 8 ∧ win0_8.index t (1 : Fin 3) = 0 ∧ win0_8.index t (2 : Fin 3) = 0 :=
  (by decide +kernel : ∀ t : Fin grid0.N, _)
theorem idx0_9 : ∀ t : Fin cfg0.N, win0_9.index t (0 : Fin 2) = 0 ∧ win0_9.index t (1 : Fin 2) = t.val / 8 :=
  (by decide +kernel : ∀ t : Fin grid0.N, _)

theorem iblk0_0_apply (c : Dev nD) (t : Fin cfg0.N) (k : Fin 16) (y1 : Fin 512) (hi : t.val % 8 * 16 + k.val < 128) (hq : t.val / 8 * 512 + y1.val < 2048) :
    iblk0 V c 0 t (ix2 k y1) = V c main_v0 (ix2 (⟨t.val % 8 * 16 + k.val, hi⟩ : Fin 128) (⟨t.val / 8 * 512 + y1.val, hq⟩ : Fin 2048)) := by
  show V c main_v0 (((cfg0.win 0).blk t).view.emb (ix2 k y1)) = _
  refine congrArg (V c main_v0) (funext fun a => Fin.ext ?_)
  match a with
  | ⟨0, _⟩ =>
    show win0_0.index t (0 : Fin 2) * 16 + 1 * k.val = t.val % 8 * 16 + k.val
    rw [(idx0_0 t).1]; omega
  | ⟨1, _⟩ =>
    show win0_0.index t (1 : Fin 2) * 512 + 1 * y1.val = t.val / 8 * 512 + y1.val
    rw [(idx0_0 t).2]; omega

theorem iblk0_1_apply (c : Dev nD) (t : Fin cfg0.N) (k : Fin 16) (y1 : Fin 128) (y2 : Fin 5) (hi : t.val % 8 * 16 + k.val < 128) :
    iblk0 V c 1 t (ix3 k y1 y2) = V c main_v1 (ix3 (⟨t.val % 8 * 16 + k.val, hi⟩ : Fin 128) y1 y2) := by
  show V c main_v1 (((cfg0.win 1).blk t).view.emb (ix3 k y1 y2)) = _
  refine congrArg (V c main_v1) (funext fun a => Fin.ext ?_)
  match a with
  | ⟨0, _⟩ =>
    show win0_1.index t (0 : Fin 3) * 16 + 1 * k.val = t.val % 8 * 16 + k.val
    rw [(idx0_1 t).1]; omega
  | ⟨1, _⟩ =>
    show win0_1.index t (1 : Fin 3) * 128 + 1 * y1.val = y1.val
    rw [(idx0_1 t).2.1]; omega
  | ⟨2, _⟩ =>
    show win0_1.index t (2 : Fin 3) * 5 + 1 * y2.val = y2.val
    rw [(idx0_1 t).2.2]; omega

theorem iblk0_2_apply (c : Dev nD) (t : Fin cfg0.N) (k : Fin 16) (y1 : Fin 128) (y2 : Fin 5) (hi : t.val % 8 * 16 + k.val < 128) :
    iblk0 V c 2 t (ix3 k y1 y2) = V c main_v2 (ix3 (⟨t.val % 8 * 16 + k.val, hi⟩ : Fin 128) y1 y2) := by
  show V c main_v2 (((cfg0.win 2).blk t).view.emb (ix3 k y1 y2)) = _
  refine congrArg (V c main_v2) (funext fun a => Fin.ext ?_)
  match a with
  | ⟨0, _⟩ =>
    show win0_2.index t (0 : Fin 3) * 16 + 1 * k.val = t.val % 8 * 16 + k.val
    rw [(idx0_2 t).1]; omega
  | ⟨1, _⟩ =>
    show win0_2.index t (1 : Fin 3) * 128 + 1 * y1.val = y1.val
    rw [(idx0_2 t).2.1]; omega
  | ⟨2, _⟩ =>
    show win0_2.index t (2 : Fin 3) * 5 + 1 * y2.val = y2.val
    rw [(idx0_2 t).2.2]; omega

theorem iblk0_3_apply (c : Dev nD) (t : Fin cfg0.N) (k : Fin 16) (y1 : Fin 5) (y2 : Fin 128) (y3 : Fin 5) (hi : t.val % 8 * 16 + k.val < 128) :
    iblk0 V c 3 t (ix4 k y1 y2 y3) = V c main_v4 (ix4 (⟨t.val % 8 * 16 + k.val, hi⟩ : Fin 128) y1 y2 y3) := by
  show V c main_v4 (((cfg0.win 3).blk t).view.emb (ix4 k y1 y2 y3)) = _
  refine congrArg (V c main_v4) (funext fun a => Fin.ext ?_)
  match a with
  | ⟨0, _⟩ =>
    show win0_3.index t (0 : Fin 4) * 16 + 1 * k.val = t.val % 8 * 16 + k.val
    rw [(idx0_3 t).1]; omega
  | ⟨1, _⟩ =>
    show win0_3.index t (1 : Fin 4) * 5 + 1 * y1.val = y1.val
    rw [(idx0_3 t).2.1]; omega
  | ⟨2, _⟩ =>
    show win0_3.index t (2 : Fin 4) * 128 + 1 * y2.val = y2.val
    rw [(idx0_3 t).2.2.1]; omega
  | ⟨3, _⟩ =>
    show win0_3.index t (3 : Fin 4) * 5 + 1 * y3.val = y3.val
    rw [(idx0_3 t).2.2.2]; omega

theorem iblk0_4_apply (c : Dev nD) (t : Fin cfg0.N) (k : Fin 16) (y1 : Fin 128) (y2 : Fin 5) (hi : t.val % 8 * 16 + k.val < 128) :
    iblk0 V c 4 t (ix3 k y1 y2) = V c main_v5 (ix3 (⟨t.val % 8 * 16 + k.val, hi⟩ : Fin 128) y1 y2) := by
  show V c main_v5 (((cfg0.win 4).blk t).view.emb (ix3 k y1 y2)) = _
  refine congrArg (V c main_v5) (funext fun a => Fin.ext ?_)
  match a with
  | ⟨0, _⟩ =>
    show win0_4.index t (0 : Fin 3) * 16 + 1 * k.val = t.val % 8 * 16 + k.val
    rw [(idx0_4 t).1]; omega
  | ⟨1, _⟩ =>
    show win0_4.index t (1 : Fin 3) * 128 + 1 * y1.val = y1.val
    rw [(idx0_4 t).2.1]; omega
  | ⟨2, _⟩ =>
    show win0_4.index t (2 : Fin 3) * 5 + 1 * y2.val = y2.val
    rw [(idx0_4 t).2.2]; omega

theorem iblk0_5_apply (c : Dev nD) (t : Fin cfg0.N) (k : Fin 16) (y1 : Fin 128) (y2 : Fin 5) (hi : t.val % 8 * 16 + k.val < 128) :
    iblk0 V c 5 t (ix3 k y1 y2) = V c main_v6 (ix3 (⟨t.val % 8 * 16 + k.val, hi⟩ : Fin 128) y1 y2) := by
  show V c main_v6 (((cfg0.win 5).blk t).view.emb (ix3 k y1 y2)) = _
  refine congrArg (V c main_v6) (funext fun a => Fin.ext ?_)
  match a with
  | ⟨0, _⟩ =>
    show win0_5.index t (0 : Fin 3) * 16 + 1 * k.val = t.val % 8 * 16 + k.val
    rw [(idx0_5 t).1]; omega
  | ⟨1, _⟩ =>
    show win0_5.index t (1 : Fin 3) * 128 + 1 * y1.val = y1.val
    rw [(idx0_5 t).2.1]; omega
  | ⟨2, _⟩ =>
    show win0_5.index t (2 : Fin 3) * 5 + 1 * y2.val = y2.val
    rw [(idx0_5 t).2.2]; omega

theorem iblk0_6_apply (c : Dev nD) (t : Fin cfg0.N) (k : Fin 16) (y1 : Fin 128) (y2 : Fin 1) (hi : t.val % 8 * 16 + k.val < 128) :
    iblk0 V c 6 t (ix3 k y1 y2) = V c main_v7 (ix3 (⟨t.val % 8 * 16 + k.val, hi⟩ : Fin 128) y1 y2) := by
  show V c main_v7 (((cfg0.win 6).blk t).view.emb (ix3 k y1 y2)) = _
  refine congrArg (V c main_v7) (funext fun a => Fin.ext ?_)
  match a with
  | ⟨0, _⟩ =>
    show win0_6.index t (0 : Fin 3) * 16 + 1 * k.val = t.val % 8 * 16 + k.val
    rw [(idx0_6 t).1]; omega
  | ⟨1, _⟩ =>
    show win0_6.index t (1 : Fin 3) * 128 + 1 * y1.val = y1.val
    rw [(idx0_6 t).2.1]; omega
  | ⟨2, _⟩ =>
    show win0_6.index t (2 : Fin 3) * 1 + 1 * y2.val = y2.val
    rw [(idx0_6 t).2.2]; omega

theorem iblk0_7_apply (c : Dev nD) (t : Fin cfg0.N) (k : Fin 16) (y1 : Fin 128) (y2 : Fin 1) (hi : t.val % 8 * 16 + k.val < 128) :
    iblk0 V c 7 t (ix3 k y1 y2) = V c main_v8 (ix3 (⟨t.val % 8 * 16 + k.val, hi⟩ : Fin 128) y1 y2) := by
  show V c main_v8 (((cfg0.win 7).blk t).view.emb (ix3 k y1 y2)) = _
  refine congrArg (V c main_v8) (funext fun a => Fin.ext ?_)
  match a with
  | ⟨0, _⟩ =>
    show win0_7.index t (0 : Fin 3) * 16 + 1 * k.val = t.val % 8 * 16 + k.val
    rw [(idx0_7 t).1]; omega
  | ⟨1, _⟩ =>
    show win0_7.index t (1 : Fin 3) * 128 + 1 * y1.val = y1.val
    rw [(idx0_7 t).2.1]; omega
  | ⟨2, _⟩ =>
    show win0_7.index t (2 : Fin 3) * 1 + 1 * y2.val = y2.val
    rw [(idx0_7 t).2.2]; omega

theorem iblk0_8_apply (c : Dev nD) (t : Fin cfg0.N) (k : Fin 16) (y1 : Fin 128) (y2 : Fin 1) (hi : t.val % 8 * 16 + k.val < 128) :
    iblk0 V c 8 t (ix3 k y1 y2) = V c main_v9 (ix3 (⟨t.val % 8 * 16 + k.val, hi⟩ : Fin 128) y1 y2) := by
  show V c main_v9 (((cfg0.win 8).blk t).view.emb (ix3 k y1 y2)) = _
  refine congrArg (V c main_v9) (funext fun a => Fin.ext ?_)
  match a with
  | ⟨0, _⟩ =>
    show win0_8.index t (0 : Fin 3) * 16 + 1 * k.val = t.val % 8 * 16 + k.val
    rw [(idx0_8 t).1]; omega
  | ⟨1, _⟩ =>
    show win0_8.index t (1 : Fin 3) * 128 + 1 * y1.val = y1.val
    rw [(idx0_8 t).2.1]; omega
  | ⟨2, _⟩ =>
    show win0_8.index t (2 : Fin 3) * 1 + 1 * y2.val = y2.val
    rw [(idx0_8 t).2.2]; omega

/-! ## The trips' row loads -/

theorem row0_0_apply (arg2 : Memref sig .tc .vmem S16x512 .f32) (harg2 : arg2.IsWhole) (x : Vec F S16x512 .f32)
    (k : Fin k0_t1_loop.trips) (hk : k.val < 16) (y1 : Fin 512) :
    View.readAt (Elt F) arg2.view (Rect.unit (s := S16x512) (k0_off1 k) S1x512.size (k0_off1_inb k)).toLoadRect (harg2.unread x) (ix2 (0 : Fin 1) y1)
      = x (ix2 (⟨k.val, hk⟩ : Fin 16) y1) := by
  rw [View.readAt_eq_ld, harg2.read_unread]
  show x ((Rect.unit (s := S16x512) (k0_off1 k) S1x512.size (k0_off1_inb k)).emb (ix2 (0 : Fin 1) y1)) = _
  refine congrArg x (funext fun a => Fin.ext ?_)
  rw [Rect.emb_apply]
  match a with
  | ⟨0, _⟩ => show k0_off1 k (0 : Fin 2) + 1 * 0 = k.val; rw [k0_off1_eq k]; rfl
  | ⟨1, _⟩ => show k0_off1 k (1 : Fin 2) + 1 * y1.val = y1.val; rw [k0_off1_eq k]; show 0 + 1 * y1.val = y1.val; omega

theorem row0_1_apply (arg3 : Memref sig .tc .vmem S16x128x5 .f32) (harg3 : arg3.IsWhole) (x : Vec F S16x128x5 .f32)
    (k : Fin k0_t1_loop.trips) (hk : k.val < 16) (y1 : Fin 128) (y2 : Fin 5) :
    View.readAt (Elt F) arg3.view (Rect.unit (s := S16x128x5) (k0_off2 k) S1x128x5.size (k0_off2_inb k)).toLoadRect (harg3.unread x) (ix3 (0 : Fin 1) y1 y2)
      = x (ix3 (⟨k.val, hk⟩ : Fin 16) y1 y2) := by
  rw [View.readAt_eq_ld, harg3.read_unread]
  show x ((Rect.unit (s := S16x128x5) (k0_off2 k) S1x128x5.size (k0_off2_inb k)).emb (ix3 (0 : Fin 1) y1 y2)) = _
  refine congrArg x (funext fun a => Fin.ext ?_)
  rw [Rect.emb_apply]
  match a with
  | ⟨0, _⟩ => show k0_off2 k (0 : Fin 3) + 1 * 0 = k.val; rw [k0_off2_eq k]; rfl
  | ⟨1, _⟩ => show k0_off2 k (1 : Fin 3) + 1 * y1.val = y1.val; rw [k0_off2_eq k]; show 0 + 1 * y1.val = y1.val; omega
  | ⟨2, _⟩ => show k0_off2 k (2 : Fin 3) + 1 * y2.val = y2.val; rw [k0_off2_eq k]; show 0 + 1 * y2.val = y2.val; omega

theorem row0_2_apply (arg4 : Memref sig .tc .vmem S16x128x5 .f32) (harg4 : arg4.IsWhole) (x : Vec F S16x128x5 .f32)
    (k : Fin k0_t1_loop.trips) (hk : k.val < 16) (y1 : Fin 128) (y2 : Fin 5) :
    View.readAt (Elt F) arg4.view (Rect.unit (s := S16x128x5) (k0_off2 k) S1x128x5.size (k0_off2_inb k)).toLoadRect (harg4.unread x) (ix3 (0 : Fin 1) y1 y2)
      = x (ix3 (⟨k.val, hk⟩ : Fin 16) y1 y2) := by
  rw [View.readAt_eq_ld, harg4.read_unread]
  show x ((Rect.unit (s := S16x128x5) (k0_off2 k) S1x128x5.size (k0_off2_inb k)).emb (ix3 (0 : Fin 1) y1 y2)) = _
  refine congrArg x (funext fun a => Fin.ext ?_)
  rw [Rect.emb_apply]
  match a with
  | ⟨0, _⟩ => show k0_off2 k (0 : Fin 3) + 1 * 0 = k.val; rw [k0_off2_eq k]; rfl
  | ⟨1, _⟩ => show k0_off2 k (1 : Fin 3) + 1 * y1.val = y1.val; rw [k0_off2_eq k]; show 0 + 1 * y1.val = y1.val; omega
  | ⟨2, _⟩ => show k0_off2 k (2 : Fin 3) + 1 * y2.val = y2.val; rw [k0_off2_eq k]; show 0 + 1 * y2.val = y2.val; omega

theorem row0_3_apply (arg5 : Memref sig .tc .vmem S16x5x128x5 .f32) (harg5 : arg5.IsWhole) (x : Vec F S16x5x128x5 .f32)
    (k : Fin k0_t1_loop.trips) (hk : k.val < 16) (y1 : Fin 5) (y2 : Fin 128) (y3 : Fin 5) :
    View.readAt (Elt F) arg5.view (Rect.unit (s := S16x5x128x5) (k0_off3 k) S1x5x128x5.size (k0_off3_inb k)).toLoadRect (harg5.unread x) (ix4 (0 : Fin 1) y1 y2 y3)
      = x (ix4 (⟨k.val, hk⟩ : Fin 16) y1 y2 y3) := by
  rw [View.readAt_eq_ld, harg5.read_unread]
  show x ((Rect.unit (s := S16x5x128x5) (k0_off3 k) S1x5x128x5.size (k0_off3_inb k)).emb (ix4 (0 : Fin 1) y1 y2 y3)) = _
  refine congrArg x (funext fun a => Fin.ext ?_)
  rw [Rect.emb_apply]
  match a with
  | ⟨0, _⟩ => show k0_off3 k (0 : Fin 4) + 1 * 0 = k.val; rw [k0_off3_eq k]; rfl
  | ⟨1, _⟩ => show k0_off3 k (1 : Fin 4) + 1 * y1.val = y1.val; rw [k0_off3_eq k]; show 0 + 1 * y1.val = y1.val; omega
  | ⟨2, _⟩ => show k0_off3 k (2 : Fin 4) + 1 * y2.val = y2.val; rw [k0_off3_eq k]; show 0 + 1 * y2.val = y2.val; omega
  | ⟨3, _⟩ => show k0_off3 k (3 : Fin 4) + 1 * y3.val = y3.val; rw [k0_off3_eq k]; show 0 + 1 * y3.val = y3.val; omega

theorem row0_4_apply (arg6 : Memref sig .tc .vmem S16x128x5 .f32) (harg6 : arg6.IsWhole) (x : Vec F S16x128x5 .f32)
    (k : Fin k0_t1_loop.trips) (hk : k.val < 16) (y1 : Fin 128) (y2 : Fin 5) :
    View.readAt (Elt F) arg6.view (Rect.unit (s := S16x128x5) (k0_off2 k) S1x128x5.size (k0_off2_inb k)).toLoadRect (harg6.unread x) (ix3 (0 : Fin 1) y1 y2)
      = x (ix3 (⟨k.val, hk⟩ : Fin 16) y1 y2) := by
  rw [View.readAt_eq_ld, harg6.read_unread]
  show x ((Rect.unit (s := S16x128x5) (k0_off2 k) S1x128x5.size (k0_off2_inb k)).emb (ix3 (0 : Fin 1) y1 y2)) = _
  refine congrArg x (funext fun a => Fin.ext ?_)
  rw [Rect.emb_apply]
  match a with
  | ⟨0, _⟩ => show k0_off2 k (0 : Fin 3) + 1 * 0 = k.val; rw [k0_off2_eq k]; rfl
  | ⟨1, _⟩ => show k0_off2 k (1 : Fin 3) + 1 * y1.val = y1.val; rw [k0_off2_eq k]; show 0 + 1 * y1.val = y1.val; omega
  | ⟨2, _⟩ => show k0_off2 k (2 : Fin 3) + 1 * y2.val = y2.val; rw [k0_off2_eq k]; show 0 + 1 * y2.val = y2.val; omega

theorem row0_5_apply (arg7 : Memref sig .tc .vmem S16x128x5 .f32) (harg7 : arg7.IsWhole) (x : Vec F S16x128x5 .f32)
    (k : Fin k0_t1_loop.trips) (hk : k.val < 16) (y1 : Fin 128) (y2 : Fin 5) :
    View.readAt (Elt F) arg7.view (Rect.unit (s := S16x128x5) (k0_off2 k) S1x128x5.size (k0_off2_inb k)).toLoadRect (harg7.unread x) (ix3 (0 : Fin 1) y1 y2)
      = x (ix3 (⟨k.val, hk⟩ : Fin 16) y1 y2) := by
  rw [View.readAt_eq_ld, harg7.read_unread]
  show x ((Rect.unit (s := S16x128x5) (k0_off2 k) S1x128x5.size (k0_off2_inb k)).emb (ix3 (0 : Fin 1) y1 y2)) = _
  refine congrArg x (funext fun a => Fin.ext ?_)
  rw [Rect.emb_apply]
  match a with
  | ⟨0, _⟩ => show k0_off2 k (0 : Fin 3) + 1 * 0 = k.val; rw [k0_off2_eq k]; rfl
  | ⟨1, _⟩ => show k0_off2 k (1 : Fin 3) + 1 * y1.val = y1.val; rw [k0_off2_eq k]; show 0 + 1 * y1.val = y1.val; omega
  | ⟨2, _⟩ => show k0_off2 k (2 : Fin 3) + 1 * y2.val = y2.val; rw [k0_off2_eq k]; show 0 + 1 * y2.val = y2.val; omega

theorem row0_6_apply (arg8 : Memref sig .tc .vmem S16x128x1 .f32) (harg8 : arg8.IsWhole) (x : Vec F S16x128x1 .f32)
    (k : Fin k0_t1_loop.trips) (hk : k.val < 16) (y1 : Fin 128) (y2 : Fin 1) :
    View.readAt (Elt F) arg8.view (Rect.unit (s := S16x128x1) (k0_off4 k) S1x128x1.size (k0_off4_inb k)).toLoadRect (harg8.unread x) (ix3 (0 : Fin 1) y1 y2)
      = x (ix3 (⟨k.val, hk⟩ : Fin 16) y1 y2) := by
  rw [View.readAt_eq_ld, harg8.read_unread]
  show x ((Rect.unit (s := S16x128x1) (k0_off4 k) S1x128x1.size (k0_off4_inb k)).emb (ix3 (0 : Fin 1) y1 y2)) = _
  refine congrArg x (funext fun a => Fin.ext ?_)
  rw [Rect.emb_apply]
  match a with
  | ⟨0, _⟩ => show k0_off4 k (0 : Fin 3) + 1 * 0 = k.val; rw [k0_off4_eq k]; rfl
  | ⟨1, _⟩ => show k0_off4 k (1 : Fin 3) + 1 * y1.val = y1.val; rw [k0_off4_eq k]; show 0 + 1 * y1.val = y1.val; omega
  | ⟨2, _⟩ => show k0_off4 k (2 : Fin 3) + 1 * y2.val = y2.val; rw [k0_off4_eq k]; show 0 + 1 * y2.val = y2.val; omega

theorem row0_7_apply (arg9 : Memref sig .tc .vmem S16x128x1 .f32) (harg9 : arg9.IsWhole) (x : Vec F S16x128x1 .f32)
    (k : Fin k0_t1_loop.trips) (hk : k.val < 16) (y1 : Fin 128) (y2 : Fin 1) :
    View.readAt (Elt F) arg9.view (Rect.unit (s := S16x128x1) (k0_off4 k) S1x128x1.size (k0_off4_inb k)).toLoadRect (harg9.unread x) (ix3 (0 : Fin 1) y1 y2)
      = x (ix3 (⟨k.val, hk⟩ : Fin 16) y1 y2) := by
  rw [View.readAt_eq_ld, harg9.read_unread]
  show x ((Rect.unit (s := S16x128x1) (k0_off4 k) S1x128x1.size (k0_off4_inb k)).emb (ix3 (0 : Fin 1) y1 y2)) = _
  refine congrArg x (funext fun a => Fin.ext ?_)
  rw [Rect.emb_apply]
  match a with
  | ⟨0, _⟩ => show k0_off4 k (0 : Fin 3) + 1 * 0 = k.val; rw [k0_off4_eq k]; rfl
  | ⟨1, _⟩ => show k0_off4 k (1 : Fin 3) + 1 * y1.val = y1.val; rw [k0_off4_eq k]; show 0 + 1 * y1.val = y1.val; omega
  | ⟨2, _⟩ => show k0_off4 k (2 : Fin 3) + 1 * y2.val = y2.val; rw [k0_off4_eq k]; show 0 + 1 * y2.val = y2.val; omega

theorem row0_8_apply (arg10 : Memref sig .tc .vmem S16x128x1 .f32) (harg10 : arg10.IsWhole) (x : Vec F S16x128x1 .f32)
    (k : Fin k0_t1_loop.trips) (hk : k.val < 16) (y1 : Fin 128) (y2 : Fin 1) :
    View.readAt (Elt F) arg10.view (Rect.unit (s := S16x128x1) (k0_off4 k) S1x128x1.size (k0_off4_inb k)).toLoadRect (harg10.unread x) (ix3 (0 : Fin 1) y1 y2)
      = x (ix3 (⟨k.val, hk⟩ : Fin 16) y1 y2) := by
  rw [View.readAt_eq_ld, harg10.read_unread]
  show x ((Rect.unit (s := S16x128x1) (k0_off4 k) S1x128x1.size (k0_off4_inb k)).emb (ix3 (0 : Fin 1) y1 y2)) = _
  refine congrArg x (funext fun a => Fin.ext ?_)
  rw [Rect.emb_apply]
  match a with
  | ⟨0, _⟩ => show k0_off4 k (0 : Fin 3) + 1 * 0 = k.val; rw [k0_off4_eq k]; rfl
  | ⟨1, _⟩ => show k0_off4 k (1 : Fin 3) + 1 * y1.val = y1.val; rw [k0_off4_eq k]; show 0 + 1 * y1.val = y1.val; omega
  | ⟨2, _⟩ => show k0_off4 k (2 : Fin 3) + 1 * y2.val = y2.val; rw [k0_off4_eq k]; show 0 + 1 * y2.val = y2.val; omega

end Cert.KernelIdeal.Hand

end
-- ==== Proof.Nets.lean ====
/-
  The sub-networks of the two layers over the arrays a region is entered with: for the first layer the network of
  the pair (input feature i, output feature j) applied to the transposed input at (i, q); for the second layer the
  network of input j (its one output feature) applied to the first layer's result at (j, q).
-/
import proofs.«107607_j19129784336543_2_alg».proof.Proof.Iface
import proofs.«107607_j19129784336543_2_alg».proof.Proof.Spec
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

variable (V : Entry Ideal)

/-- First layer: windows 1 … 8 of region 0 are the arrays main_v1, v2, v4, v5, v6, v7, v8, v9; window 0 is main_v0. -/
def net0 (c : Dev nD) (i j : Fin 128) (q : Fin 2048) : EReal :=
  Cert.Spec.net (fun k => V c main_v1 (ix3 i j k)) (fun k => V c main_v2 (ix3 i j k)) (fun m k => V c main_v4 (ix4 i k j m))
    (fun m => V c main_v5 (ix3 i j m)) (fun m => V c main_v6 (ix3 i j m)) (V c main_v7 (ix3 i j (0 : Fin 1)))
    (V c main_v8 (ix3 i j (0 : Fin 1))) (V c main_v9 (ix3 i j (0 : Fin 1))) (V c main_v0 (ix2 i q))

/-- Second layer: windows 1 … 8 of region 1 are main_v11, v12, v14, v15 and the arguments 11, 14, 15, 16; window 0 is main_v10. -/
def net1 (c : Dev nD) (j : Fin 128) (q : Fin 2048) : EReal :=
  Cert.Spec.net (fun k => V c main_v11 (ix3 j (0 : Fin 1) k)) (fun k => V c main_v12 (ix3 j (0 : Fin 1) k))
    (fun m k => V c main_v14 (ix4 j k (0 : Fin 1) m)) (fun m => V c main_v15 (ix3 j (0 : Fin 1) m))
    (fun m => V c main_arg11 (ix3 j (0 : Fin 1) m)) (V c main_arg14 (ix3 j (0 : Fin 1) (0 : Fin 1)))
    (V c main_arg15 (ix3 j (0 : Fin 1) (0 : Fin 1))) (V c main_arg16 (ix3 j (0 : Fin 1) (0 : Fin 1))) (V c main_v10 (ix2 j q))

end Cert.KernelIdeal.Hand

end
-- ==== Proof.TripMath0Cols.lean ====
/-
  Reading one column of a small parameter matrix after it has been cut out, flattened, given back a unit axis and
  spread along the batch lanes.

  The kernel takes a parameter of a sub-network — entry (j, c) of a [J, 5] matrix, or entry (m, j, c) of a [5, J, 5] array —
  by slicing out the column, reshaping [J, 1] → [J] → [J, 1] and broadcasting to [J, B]: at (j, b) the result is the
  entry (j, c), whatever b. The lemmas below read each of these layout steps at an index given by its coordinates; the
  extents J and B are arbitrary, so both layers' kernels (J = 128 and J = 1) use them.
-/
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx

variable {α : Type}

/-! ## Broadcasts and casts of a column -/

/-- A [J, 1] column spread to [J, B] reads, at (j, b), the column at j. -/
theorem bcol_apply {J B : ℕ} (v : (⟨2, ![J, 1]⟩ : Shape).Idx → α) (h : (⟨2, ![J, 1]⟩ : Shape).Broadcasts ⟨2, ![J, B]⟩)
    (j : Fin J) (b : Fin B) : broadcastTo ⟨2, ![J, B]⟩ v h (ix2 j b) = v (ix2 j (0 : Fin 1)) := by
  refine broadcastTo_apply v h (ix2 j b) (ix2 j (0 : Fin 1)) fun ax => ?_
  match ax with
  | ⟨0, _⟩ =>
    show j.val = if J = 1 then 0 else j.val
    split
    · have := j.isLt; omega
    · rfl
  | ⟨1, _⟩ => rfl

/-- A [J] vector cast to [J, 1] reads, at (j, z), the vector at j. -/
theorem cast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz := z.isLt
    rw [Shape.rowMajor_val_one, Shape.rowMajor_val_two]
    show i.val = i.val * 1 + z.val
    omega)

/-- A [J, 1] column cast to [J] reads, at j, the column at (j, 0). -/
theorem cast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A [1, J, 1] array cast to [J] reads, at j, the array at (0, j, 0). -/
theorem cast_1a1_a_apply {a : ℕ} (x : (⟨3, ![1, a, 1]⟩ : Shape).Idx → α) (h : (⟨3, ![1, a, 1]⟩ : Shape).ShapeCasts ⟨1, ![a]⟩)
    (i : Fin a) : shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-! ## One column cut out of a [J, 5] matrix or of a [5, J, 5] array -/

theorem sl2_apply {J : ℕ} (c : ℕ) (w : (⟨2, ![J, 5]⟩ : Shape).Idx → α) (hs : (⟨2, ![J, 5]⟩ : Shape).Slices ![0, c] ⟨2, ![J, 1]⟩)
    (j : Fin J) (z : Fin 1) (k : Fin 5) (hk : k.val = c) :
    extractStridedSlice ⟨2, ![J, 1]⟩ ![0, c] w hs (ix2 j z) = w (ix2 j k) :=
  slice2_axis1_apply c w hs j z k (by have := z.isLt; omega)

theorem sl3_apply {J : ℕ} (m c : ℕ) (W : (⟨3, ![5, J, 5]⟩ : Shape).Idx → α) (hs : (⟨3, ![5, J, 5]⟩ : Shape).Slices ![m, 0, c] ⟨3, ![1, J, 1]⟩)
    (u : Fin 1) (j : Fin J) (z : Fin 1) (m' c' : Fin 5) (hm : m'.val = m) (hc : c'.val = c) :
    extractStridedSlice ⟨3, ![1, J, 1]⟩ ![m, 0, c] W hs (ix3 u j z) = W (ix3 m' j c') :=
  extractStridedSlice_apply _ _ _ _ _ (fun ax => by
    have hu := u.isLt; have hz := z.isLt
    match ax with
    | ⟨0, _⟩ => show m'.val = m + u.val; omega
    | ⟨1, _⟩ => show j.val = 0 + j.val; omega
    | ⟨2, _⟩ => show c'.val = c + z.val; omega)

theorem sl2_0 {J : ℕ} (w : (⟨2, ![J, 5]⟩ : Shape).Idx → α) (hs : (⟨2, ![J, 5]⟩ : Shape).Slices ![0, 0] ⟨2, ![J, 1]⟩)
    (j : Fin J) (z : Fin 1) : extractStridedSlice ⟨2, ![J, 1]⟩ ![0, 0] w hs (ix2 j z) = w (ix2 j (0 : Fin 5)) :=
  sl2_apply 0 w hs j z 0 rfl
theorem sl2_1 {J : ℕ} (w : (⟨2, ![J, 5]⟩ : Shape).Idx → α) (hs : (⟨2, ![J, 5]⟩ : Shape).Slices ![0, 1] ⟨2, ![J, 1]⟩)
    (j : Fin J) (z : Fin 1) : extractStridedSlice ⟨2, ![J, 1]⟩ ![0, 1] w hs (ix2 j z) = w (ix2 j (1 : Fin 5)) :=
  sl2_apply 1 w hs j z 1 rfl
theorem sl2_2 {J : ℕ} (w : (⟨2, ![J, 5]⟩ : Shape).Idx → α) (hs : (⟨2, ![J, 5]⟩ : Shape).Slices ![0, 2] ⟨2, ![J, 1]⟩)
    (j : Fin J) (z : Fin 1) : extractStridedSlice ⟨2, ![J, 1]⟩ ![0, 2] w hs (ix2 j z) = w (ix2 j (2 : Fin 5)) :=
  sl2_apply 2 w hs j z 2 rfl
theorem sl2_3 {J : ℕ} (w : (⟨2, ![J, 5]⟩ : Shape).Idx → α) (hs : (⟨2, ![J, 5]⟩ : Shape).Slices ![0, 3] ⟨2, ![J, 1]⟩)
    (j : Fin J) (z : Fin 1) : extractStridedSlice ⟨2, ![J, 1]⟩ ![0, 3] w hs (ix2 j z) = w (ix2 j (3 : Fin 5)) :=
  sl2_apply 3 w hs j z 3 rfl
theorem sl2_4 {J : ℕ} (w : (⟨2, ![J, 5]⟩ : Shape).Idx → α) (hs : (⟨2, ![J, 5]⟩ : Shape).Slices ![0, 4] ⟨2, ![J, 1]⟩)
    (j : Fin J) (z : Fin 1) : extractStridedSlice ⟨2, ![J, 1]⟩ ![0, 4] w hs (ix2 j z) = w (ix2 j (4 : Fin 5)) :=
  sl2_apply 4 w hs j z 4 rfl

theorem sl3_0_0 {J : ℕ} (W : (⟨3, ![5, J, 5]⟩ : Shape).Idx → α) (hs : (⟨3, ![5, J, 5]⟩ : Shape).Slices ![0, 0, 0] ⟨3, ![1, J, 1]⟩)
    (u : Fin 1) (j : Fin J) (z : Fin 1) : extractStridedSlice ⟨3, ![1, J, 1]⟩ ![0, 0, 0] W hs (ix3 u j z) = W (ix3 (0 : Fin 5) j (0 : Fin 5)) :=
  sl3_apply 0 0 W hs u j z 0 0 rfl rfl
theorem sl3_0_1 {J : ℕ} (W : (⟨3, ![5, J, 5]⟩ : Shape).Idx → α) (hs : (⟨3, ![5, J, 5]⟩ : Shape).Slices ![0, 0, 1] ⟨3, ![1, J, 1]⟩)
    (u : Fin 1) (j : Fin J) (z : Fin 1) : extractStridedSlice ⟨3, ![1, J, 1]⟩ ![0, 0, 1] W hs (ix3 u j z) = W (ix3 (0 : Fin 5) j (1 : Fin 5)) :=
  sl3_apply 0 1 W hs u j z 0 1 rfl rfl
theorem sl3_0_2 {J : ℕ} (W : (⟨3, ![5, J, 5]⟩ : Shape).Idx → α) (hs : (⟨3, ![5, J, 5]⟩ : Shape).Slices ![0, 0, 2] ⟨3, ![1, J, 1]⟩)
    (u : Fin 1) (j : Fin J) (z : Fin 1) : extractStridedSlice ⟨3, ![1, J, 1]⟩ ![0, 0, 2] W hs (ix3 u j z) = W (ix3 (0 : Fin 5) j (2 : Fin 5)) :=
  sl3_apply 0 2 W hs u j z 0 2 rfl rfl
theorem sl3_0_3 {J : ℕ} (W : (⟨3, ![5, J, 5]⟩ : Shape).Idx → α) (hs : (⟨3, ![5, J, 5]⟩ : Shape).Slices ![0, 0, 3] ⟨3, ![1, J, 1]⟩)
    (u : Fin 1) (j : Fin J) (z : Fin 1) : extractStridedSlice ⟨3, ![1, J, 1]⟩ ![0, 0, 3] W hs (ix3 u j z) = W (ix3 (0 : Fin 5) j (3 : Fin 5)) :=
  sl3_apply 0 3 W hs u j z 0 3 rfl rfl
theorem sl3_0_4 {J : ℕ} (W : (⟨3, ![5, J, 5]⟩ : Shape).Idx → α) (hs : (⟨3, ![5, J, 5]⟩ : Shape).Slices ![0, 0, 4] ⟨3, ![1, J, 1]⟩)
    (u : Fin 1) (j : Fin J) (z : Fin 1) : extractStridedSlice ⟨3, ![1, J, 1]⟩ ![0, 0, 4] W hs (ix3 u j z) = W (ix3 (0 : Fin 5) j (4 : Fin 5)) :=
  sl3_apply 0 4 W hs u j z 0 4 rfl rfl
theorem sl3_1_0 {J : ℕ} (W : (⟨3, ![5, J, 5]⟩ : Shape).Idx → α) (hs : (⟨3, ![5, J, 5]⟩ : Shape).Slices ![1, 0, 0] ⟨3, ![1, J, 1]⟩)
    (u : Fin 1) (j : Fin J) (z : Fin 1) : extractStridedSlice ⟨3, ![1, J, 1]⟩ ![1, 0, 0] W hs (ix3 u j z) = W (ix3 (1 : Fin 5) j (0 : Fin 5)) :=
  sl3_apply 1 0 W hs u j z 1 0 rfl rfl
theorem sl3_1_1 {J : ℕ} (W : (⟨3, ![5, J, 5]⟩ : Shape).Idx → α) (hs : (⟨3, ![5, J, 5]⟩ : Shape).Slices ![1, 0, 1] ⟨3, ![1, J, 1]⟩)
    (u : Fin 1) (j : Fin J) (z : Fin 1) : extractStridedSlice ⟨3, ![1, J, 1]⟩ ![1, 0, 1] W hs (ix3 u j z) = W (ix3 (1 : Fin 5) j (1 : Fin 5)) :=
  sl3_apply 1 1 W hs u j z 1 1 rfl rfl
theorem sl3_1_2 {J : ℕ} (W : (⟨3, ![5, J, 5]⟩ : Shape).Idx → α) (hs : (⟨3, ![5, J, 5]⟩ : Shape).Slices ![1, 0, 2] ⟨3, ![1, J, 1]⟩)
    (u : Fin 1) (j : Fin J) (z : Fin 1) : extractStridedSlice ⟨3, ![1, J, 1]⟩ ![1, 0, 2] W hs (ix3 u j z) = W (ix3 (1 : Fin 5) j (2 : Fin 5)) :=
  sl3_apply 1 2 W hs u j z 1 2 rfl rfl
theorem sl3_1_3 {J : ℕ} (W : (⟨3, ![5, J, 5]⟩ : Shape).Idx → α) (hs : (⟨3, ![5, J, 5]⟩ : Shape).Slices ![1, 0, 3] ⟨3, ![1, J, 1]⟩)
    (u : Fin 1) (j : Fin J) (z : Fin 1) : extractStridedSlice ⟨3, ![1, J, 1]⟩ ![1, 0, 3] W hs (ix3 u j z) = W (ix3 (1 : Fin 5) j (3 : Fin 5)) :=
  sl3_apply 1 3 W hs u j z 1 3 rfl rfl
theorem sl3_1_4 {J : ℕ} (W : (⟨3, ![5, J, 5]⟩ : Shape).Idx → α) (hs : (⟨3, ![5, J, 5]⟩ : Shape).Slices ![1, 0, 4] ⟨3, ![1, J, 1]⟩)
    (u : Fin 1) (j : Fin J) (z : Fin 1) : extractStridedSlice ⟨3, ![1, J, 1]⟩ ![1, 0, 4] W hs (ix3 u j z) = W (ix3 (1 : Fin 5) j (4 : Fin 5)) :=
  sl3_apply 1 4 W hs u j z 1 4 rfl rfl
theorem sl3_2_0 {J : ℕ} (W : (⟨3, ![5, J, 5]⟩ : Shape).Idx → α) (hs : (⟨3, ![5, J, 5]⟩ : Shape).Slices ![2, 0, 0] ⟨3, ![1, J, 1]⟩)
    (u : Fin 1) (j : Fin J) (z : Fin 1) : extractStridedSlice ⟨3, ![1, J, 1]⟩ ![2, 0, 0] W hs (ix3 u j z) = W (ix3 (2 : Fin 5) j (0 : Fin 5)) :=
  sl3_apply 2 0 W hs u j z 2 0 rfl rfl
theorem sl3_2_1 {J : ℕ} (W : (⟨3, ![5, J, 5]⟩ : Shape).Idx → α) (hs : (⟨3, ![5, J, 5]⟩ : Shape).Slices ![2, 0, 1] ⟨3, ![1, J, 1]⟩)
    (u : Fin 1) (j : Fin J) (z : Fin 1) : extractStridedSlice ⟨3, ![1, J, 1]⟩ ![2, 0, 1] W hs (ix3 u j z) = W (ix3 (2 : Fin 5) j (1 : Fin 5)) :=
  sl3_apply 2 1 W hs u j z 2 1 rfl rfl
theorem sl3_2_2 {J : ℕ} (W : (⟨3, ![5, J, 5]⟩ : Shape).Idx → α) (hs : (⟨3, ![5, J, 5]⟩ : Shape).Slices ![2, 0, 2] ⟨3, ![1, J, 1]⟩)
    (u : Fin 1) (j : Fin J) (z : Fin 1) : extractStridedSlice ⟨3, ![1, J, 1]⟩ ![2, 0, 2] W hs (ix3 u j z) = W (ix3 (2 : Fin 5) j (2 : Fin 5)) :=
  sl3_apply 2 2 W hs u j z 2 2 rfl rfl
theorem sl3_2_3 {J : ℕ} (W : (⟨3, ![5, J, 5]⟩ : Shape).Idx → α) (hs : (⟨3, ![5, J, 5]⟩ : Shape).Slices ![2, 0, 3] ⟨3, ![1, J, 1]⟩)
    (u : Fin 1) (j : Fin J) (z : Fin 1) : extractStridedSlice ⟨3, ![1, J, 1]⟩ ![2, 0, 3] W hs (ix3 u j z) = W (ix3 (2 : Fin 5) j (3 : Fin 5)) :=
  sl3_apply 2 3 W hs u j z 2 3 rfl rfl
theorem sl3_2_4 {J : ℕ} (W : (⟨3, ![5, J, 5]⟩ : Shape).Idx → α) (hs : (⟨3, ![5, J, 5]⟩ : Shape).Slices ![2, 0, 4] ⟨3, ![1, J, 1]⟩)
    (u : Fin 1) (j : Fin J) (z : Fin 1) : extractStridedSlice ⟨3, ![1, J, 1]⟩ ![2, 0, 4] W hs (ix3 u j z) = W (ix3 (2 : Fin 5) j (4 : Fin 5)) :=
  sl3_apply 2 4 W hs u j z 2 4 rfl rfl
theorem sl3_3_0 {J : ℕ} (W : (⟨3, ![5, J, 5]⟩ : Shape).Idx → α) (hs : (⟨3, ![5, J, 5]⟩ : Shape).Slices ![3, 0, 0] ⟨3, ![1, J, 1]⟩)
    (u : Fin 1) (j : Fin J) (z : Fin 1) : extractStridedSlice ⟨3, ![1, J, 1]⟩ ![3, 0, 0] W hs (ix3 u j z) = W (ix3 (3 : Fin 5) j (0 : Fin 5)) :=
  sl3_apply 3 0 W hs u j z 3 0 rfl rfl
theorem sl3_3_1 {J : ℕ} (W : (⟨3, ![5, J, 5]⟩ : Shape).Idx → α) (hs : (⟨3, ![5, J, 5]⟩ : Shape).Slices ![3, 0, 1] ⟨3, ![1, J, 1]⟩)
    (u : Fin 1) (j : Fin J) (z : Fin 1) : extractStridedSlice ⟨3, ![1, J, 1]⟩ ![3, 0, 1] W hs (ix3 u j z) = W (ix3 (3 : Fin 5) j (1 : Fin 5)) :=
  sl3_apply 3 1 W hs u j z 3 1 rfl rfl
theorem sl3_3_2 {J : ℕ} (W : (⟨3, ![5, J, 5]⟩ : Shape).Idx → α) (hs : (⟨3, ![5, J, 5]⟩ : Shape).Slices ![3, 0, 2] ⟨3, ![1, J, 1]⟩)
    (u : Fin 1) (j : Fin J) (z : Fin 1) : extractStridedSlice ⟨3, ![1, J, 1]⟩ ![3, 0, 2] W hs (ix3 u j z) = W (ix3 (3 : Fin 5) j (2 : Fin 5)) :=
  sl3_apply 3 2 W hs u j z 3 2 rfl rfl
theorem sl3_3_3 {J : ℕ} (W : (⟨3, ![5, J, 5]⟩ : Shape).Idx → α) (hs : (⟨3, ![5, J, 5]⟩ : Shape).Slices ![3, 0, 3] ⟨3, ![1, J, 1]⟩)
    (u : Fin 1) (j : Fin J) (z : Fin 1) : extractStridedSlice ⟨3, ![1, J, 1]⟩ ![3, 0, 3] W hs (ix3 u j z) = W (ix3 (3 : Fin 5) j (3 : Fin 5)) :=
  sl3_apply 3 3 W hs u j z 3 3 rfl rfl
theorem sl3_3_4 {J : ℕ} (W : (⟨3, ![5, J, 5]⟩ : Shape).Idx → α) (hs : (⟨3, ![5, J, 5]⟩ : Shape).Slices ![3, 0, 4] ⟨3, ![1, J, 1]⟩)
    (u : Fin 1) (j : Fin J) (z : Fin 1) : extractStridedSlice ⟨3, ![1, J, 1]⟩ ![3, 0, 4] W hs (ix3 u j z) = W (ix3 (3 : Fin 5) j (4 : Fin 5)) :=
  sl3_apply 3 4 W hs u j z 3 4 rfl rfl
theorem sl3_4_0 {J : ℕ} (W : (⟨3, ![5, J, 5]⟩ : Shape).Idx → α) (hs : (⟨3, ![5, J, 5]⟩ : Shape).Slices ![4, 0, 0] ⟨3, ![1, J, 1]⟩)
    (u : Fin 1) (j : Fin J) (z : Fin 1) : extractStridedSlice ⟨3, ![1, J, 1]⟩ ![4, 0, 0] W hs (ix3 u j z) = W (ix3 (4 : Fin 5) j (0 : Fin 5)) :=
  sl3_apply 4 0 W hs u j z 4 0 rfl rfl
theorem sl3_4_1 {J : ℕ} (W : (⟨3, ![5, J, 5]⟩ : Shape).Idx → α) (hs : (⟨3, ![5, J, 5]⟩ : Shape).Slices ![4, 0, 1] ⟨3, ![1, J, 1]⟩)
    (u : Fin 1) (j : Fin J) (z : Fin 1) : extractStridedSlice ⟨3, ![1, J, 1]⟩ ![4, 0, 1] W hs (ix3 u j z) = W (ix3 (4 : Fin 5) j (1 : Fin 5)) :=
  sl3_apply 4 1 W hs u j z 4 1 rfl rfl
theorem sl3_4_2 {J : ℕ} (W : (⟨3, ![5, J, 5]⟩ : Shape).Idx → α) (hs : (⟨3, ![5, J, 5]⟩ : Shape).Slices ![4, 0, 2] ⟨3, ![1, J, 1]⟩)
    (u : Fin 1) (j : Fin J) (z : Fin 1) : extractStridedSlice ⟨3, ![1, J, 1]⟩ ![4, 0, 2] W hs (ix3 u j z) = W (ix3 (4 : Fin 5) j (2 : Fin 5)) :=
  sl3_apply 4 2 W hs u j z 4 2 rfl rfl
theorem sl3_4_3 {J : ℕ} (W : (⟨3, ![5, J, 5]⟩ : Shape).Idx → α) (hs : (⟨3, ![5, J, 5]⟩ : Shape).Slices ![4, 0, 3] ⟨3, ![1, J, 1]⟩)
    (u : Fin 1) (j : Fin J) (z : Fin 1) : extractStridedSlice ⟨3, ![1, J, 1]⟩ ![4, 0, 3] W hs (ix3 u j z) = W (ix3 (4 : Fin 5) j (3 : Fin 5)) :=
  sl3_apply 4 3 W hs u j z 4 3 rfl rfl
theorem sl3_4_4 {J : ℕ} (W : (⟨3, ![5, J, 5]⟩ : Shape).Idx → α) (hs : (⟨3, ![5, J, 5]⟩ : Shape).Slices ![4, 0, 4] ⟨3, ![1, J, 1]⟩)
    (u : Fin 1) (j : Fin J) (z : Fin 1) : extractStridedSlice ⟨3, ![1, J, 1]⟩ ![4, 0, 4] W hs (ix3 u j z) = W (ix3 (4 : Fin 5) j (4 : Fin 5)) :=
  sl3_apply 4 4 W hs u j z 4 4 rfl rfl

end Cert.KernelIdeal.Val

end
-- ==== Proof.TripMath0Pay.lean ====
/-
  Each pure value of one trip of the first layer's loop, read at output feature j and batch lane b.

  The trip works on [128, 512] tiles: row j is an output feature, lane b a batch position. A parameter enters as the
  column of its [128, 5] (or [5, 128, 5]) row spread along the lanes, so at (j, b) every product is
  parameter(j, ·) · value(j, b). The first five values are the first-layer units silu (wa[j, k] · x[b] + ba[j, k]); the next
  are the second-layer pre-activations bb[j, c] + Σ_m wb[m, j, c] · unit1 m, accumulated from the bias, left to right, and
  their silu; the last is the read-out bc[j] + Σ_c wc[j, c] · unit2 c, scaled, with the skip term, added to the accumulator.
-/
import proofs.«107607_j19129784336543_2_alg».proof.Proof.Gen.KernelIdeal.Skeleton
import proofs.«107607_j19129784336543_2_alg».proof.Proof.Spec
import proofs.«107607_j19129784336543_2_alg».proof.Proof.TripMath0Cols

noncomputable section

namespace Cert.KernelIdeal.Val

open Idealize.ShloMosaic Idealize.ShloMosaic.ValueIdx
open Cert.KernelIdeal Cert.KernelIdeal.Gen

theorem logistic_apply {s : Shape} {φ : FTy} (a : FVec Ideal s φ) (i : s.Idx) : logistic a i = Ideal.logistic (a i) := rfl

/-! ## The rows as the trip loads them -/

theorem pay5_at (v15 : Vec Ideal S1x512 .f32) (j : Fin 128) (b : Fin 512) :
    k0_pay5 (F := Ideal) v15 (ix2 j b) = v15 (ix2 (0 : Fin 1) b) := by
  unfold k0_pay5
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay6_at (v21 : Vec Ideal S1x128x5 .f32) (j : Fin 128) (k : Fin 5) :
    k0_pay6 (F := Ideal) v21 (ix2 j k) = v21 (ix3 (0 : Fin 1) j k) := by
  unfold k0_pay6
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay7_at (v24 : Vec Ideal S1x128x5 .f32) (j : Fin 128) (k : Fin 5) :
    k0_pay7 (F := Ideal) v24 (ix2 j k) = v24 (ix3 (0 : Fin 1) j k) := by
  unfold k0_pay7
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay14_at (v100 : Vec Ideal S1x128x5 .f32) (j : Fin 128) (k : Fin 5) :
    k0_pay14 (F := Ideal) v100 (ix2 j k) = v100 (ix3 (0 : Fin 1) j k) := by
  unfold k0_pay14
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay13_at (v97 : Vec Ideal S1x5x128x5 .f32) (m : Fin 5) (j : Fin 128) (c : Fin 5) :
    k0_pay13 (F := Ideal) v97 (ix3 m j c) = v97 (ix4 (0 : Fin 1) m j c) := by
  unfold k0_pay13
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

/-! ## The five first-layer units -/

theorem pay8_at (v15 : Vec Ideal S1x512 .f32) (v21 v24 : Vec Ideal S1x128x5 .f32) (j : Fin 128) (b : Fin 512) :
    k0_pay8 (F := Ideal) v15 v21 v24 (ix2 j b)
      = Cert.Spec.silu (v21 (ix3 (0 : Fin 1) j (0 : Fin 5)) * v15 (ix2 (0 : Fin 1) b) + v24 (ix3 (0 : Fin 1) j (0 : Fin 5))) := by
  unfold k0_pay8
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay9_at (v15 : Vec Ideal S1x512 .f32) (v21 v24 : Vec Ideal S1x128x5 .f32) (j : Fin 128) (b : Fin 512) :
    k0_pay9 (F := Ideal) v15 v21 v24 (ix2 j b)
      = Cert.Spec.silu (v21 (ix3 (0 : Fin 1) j (1 : Fin 5)) * v15 (ix2 (0 : Fin 1) b) + v24 (ix3 (0 : Fin 1) j (1 : Fin 5))) := by
  unfold k0_pay9
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay10_at (v15 : Vec Ideal S1x512 .f32) (v21 v24 : Vec Ideal S1x128x5 .f32) (j : Fin 128) (b : Fin 512) :
    k0_pay10 (F := Ideal) v15 v21 v24 (ix2 j b)
      = Cert.Spec.silu (v21 (ix3 (0 : Fin 1) j (2 : Fin 5)) * v15 (ix2 (0 : Fin 1) b) + v24 (ix3 (0 : Fin 1) j (2 : Fin 5))) := by
  unfold k0_pay10
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay11_at (v19 : FVec Ideal S128x512 .f32) (v22 v25 : FVec Ideal S128x5 .f32) (j : Fin 128) (b : Fin 512) :
    k0_pay11 (F := Ideal) v19 v22 v25 (ix2 j b)
      = Cert.Spec.silu (v22 (ix2 j (3 : Fin 5)) * v19 (ix2 j b) + v25 (ix2 j (3 : Fin 5))) := by
  unfold k0_pay11
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay12_at (v19 : FVec Ideal S128x512 .f32) (v22 v25 : FVec Ideal S128x5 .f32) (j : Fin 128) (b : Fin 512) :
    k0_pay12 (F := Ideal) v19 v22 v25 (ix2 j b)
      = Cert.Spec.silu (v22 (ix2 j (4 : Fin 5)) * v19 (ix2 j b) + v25 (ix2 j (4 : Fin 5))) := by
  unfold k0_pay12
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

/-! ## The five second-layer units: pre-activations accumulated from the bias, left to right -/

theorem pay15_at (v39 v53 : FVec Ideal S128x512 .f32) (v97 : Vec Ideal S1x5x128x5 .f32) (v100 : Vec Ideal S1x128x5 .f32) (j : Fin 128) (b : Fin 512) :
    k0_pay15 (F := Ideal) v39 v53 v97 v100 (ix2 j b)
      = v100 (ix3 (0 : Fin 1) j (0 : Fin 5)) + v97 (ix4 (0 : Fin 1) (0 : Fin 5) j (0 : Fin 5)) * v39 (ix2 j b)
        + v97 (ix4 (0 : Fin 1) (1 : Fin 5) j (0 : Fin 5)) * v53 (ix2 j b) := by
  unfold k0_pay15
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay13_at, pay14_at]

theorem pay16_at (v97 : Vec Ideal S1x5x128x5 .f32) (j : Fin 128) :
    k0_pay16 (F := Ideal) v97 (ix1 j) = v97 (ix4 (0 : Fin 1) (2 : Fin 5) j (0 : Fin 5)) := by
  unfold k0_pay16
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay13_at]

theorem pay17_at (v67 v81 v95 : FVec Ideal S128x512 .f32) (v98 : FVec Ideal S5x128x5 .f32) (v120 : FVec Ideal S128x512 .f32) (v122 : FVec Ideal S128 .f32) (j : Fin 128) (b : Fin 512) :
    k0_pay17 (F := Ideal) v67 v81 v95 v98 v120 v122 (ix2 j b)
      = Cert.Spec.silu (v120 (ix2 j b) + v122 (ix1 j) * v67 (ix2 j b) + v98 (ix3 (3 : Fin 5) j (0 : Fin 5)) * v81 (ix2 j b) + v98 (ix3 (4 : Fin 5) j (0 : Fin 5)) * v95 (ix2 j b)) := by
  unfold k0_pay17
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay18_at (v39 v53 v67 v81 : FVec Ideal S128x512 .f32) (v98 : FVec Ideal S5x128x5 .f32) (v101 : FVec Ideal S128x5 .f32) (j : Fin 128) (b : Fin 512) :
    k0_pay18 (F := Ideal) v39 v53 v67 v81 v98 v101 (ix2 j b)
      = v101 (ix2 j (1 : Fin 5)) + v98 (ix3 (0 : Fin 5) j (1 : Fin 5)) * v39 (ix2 j b) + v98 (ix3 (1 : Fin 5) j (1 : Fin 5)) * v53 (ix2 j b) + v98 (ix3 (2 : Fin 5) j (1 : Fin 5)) * v67 (ix2 j b) + v98 (ix3 (3 : Fin 5) j (1 : Fin 5)) * v81 (ix2 j b) := by
  unfold k0_pay18
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay19_at (v95 : FVec Ideal S128x512 .f32) (v98 : FVec Ideal S5x128x5 .f32) (j : Fin 128) (b : Fin 512) :
    k0_pay19 (F := Ideal) v95 v98 (ix2 j b) = v98 (ix3 (4 : Fin 5) j (1 : Fin 5)) * v95 (ix2 j b) := by
  unfold k0_pay19
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay20_at (v176 v182 : FVec Ideal S128x512 .f32) (j : Fin 128) (b : Fin 512) :
    k0_pay20 (F := Ideal) v176 v182 (ix2 j b) = Cert.Spec.silu (v176 (ix2 j b) + v182 (ix2 j b)) := by
  unfold k0_pay20
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay21_at (v39 v53 v67 v81 v95 : FVec Ideal S128x512 .f32) (v98 : FVec Ideal S5x128x5 .f32) (v101 : FVec Ideal S128x5 .f32) (j : Fin 128) (b : Fin 512) :
    k0_pay21 (F := Ideal) v39 v53 v67 v81 v95 v98 v101 (ix2 j b)
      = Cert.Spec.silu (v101 (ix2 j (2 : Fin 5)) + v98 (ix3 (0 : Fin 5) j (2 : Fin 5)) * v39 (ix2 j b) + v98 (ix3 (1 : Fin 5) j (2 : Fin 5)) * v53 (ix2 j b) + v98 (ix3 (2 : Fin 5) j (2 : Fin 5)) * v67 (ix2 j b) + v98 (ix3 (3 : Fin 5) j (2 : Fin 5)) * v81 (ix2 j b)
          + v98 (ix3 (4 : Fin 5) j (2 : Fin 5)) * v95 (ix2 j b)) := by
  unfold k0_pay21
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay22_at (v39 : FVec Ideal S128x512 .f32) (v98 : FVec Ideal S5x128x5 .f32) (v101 : FVec Ideal S128x5 .f32) (j : Fin 128) (b : Fin 512) :
    k0_pay22 (F := Ideal) v39 v98 v101 (ix2 j b) = v101 (ix2 j (3 : Fin 5)) + v98 (ix3 (0 : Fin 5) j (3 : Fin 5)) * v39 (ix2 j b) := by
  unfold k0_pay22
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay23_at (v98 : FVec Ideal S5x128x5 .f32) (j : Fin 128) (z : Fin 1) :
    k0_pay23 (F := Ideal) v98 (ix2 j z) = v98 (ix3 (1 : Fin 5) j (3 : Fin 5)) := by
  unfold k0_pay23
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay24_at (v53 v67 v81 v95 : FVec Ideal S128x512 .f32) (v98 : FVec Ideal S5x128x5 .f32) (v239 : FVec Ideal S128x512 .f32) (v242 : FVec Ideal S128x1 .f32) (j : Fin 128) (b : Fin 512) :
    k0_pay24 (F := Ideal) v53 v67 v81 v95 v98 v239 v242 (ix2 j b)
      = Cert.Spec.silu (v239 (ix2 j b) + v242 (ix2 j (0 : Fin 1)) * v53 (ix2 j b) + v98 (ix3 (2 : Fin 5) j (3 : Fin 5)) * v67 (ix2 j b) + v98 (ix3 (3 : Fin 5) j (3 : Fin 5)) * v81 (ix2 j b)
          + v98 (ix3 (4 : Fin 5) j (3 : Fin 5)) * v95 (ix2 j b)) := by
  unfold k0_pay24
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay25_at (v39 v53 v67 v81 : FVec Ideal S128x512 .f32) (v98 : FVec Ideal S5x128x5 .f32) (v101 : FVec Ideal S128x5 .f32) (j : Fin 128) (b : Fin 512) :
    k0_pay25 (F := Ideal) v39 v53 v67 v81 v98 v101 (ix2 j b)
      = v101 (ix2 j (4 : Fin 5)) + v98 (ix3 (0 : Fin 5) j (4 : Fin 5)) * v39 (ix2 j b) + v98 (ix3 (1 : Fin 5) j (4 : Fin 5)) * v53 (ix2 j b) + v98 (ix3 (2 : Fin 5) j (4 : Fin 5)) * v67 (ix2 j b) + v98 (ix3 (3 : Fin 5) j (4 : Fin 5)) * v81 (ix2 j b) := by
  unfold k0_pay25
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

/-! ## The read-out, and the trip's result -/

theorem pay26_at (v95 : FVec Ideal S128x512 .f32) (v98 : FVec Ideal S5x128x5 .f32) (v143 v185 v227 v269 v302 : FVec Ideal S128x512 .f32)
    (v313 : Vec Ideal S1x128x5 .f32) (v316 : Vec Ideal S1x128x1 .f32) (j : Fin 128) (b : Fin 512) :
    k0_pay26 (F := Ideal) v95 v98 v143 v185 v227 v269 v302 v313 v316 (ix2 j b)
      = v316 (ix3 (0 : Fin 1) j (0 : Fin 1)) + v313 (ix3 (0 : Fin 1) j (0 : Fin 5)) * v143 (ix2 j b) + v313 (ix3 (0 : Fin 1) j (1 : Fin 5)) * v185 (ix2 j b)
        + v313 (ix3 (0 : Fin 1) j (2 : Fin 5)) * v227 (ix2 j b) + v313 (ix3 (0 : Fin 1) j (3 : Fin 5)) * v269 (ix2 j b)
        + v313 (ix3 (0 : Fin 1) j (4 : Fin 5)) * Cert.Spec.silu (v302 (ix2 j b) + v98 (ix3 (4 : Fin 5) j (4 : Fin 5)) * v95 (ix2 j b)) := by
  unfold k0_pay26
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay3_at (arg14 v19 v354 : FVec Ideal S128x512 .f32) (v356 v361 : Vec Ideal S1x128x1 .f32) (j : Fin 128) (b : Fin 512) :
    k0_pay3 (F := Ideal) arg14 v19 v354 v356 v361 (ix2 j b)
      = arg14 (ix2 j b) + (v354 (ix2 j b) * v356 (ix3 (0 : Fin 1) j (0 : Fin 1)) + v19 (ix2 j b) * v361 (ix3 (0 : Fin 1) j (0 : Fin 1))) := by
  unfold k0_pay3
  simp only [mulf_apply, addf_apply, logistic_apply, bcol_apply, shapeCast_self, cast_a_a1_apply, cast_a1_a_apply, cast_1a1_a_apply, shapeCast_1ab_ab_apply, shapeCast_1abc_abc_apply, shapeCast_a_1a_apply, shapeCast_1a_a_apply, broadcastTo_1b_ab_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

end Cert.KernelIdeal.Val

end
-- ==== Proof.TripMath0.lean ====
/-
  One trip of the first layer's loop adds one sub-network to the accumulator.

  Trip t of the loop over the input block reads row t of the transposed input and of the eight parameter blocks and
  returns the accumulator plus, at output feature j and batch lane b, the 1-5-5-1 perceptron of the specification with
  the parameters the rows hold at j, applied to the input row's entry at b. The kernel adds each bias first and then the
  five products from left to right, where the specification writes the sum of the products plus the bias: the two agree
  by commutativity and associativity of addition on the extended reals.
-/
import proofs.«107607_j19129784336543_2_alg».proof.Proof.TripTerm0
import proofs.«107607_j19129784336543_2_alg».proof.Proof.TripMath0Pay

noncomputable section

open scoped BigOperators

namespace Cert.KernelIdeal.Val

open Idealize.ShloMosaic Idealize.ShloMosaic.ValueIdx
open Cert.KernelIdeal Cert.KernelIdeal.Gen

/-- Five terms and a bias: the sum plus the bias is the bias with the terms added one after the other. -/
theorem sum5_bias (f : Fin 5 → EReal) (b : EReal) :
    (∑ k : Fin 5, f k) + b = b + f 0 + f 1 + f 2 + f 3 + f 4 := by
  rw [Fin.sum_univ_five]
  ac_rfl

theorem tripTerm0_apply (acc : FVec Ideal S128x512 .f32) (v2 : Vec Ideal S1x512 .f32) (v3 v4 : Vec Ideal S1x128x5 .f32)
    (v5 : Vec Ideal S1x5x128x5 .f32) (v6 v7 : Vec Ideal S1x128x5 .f32) (v8 v9 v10 : Vec Ideal S1x128x1 .f32)
    (j : Fin 128) (b : Fin 512) :
    tripTerm0 (F := Ideal) acc v2 v3 v4 v5 v6 v7 v8 v9 v10 (ix2 j b)
      = acc (ix2 j b) + Cert.Spec.net (fun k => v3 (ix3 (0 : Fin 1) j k)) (fun k => v4 (ix3 (0 : Fin 1) j k))
          (fun m k => v5 (ix4 (0 : Fin 1) k j m)) (fun m => v6 (ix3 (0 : Fin 1) j m)) (fun m => v7 (ix3 (0 : Fin 1) j m))
          (v8 (ix3 (0 : Fin 1) j (0 : Fin 1))) (v9 (ix3 (0 : Fin 1) j (0 : Fin 1))) (v10 (ix3 (0 : Fin 1) j (0 : Fin 1)))
          (v2 (ix2 (0 : Fin 1) b)) := by
  unfold tripTerm0
  simp only [pay3_at, pay26_at, pay25_at, pay24_at, pay23_at, pay22_at, pay21_at, pay20_at, pay19_at, pay18_at, pay17_at, pay16_at, pay15_at, pay14_at, pay13_at, pay12_at, pay11_at, pay10_at, pay9_at, pay8_at, pay7_at, pay6_at, pay5_at]
  simp only [Cert.Spec.net, sum5_bias]

end Cert.KernelIdeal.Val

end
-- ==== Proof.R0Acc.lean ====
/-
  The first layer's kernel region at the ideal instance: the accumulator after a point, read at an index, is the
  sum of the (input feature, output feature) networks over the input features met so far in the point's batch block.
-/
import proofs.«107607_j19129784336543_2_alg».proof.Proof.R0Sum
import proofs.«107607_j19129784336543_2_alg».proof.Proof.R0Block
import proofs.«107607_j19129784336543_2_alg».proof.Proof.Spec
import proofs.«107607_j19129784336543_2_alg».proof.Proof.Nets
import proofs.«107607_j19129784336543_2_alg».proof.Proof.TripMath0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry Ideal)

/-- The same over natural numbers, zero outside the arrays: the summand of the running sums. -/
def g0 (c : Dev nD) (bq : ℕ) (j : Fin 128) (b : Fin 512) (i : ℕ) : EReal :=
  if h : i < 128 ∧ bq * 512 + b.val < 2048 then net0 V c ⟨i, h.1⟩ j ⟨bq * 512 + b.val, h.2⟩ else 0

theorem pay2_apply (y : S128x512.Idx) : k0_pay2 (F := Ideal) y = 0 := by
  unfold k0_pay2
  show Scalar.ofBits (F := Ideal) .f32 0x00000000#32 = 0
  exact Ideal.ofBits_zero_f32

theorem zero0_apply (y : S128x512.Idx) : zero0 (F := Ideal) y = 0 := by
  unfold zero0 k0_pay1
  simp only [shapeCast_self]
  show Scalar.ofBits (F := Ideal) .f32 0x00000000#32 = 0
  exact Ideal.ofBits_zero_f32

theorem trips0 : k0_t1_loop.trips = 16 := by decide

set_option maxHeartbeats 4000000 in
/-- The loop's carried value after n trips at point t, at (j, b): the sum of the networks of the first n input
    features of the point's block. -/
theorem loop0_apply (c : Dev nD) (t : Fin cfg0.N) (j : Fin 128) (b : Fin 512) : ∀ (n : ℕ) (hn : n ≤ 16),
    loop0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) n (ix2 j b)
      = ∑ k ∈ Finset.range n, g0 V c (t.val / 8) j b (t.val % 8 * 16 + k) := by
  intro n
  induction n with
  | zero =>
    intro _
    rw [Finset.range_zero, Finset.sum_empty]
    show k0_pay2 (F := Ideal) (ix2 j b) = 0
    exact pay2_apply (ix2 j b)
  | succ n ih =>
    intro hn
    have hk : n < k0_t1_loop.trips := by rw [trips0]; omega
    have h16 : n < 16 := by omega
    have hN : t.val < 32 := lt_of_lt_of_eq t.isLt (show cfg0.N = 32 from N_0)
    have hi : t.val % 8 * 16 + n < 128 := by omega
    have hq : t.val / 8 * 512 + b.val < 2048 := by have := b.isLt; omega
    rw [Finset.sum_range_succ, ← ih (by omega)]
    unfold loop0
    rw [show n + 1 = (⟨n, hk⟩ : Fin k0_t1_loop.trips).val + 1 from rfl, st_k0_t1_succ, tripR0_eq,
      Cert.KernelIdeal.Val.tripTerm0_apply]
    congr 1
    rw [show g0 V c (t.val / 8) j b (t.val % 8 * 16 + n) = net0 V c ⟨t.val % 8 * 16 + n, hi⟩ j ⟨t.val / 8 * 512 + b.val, hq⟩ from dif_pos ⟨hi, hq⟩]
    unfold net0
    simp only [row0_0_apply (ms0_0 t) (hs0_0 t) (iblk0 V c 0 t) ⟨n, hk⟩ h16,
      row0_1_apply (ms0_1 t) (hs0_1 t) (iblk0 V c 1 t) ⟨n, hk⟩ h16,
      row0_2_apply (ms0_2 t) (hs0_2 t) (iblk0 V c 2 t) ⟨n, hk⟩ h16,
      row0_3_apply (ms0_3 t) (hs0_3 t) (iblk0 V c 3 t) ⟨n, hk⟩ h16,
      row0_4_apply (ms0_4 t) (hs0_4 t) (iblk0 V c 4 t) ⟨n, hk⟩ h16,
      row0_5_apply (ms0_5 t) (hs0_5 t) (iblk0 V c 5 t) ⟨n, hk⟩ h16,
      row0_6_apply (ms0_6 t) (hs0_6 t) (iblk0 V c 6 t) ⟨n, hk⟩ h16,
      row0_7_apply (ms0_7 t) (hs0_7 t) (iblk0 V c 7 t) ⟨n, hk⟩ h16,
      row0_8_apply (ms0_8 t) (hs0_8 t) (iblk0 V c 8 t) ⟨n, hk⟩ h16,
      iblk0_0_apply V c t ⟨n, h16⟩ b hi hq,
      (fun y1 y2 => iblk0_1_apply V c t ⟨n, h16⟩ y1 y2 hi),
      (fun y1 y2 => iblk0_2_apply V c t ⟨n, h16⟩ y1 y2 hi),
      (fun y1 y2 y3 => iblk0_3_apply V c t ⟨n, h16⟩ y1 y2 y3 hi),
      (fun y1 y2 => iblk0_4_apply V c t ⟨n, h16⟩ y1 y2 hi),
      (fun y1 y2 => iblk0_5_apply V c t ⟨n, h16⟩ y1 y2 hi),
      (fun y1 y2 => iblk0_6_apply V c t ⟨n, h16⟩ y1 y2 hi),
      (fun y1 y2 => iblk0_7_apply V c t ⟨n, h16⟩ y1 y2 hi),
      (fun y1 y2 => iblk0_8_apply V c t ⟨n, h16⟩ y1 y2 hi)]

theorem L0_apply (c : Dev nD) (t : Fin cfg0.N) (j : Fin 128) (b : Fin 512) :
    L0 V c t (ix2 j b) = ∑ k ∈ Finset.range 16, g0 V c (t.val / 8) j b (t.val % 8 * 16 + k) := by
  unfold L0
  rw [trips0]
  exact loop0_apply V c t j b 16 (le_refl _)

/-- After position `n` the accumulator holds, at (j, b), the sum over the first (n mod 8 + 1) * 16 input features. -/
theorem acc0_apply (c : Dev nD) (j : Fin 128) (b : Fin 512) : ∀ (n : ℕ) (hn : n < cfg0.N),
    acc0 V c n hn (ix2 j b) = ∑ i ∈ Finset.range ((n % 8 + 1) * 16), g0 V c (n / 8) j b i := by
  intro n
  induction n with
  | zero =>
    intro hn
    show zero0 (F := Ideal) (ix2 j b) + L0 V c ⟨0, hn⟩ (ix2 j b) = _
    rw [zero0_apply, zero_add, L0_apply]
    refine Finset.sum_congr rfl fun k _ => ?_
    show g0 V c (0 / 8) j b (0 % 8 * 16 + k) = g0 V c (0 / 8) j b k
    congr 1; omega
  | succ n ih =>
    intro hn
    by_cases h0 : (n + 1) % 8 = 0
    · rw [show acc0 V c (n + 1) hn = addf zero0 (L0 V c ⟨n + 1, hn⟩) from if_pos h0]
      show zero0 (F := Ideal) (ix2 j b) + L0 V c ⟨n + 1, hn⟩ (ix2 j b) = _
      rw [zero0_apply, zero_add, L0_apply]
      show ∑ k ∈ Finset.range 16, g0 V c ((n + 1) / 8) j b ((n + 1) % 8 * 16 + k) = _
      rw [h0]
      refine Finset.sum_congr rfl fun k _ => ?_
      congr 1; omega
    · rw [show acc0 V c (n + 1) hn = addf (acc0 V c n (Nat.lt_of_succ_lt hn)) (L0 V c ⟨n + 1, hn⟩) from if_neg h0]
      show acc0 V c n (Nat.lt_of_succ_lt hn) (ix2 j b) + L0 V c ⟨n + 1, hn⟩ (ix2 j b) = _
      rw [ih (Nat.lt_of_succ_lt hn), L0_apply]
      show _ + ∑ k ∈ Finset.range 16, g0 V c ((n + 1) / 8) j b ((n + 1) % 8 * 16 + k) = _
      have e1 : (n + 1) / 8 = n / 8 := by omega
      have e2 : (n + 1) % 8 = n % 8 + 1 := by omega
      rw [e1, e2, show (n % 8 + 1 + 1) * 16 = (n % 8 + 1) * 16 + 16 by ring, Finset.sum_range_add]

end Cert.KernelIdeal.Hand

end
-- ==== Proof.R0Arr.lean ====
/-
  The first layer's kernel region at the ideal instance: the array it leaves. Where ib = 7 the point writes back, as
  block b of the result, the accumulator — at (j, q) the sum over all 128 input features i of the network of (i, j)
  applied to the transposed input at (i, q); those four blocks tile the result, so the whole result array is that sum.
-/
import proofs.«107607_j19129784336543_2_alg».proof.Proof.R0Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry Ideal)

/-- What the region leaves in its result array. -/
def G0 (c : Dev nD) : S128x2048.Idx → EReal :=
  fun y => ∑ i : Fin 128, net0 V c i ⟨(y 0).val, idx2_lt0 y⟩ ⟨(y 1).val, idx2_lt1 y⟩

theorem G0_apply (c : Dev nD) (j : Fin 128) (q : Fin 2048) : G0 V c (ix2 j q) = ∑ i : Fin 128, net0 V c i j q := rfl

/-- What a point with ib = 7 writes back is its block of `G0`. -/
theorem flushed0_eq (c : Dev nD) (t : Fin cfg0.N) (hf : (cfg0.win 9).flush t = true) :
    (dat0 V c).flushed 9 t = ((cfg0.win 9).blk t).view.read (Elt Ideal) (G0 V c) := by
  have h7 : t.val % 8 = 7 := (flush0_9 t).mp hf
  have hN : t.val < 32 := lt_of_lt_of_eq t.isLt (show cfg0.N = 32 from N_0)
  show (cfg0.win 9).cut (grid0.coords t) ((dat0 V c).after 9 t) = _
  rw [after0_9]
  funext y
  obtain ⟨j, b, rfl⟩ : ∃ (j : Fin 128) (b : Fin 512), y = ix2 j b := ⟨y 0, y 1, eq_ix2 y⟩
  have hq : t.val / 8 * 512 + b.val < 2048 := by have := b.isLt; omega
  have hemb : ((cfg0.win 9).blk t).view.emb (ix2 j b) = ix2 j (⟨t.val / 8 * 512 + b.val, hq⟩ : Fin 2048) := by
    funext a; apply Fin.ext
    match a with
    | ⟨0, _⟩ => show win0_9.index t (0 : Fin 2) * 128 + 1 * j.val = j.val; rw [(idx0_9 t).1]; omega
    | ⟨1, _⟩ => show win0_9.index t (1 : Fin 2) * 512 + 1 * b.val = t.val / 8 * 512 + b.val; rw [(idx0_9 t).2]; omega
  show (outsAt0 V c t.val t.isLt).1 (ix2 j b) = G0 V c (((cfg0.win 9).blk t).view.emb (ix2 j b))
  rw [hemb, G0_apply, outsAt0_fst V c t h7, acc0_apply V c j b t.val t.isLt, h7, Finset.sum_range]
  refine Finset.sum_congr rfl fun i _ => ?_
  exact dif_pos ⟨i.isLt, hq⟩

theorem mem_blk0_9 (t : Fin cfg0.N) (i : S128x2048.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v10).slice (win0_9.rect t)).set ↔ _
  rw [View.set_slice_whole, Rect.mem_set_unit]
  exact Iff.rfl

/-- The four written-back blocks tile the result. -/
theorem cover0 (i : S128x2048.Idx) : ∃ t : Fin cfg0.N, (cfg0.win 9).flush t = true ∧ i ∈ ((cfg0.win 9).blk t).view.set := by
  have hi0 : (i 0).val < 128 := (i 0).isLt
  have hi1 : (i 1).val < 2048 := (i 1).isLt
  have hlt : (i 1).val / 512 * 8 + 7 < cfg0.N := by rw [show cfg0.N = 32 from N_0]; omega
  refine ⟨⟨(i 1).val / 512 * 8 + 7, hlt⟩, (flush0_9 _).mpr (by show ((i 1).val / 512 * 8 + 7) % 8 = 7; omega), ?_⟩
  rw [mem_blk0_9]
  intro a
  match a with
  | ⟨0, _⟩ =>
    show win0_9.index _ (0 : Fin 2) * 128 ≤ (i 0).val ∧ (i 0).val < win0_9.index _ (0 : Fin 2) * 128 + 128
    rw [(idx0_9 _).1]; omega
  | ⟨1, _⟩ =>
    show win0_9.index _ (1 : Fin 2) * 512 ≤ (i 1).val ∧ (i 1).val < win0_9.index _ (1 : Fin 2) * 512 + 512
    rw [(idx0_9 _).2]
    show ((i 1).val / 512 * 8 + 7) / 8 * 512 ≤ (i 1).val ∧ (i 1).val < ((i 1).val / 512 * 8 + 7) / 8 * 512 + 512
    omega

/-- The array the first layer's region leaves: at (j, q) the sum over the input features of their networks. -/
theorem arr0_final (c : Dev nD) (j : Fin 128) (q : Fin 2048) :
    (region0.dat V c).arrAt 9 cfg0.N (ix2 j q) = ∑ i : Fin 128, net0 V c i j q := by
  show (dat0 V c).arrAt 9 cfg0.N (ix2 j q) = _
  rw [(dat0 V c).arrAt_eq_of_cover 9 (G0 V c) (fun t hf => flushed0_eq V c t hf) (cover0)]
  exact G0_apply V c j q

end Cert.KernelIdeal.Hand

end
-- ==== Proof.TripTerm1.lean ====
/-
  One trip of the second layer's loop as a pure function: from the accumulator carried into the trip and the nine
  rows the trip loads — row k of the hidden-layer block, of the first-layer weights and biases of the sub-networks,
  of their 5 x 5 second-layer weights and biases, of their output weights, bias, scale and residual weight — to the
  accumulator carried out of it: the accumulator plus, at each batch position, one sub-network's output.
-/
import proofs.«107607_j19129784336543_2_alg».proof.Proof.Gen.KernelIdeal.Skeleton

noncomputable section

namespace Cert.KernelIdeal.Val

open Idealize.ShloMosaic Idealize.ShloMosaic.TcCoe
open Cert.KernelIdeal Cert.KernelIdeal.Gen

variable {F : FTy → Type} [FloatOps F]

/-- What trip k yields, over the rows it loads (v2 from the hidden-layer block, v3 … v10 from the eight parameter blocks). -/
def tripTerm1 (acc : FVec F S1x2048 .f32) (v2 : Vec F S1x2048 .f32) (v3 v4 : Vec F S1x1x5 .f32) (v5 : Vec F S1x5x1x5 .f32)
    (v6 v7 : Vec F S1x1x5 .f32) (v8 v9 v10 : Vec F S1x1x1 .f32) : FVec F S1x2048 .f32 :=
  k1_pay3 acc (k1_pay5 v2)
      (k1_pay28
        (k1_pay13 (k1_pay5 v2)
          (k1_pay6 v3)
          (k1_pay7 v4))
        (k1_pay18
          (k1_pay10 v2
            v3
            v4)
          (k1_pay12 (k1_pay5 v2)
            (k1_pay7 v4)
            (k1_pay11 v3))
          (k1_pay13 (k1_pay5 v2)
            (k1_pay6 v3)
            (k1_pay7 v4))
          (k1_pay14 v5)
          (k1_pay16
            (k1_pay8 v2
              v3
              v4)
            (k1_pay9 v2
              v3
              v4)
            v5
            v6)
          (k1_pay17 v5))
        (k1_pay21
          (k1_pay19
            (k1_pay8 v2
              v3
              v4)
            (k1_pay9 v2
              v3
              v4)
            (k1_pay10 v2
              v3
              v4)
            (k1_pay12 (k1_pay5 v2)
              (k1_pay7 v4)
              (k1_pay11 v3))
            (k1_pay13 (k1_pay5 v2)
              (k1_pay6 v3)
              (k1_pay7 v4))
            (k1_pay14 v5)
            (k1_pay15 v6))
          (k1_pay20
            (k1_pay8 v2
              v3
              v4)
            (k1_pay9 v2
              v3
              v4)
            (k1_pay10 v2
              v3
              v4)
            (k1_pay12 (k1_pay5 v2)
              (k1_pay7 v4)
              (k1_pay11 v3))
            (k1_pay13 (k1_pay5 v2)
              (k1_pay6 v3)
              (k1_pay7 v4))
            (k1_pay14 v5)
            (k1_pay15 v6)))
        (k1_pay22
          (k1_pay8 v2
            v3
            v4)
          (k1_pay9 v2
            v3
            v4)
          (k1_pay10 v2
            v3
            v4)
          (k1_pay12 (k1_pay5 v2)
            (k1_pay7 v4)
            (k1_pay11 v3))
          (k1_pay13 (k1_pay5 v2)
            (k1_pay6 v3)
            (k1_pay7 v4))
          (k1_pay14 v5)
          (k1_pay15 v6))
        (k1_pay25
          (k1_pay9 v2
            v3
            v4)
          (k1_pay10 v2
            v3
            v4)
          (k1_pay12 (k1_pay5 v2)
            (k1_pay7 v4)
            (k1_pay11 v3))
          (k1_pay13 (k1_pay5 v2)
            (k1_pay6 v3)
            (k1_pay7 v4))
          (k1_pay14 v5)
          (k1_pay23
            (k1_pay8 v2
              v3
              v4)
            (k1_pay14 v5)
            (k1_pay15 v6))
          (k1_pay24
            (k1_pay14 v5)))
        (k1_pay26
          (k1_pay8 v2
            v3
            v4)
          (k1_pay9 v2
            v3
            v4)
          (k1_pay10 v2
            v3
            v4)
          (k1_pay12 (k1_pay5 v2)
            (k1_pay7 v4)
            (k1_pay11 v3))
          (k1_pay14 v5)
          (k1_pay15 v6))
        (k1_pay27 (k1_pay14 v5))
        v7
        v8)
      (k1_pay29 v9)
      v10

end Cert.KernelIdeal.Val

end
-- ==== Proof.R1Val.lean ====
/-
  The second layer's kernel region, its values. One trip of the loop yields the trip's pure function of the nine rows
  it loads; the loop from the zero block is the iterate of the trips; and the cases' found pieces read back in closed
  form: a point leaves in the accumulator what the point before left (zero where ib = 0) plus the loop's sum over
  the point's 32 hidden features, and where ib = 3 the output block's buffer holds that same sum.
-/
import proofs.«107607_j19129784336543_2_alg».proof.Proof.R1Dat
import proofs.«107607_j19129784336543_2_alg».proof.Proof.TripTerm1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Val (tripTerm1)

theorem hz2_1 : (![0, 0] : Fin 2 → Nat) = fun _ => 0 := funext fun a => by fin_cases a <;> rfl

/-- The zero block the reset stores. -/
abbrev zero1 : FVec F S1x2048 .f32 := k1_pay1 (F := F)

/-! ## One trip -/

unseal Cert.KernelIdeal.Gen.trip_k1_t1 in
/-- Trip k's yield is the trip's pure function of the accumulator and of row k of each input block. -/
theorem tripR1_eq (𝒱 : Variants) (c : Dev nD) (bd : Option 𝒱.V) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k1_t1_loop.trips) (acc : FVec F S1x2048 .f32) :
    tripR_k1_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 X_arg10 k acc
      = tripTerm1 acc
        (View.readAt (Elt F) arg2.view (Rect.unit (s := S32x2048) (k1_off1 k) S1x2048.size (k1_off1_inb k)).toLoadRect X_arg2)
        (View.readAt (Elt F) arg3.view (Rect.unit (s := S32x1x5) (k1_off2 k) S1x1x5.size (k1_off2_inb k)).toLoadRect X_arg3)
        (View.readAt (Elt F) arg4.view (Rect.unit (s := S32x1x5) (k1_off2 k) S1x1x5.size (k1_off2_inb k)).toLoadRect X_arg4)
        (View.readAt (Elt F) arg5.view (Rect.unit (s := S32x5x1x5) (k1_off3 k) S1x5x1x5.size (k1_off3_inb k)).toLoadRect X_arg5)
        (View.readAt (Elt F) arg6.view (Rect.unit (s := S32x1x5) (k1_off2 k) S1x1x5.size (k1_off2_inb k)).toLoadRect X_arg6)
        (View.readAt (Elt F) arg7.view (Rect.unit (s := S32x1x5) (k1_off2 k) S1x1x5.size (k1_off2_inb k)).toLoadRect X_arg7)
        (View.readAt (Elt F) arg8.view (Rect.unit (s := S32x1x1) (k1_off4 k) S1x1x1.size (k1_off4_inb k)).toLoadRect X_arg8)
        (View.readAt (Elt F) arg9.view (Rect.unit (s := S32x1x1) (k1_off4 k) S1x1x1.size (k1_off4_inb k)).toLoadRect X_arg9)
        (View.readAt (Elt F) arg10.view (Rect.unit (s := S32x1x1) (k1_off4 k) S1x1x1.size (k1_off4_inb k)).toLoadRect X_arg10) := by
  unfold tripR_k1_t1
  unfold trip_k1_t1
  dsimp only
  sl_unfold_run_names
  rfl

/-! ## The loop -/

/-- The loop's result at a point: the carried value after all 32 trips, from the zero block, over the point's input blocks. -/
def loop1 (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (n : ℕ) : FVec F S1x2048 .f32 :=
  st_k1_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg8.unread x6) (harg9.unread x7) (harg10.unread x8) (k1_pay2 (F := F)) n

/-! ## What the cases leave -/

theorem sout1_B_0_eq (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    sout1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop1 c i arg2 harg2 arg3 harg3 arg4 harg4 arg5 harg5 arg6 harg6 arg7 harg7 arg8 harg8 arg9 harg9 arg10 harg10 arg11 harg11 arg12 harg12 x0 x1 x2 x3 x4 x5 x6 x7 x8 k1_t1_loop.trips) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun1_B
  dsimp only
  rw [View.canon_unit_zero hz2_1]
  unfold k1_pay4 loop1
  simp only [View.readAt_eq_ld, harg12.read_unread, View.ld_unit_zero (S := S1x2048) hz2_1, shapeCast_self]

theorem sout1_C_0_eq (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop1 c i arg2 harg2 arg3 harg3 arg4 harg4 arg5 harg5 arg6 harg6 arg7 harg7 arg8 harg8 arg9 harg9 arg10 harg10 arg11 harg11 arg12 harg12 x0 x1 x2 x3 x4 x5 x6 x7 x8 k1_t1_loop.trips) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun1_C
  dsimp only
  sl_unfold_words
  rw [View.canon_unit_zero hz2_1]
  unfold k1_pay4 loop1
  simp only [View.readAt_eq_ld, harg12.read_unread, View.ld_unit_zero (S := S1x2048) hz2_1, shapeCast_self]

/-- Where ib = 3 the output block's buffer ends holding the accumulator's new contents. -/
theorem out1_C_9_eq (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : ¬cond1_0 i) (hc1 : cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) (xs0 : Vec F S1x2048 .f32) :
    out1_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = addf xs0 (loop1 c i arg2 harg2 arg3 harg3 arg4 harg4 arg5 harg5 arg6 harg6 arg7 harg7 arg8 harg8 arg9 harg9 arg10 harg10 arg11 harg11 arg12 harg12 x0 x1 x2 x3 x4 x5 x6 x7 x8 k1_t1_loop.trips) := by
  unfold out1_C_9
  rw [View.read_writes_eq_canon _ _ _ (cover1_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun1_C
  dsimp only
  sl_unfold_words
  rw [View.canon_unit_zero hz2_1, View.readCov_unit_zero (S := S1x2048) _ hz2_1]
  unfold k1_pay4 loop1
  simp only [View.readAt_eq_ld, harg12.read_unread, View.ld_unit_zero (S := S1x2048) hz2_1, shapeCast_self]

/-- Where ib = 0 the accumulator is zeroed first. -/
theorem sout1_A_0_eq (c : Dev nD) (i : grid1.Coords) (arg2 : Memref sig .tc .vmem S32x2048 .f32) (harg2 : arg2.IsWhole) (arg3 : Memref sig .tc .vmem S32x1x5 .f32) (harg3 : arg3.IsWhole) (arg4 : Memref sig .tc .vmem S32x1x5 .f32) (harg4 : arg4.IsWhole) (arg5 : Memref sig .tc .vmem S32x5x1x5 .f32) (harg5 : arg5.IsWhole) (arg6 : Memref sig .tc .vmem S32x1x5 .f32) (harg6 : arg6.IsWhole) (arg7 : Memref sig .tc .vmem S32x1x5 .f32) (harg7 : arg7.IsWhole) (arg8 : Memref sig .tc .vmem S32x1x1 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S1x2048 .f32) (harg11 : arg11.IsWhole) (arg12 : Memref sig .tc .vmem S1x2048 .f32) (harg12 : arg12.IsWhole) (hc0 : cond1_0 i) (hc1 : ¬cond1_1 i)
    (x0 : Vec F S32x2048 .f32) (x1 : Vec F S32x1x5 .f32) (x2 : Vec F S32x1x5 .f32) (x3 : Vec F S32x5x1x5 .f32) (x4 : Vec F S32x1x5 .f32) (x5 : Vec F S32x1x5 .f32) (x6 : Vec F S32x1x1 .f32) (x7 : Vec F S32x1x1 .f32) (x8 : Vec F S32x1x1 .f32) :
    sout1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = addf zero1 (loop1 c i arg2 harg2 arg3 harg3 arg4 harg4 arg5 harg5 arg6 harg6 arg7 harg7 arg8 harg8 arg9 harg9 arg10 harg10 arg11 harg11 arg12 harg12 x0 x1 x2 x3 x4 x5 x6 x7 x8 k1_t1_loop.trips) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun1_A
  dsimp only
  sl_unfold_words
  rw [View.canon_cons_unit_zero (S := S1x2048) hz2_1, View.readCov_unit_zero (S := S1x2048) _ hz2_1]
  unfold k1_pay4 loop1
  simp only [View.readAt_eq_ld, View.ld_unit_zero (S := S1x2048) hz2_1, shapeCast_self]

end Cert.KernelIdeal.Hand

end
-- ==== Proof.R1Sum.lean ====
/-
  The second layer's kernel region: what the accumulator holds after each point, as a recursion over the points'
  loop sums — reset to zero plus the point's sum where ib = 0, the previous contents plus the point's sum elsewhere —
  and, where ib = 3, the output block's buffer holding the same.
-/
import proofs.«107607_j19129784336543_2_alg».proof.Proof.R1Val

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The loop's sum at point `t`: over the 32 hidden features of the point's block, from the zero block. -/
def L1 (c : Dev nD) (t : Fin cfg1.N) : FVec F S1x2048 .f32 :=
  loop1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) k1_t1_loop.trips

/-- The second component of a pair that is given by an equation. -/
theorem snd_of_pair1 {α β : Type} {p : α × β} {a : α} {b : β} (h : p = (a, b)) : p.2 = b := h ▸ rfl
/-- The first component of a pair that is given by an equation. -/
theorem fst_of_pair1 {α β : Type} {p : α × β} {a : α} {b : β} (h : p = (a, b)) : p.1 = a := h ▸ rfl

set_option maxHeartbeats 400000 in
theorem outsAt1_snd_A (c : Dev nD) (t : Fin cfg1.N) (h0 : t.val % 4 = 0) (h1 : ¬t.val % 4 = 3) :
    (outsAt1 V c t.val t.isLt).2 = addf zero1 (L1 V c t) :=
  (snd_of_pair1 (outsAt1_A V c t h0 h1)).trans
    (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t))

set_option maxHeartbeats 400000 in
theorem outsAt1_snd_B (c : Dev nD) (t : Fin cfg1.N) (h0 : ¬t.val % 4 = 0) (h1 : ¬t.val % 4 = 3) :
    (outsAt1 V c t.val t.isLt).2 = addf (outsAt1 V c (t.val - 1) (Nat.lt_of_le_of_lt (Nat.sub_le _ _) t.isLt)).2 (L1 V c t) :=
  (snd_of_pair1 (outsAt1_B V c t h0 h1)).trans
    (sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2)

set_option maxHeartbeats 400000 in
theorem outsAt1_snd_C (c : Dev nD) (t : Fin cfg1.N) (h0 : ¬t.val % 4 = 0) (h1 : t.val % 4 = 3) :
    (outsAt1 V c t.val t.isLt).2 = addf (outsAt1 V c (t.val - 1) (Nat.lt_of_le_of_lt (Nat.sub_le _ _) t.isLt)).2 (L1 V c t) :=
  (snd_of_pair1 (outsAt1_C V c t h0 h1)).trans
    (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2)

set_option maxHeartbeats 400000 in
theorem outsAt1_fst_C (c : Dev nD) (t : Fin cfg1.N) (h0 : ¬t.val % 4 = 0) (h1 : t.val % 4 = 3) :
    (outsAt1 V c t.val t.isLt).1 = addf (outsAt1 V c (t.val - 1) (Nat.lt_of_le_of_lt (Nat.sub_le _ _) t.isLt)).2 (L1 V c t) :=
  (fst_of_pair1 (outsAt1_C V c t h0 h1)).trans
    (out1_C_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2)

/-- The accumulator after position `n`. -/
def acc1 (c : Dev nD) : (n : ℕ) → n < cfg1.N → FVec F S1x2048 .f32
  | 0, h => addf zero1 (L1 V c ⟨0, h⟩)
  | n + 1, h => if (n + 1) % 4 = 0 then addf zero1 (L1 V c ⟨n + 1, h⟩) else addf (acc1 c n (Nat.lt_of_succ_lt h)) (L1 V c ⟨n + 1, h⟩)

/-- After every point the accumulator holds `acc1`. -/
theorem outsAt1_snd (c : Dev nD) : ∀ (n : ℕ) (hn : n < cfg1.N), (outsAt1 V c n hn).2 = acc1 V c n hn := by
  intro n
  induction n with
  | zero =>
    intro hn
    exact outsAt1_snd_A V c ⟨0, hn⟩ (Nat.zero_mod _) (by simp)
  | succ n ih =>
    intro hn
    by_cases h0 : (n + 1) % 4 = 0
    · have h1 : ¬(n + 1) % 4 = 3 := by omega
      exact (outsAt1_snd_A V c ⟨n + 1, hn⟩ h0 h1).trans (if_pos h0).symm
    · by_cases h1 : (n + 1) % 4 = 3
      · refine (outsAt1_snd_C V c ⟨n + 1, hn⟩ h0 h1).trans ((congrArg (fun z => addf z (L1 V c ⟨n + 1, hn⟩)) (ih (Nat.lt_of_succ_lt hn))).trans (if_neg h0).symm)
      · refine (outsAt1_snd_B V c ⟨n + 1, hn⟩ h0 h1).trans ((congrArg (fun z => addf z (L1 V c ⟨n + 1, hn⟩)) (ih (Nat.lt_of_succ_lt hn))).trans (if_neg h0).symm)

/-- Where ib = 3 the output block's buffer holds the accumulator's contents. -/
theorem outsAt1_fst (c : Dev nD) (t : Fin cfg1.N) (h1 : t.val % 4 = 3) : (outsAt1 V c t.val t.isLt).1 = acc1 V c t.val t.isLt := by
  have h0 : ¬t.val % 4 = 0 := by omega
  rw [← outsAt1_snd V c t.val t.isLt, outsAt1_fst_C V c t h0 h1, outsAt1_snd_C V c t h0 h1]

end Cert.KernelIdeal.Hand

end
-- ==== Proof.R1Block.lean ====
/-
  The second layer's kernel region: its windows' blocks and the loop's row loads read at an index. Element (k, …) of
  an input window's block at point t = b * 4 + ib is element (ib * 32 + k, …) of the window's array (the input block
  also offsets its batch axis by b * 2048); and the trip-k load of a block is its row k.
-/
import proofs.«107607_j19129784336543_2_alg».proof.Proof.R1Shared
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry F)

/-! ## Where the windows' blocks sit -/

theorem idx1_0 : ∀ t : Fin cfg1.N, win1_0.index t (0 : Fin 2) = t.val % 4 ∧ win1_0.index t (1 : Fin 2) = t.val / 4 :=
  (by decide +kernel : ∀ t : Fin grid1.N, _)
theorem idx1_1 : ∀ t : Fin cfg1.N, win1_1.index t (0 : Fin 3) = t.val % 4 ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val % 4 ∧ win1_2.index t (1 : Fin 3) = 0 ∧ win1_2.index t (2 : Fin 3) = 0 :=
  (by decide +kernel : ∀ t : Fin grid1.N, _)
theorem idx1_3 : ∀ t : Fin cfg1.N, win1_3.index t (0 : Fin 4) = t.val % 4 ∧ win1_3.index t (1 : Fin 4) = 0 ∧ win1_3.index t (2 : Fin 4) = 0 ∧ win1_3.index t (3 : Fin 4) = 0 :=
  (by decide +kernel : ∀ t : Fin grid1.N, _)
theorem idx1_4 : ∀ t : Fin cfg1.N, win1_4.index t (0 : Fin 3) = t.val % 4 ∧ win1_4.index t (1 : Fin 3) = 0 ∧ win1_4.index t (2 : Fin 3) = 0 :=
  (by decide +kernel : ∀ t : Fin grid1.N, _)
theorem idx1_5 : ∀ t : Fin cfg1.N, win1_5.index t (0 : Fin 3) = t.val % 4 ∧ win1_5.index t (1 : Fin 3) = 0 ∧ win1_5.index t (2 : Fin 3) = 0 :=
  (by decide +kernel : ∀ t : Fin grid1.N, _)
theorem idx1_6 : ∀ t : Fin cfg1.N, win1_6.index t (0 : Fin 3) = t.val % 4 ∧ win1_6.index t (1 : Fin 3) = 0 ∧ win1_6.index t (2 : Fin 3) = 0 :=
  (by decide +kernel : ∀ t : Fin grid1.N, _)
theorem idx1_7 : ∀ t : Fin cfg1.N, win1_7.index t (0 : Fin 3) = t.val % 4 ∧ win1_7.index t (1 : Fin 3) = 0 ∧ win1_7.index t (2 : Fin 3) = 0 :=
  (by decide +kernel : ∀ t : Fin grid1.N, _)
theorem idx1_8 : ∀ t : Fin cfg1.N, win1_8.index t (0 : Fin 3) = t.val % 4 ∧ win1_8.index t (1 : Fin 3) = 0 ∧ win1_8.index t (2 : Fin 3) = 0 :=
  (by decide +kernel : ∀ t : Fin grid1.N, _)
theorem idx1_9 : ∀ t : Fin cfg1.N, win1_9.index t (0 : Fin 2) = 0 ∧ win1_9.index t (1 : Fin 2) = t.val / 4 :=
  (by decide +kernel : ∀ t : Fin grid1.N, _)

theorem iblk1_0_apply (c : Dev nD) (t : Fin cfg1.N) (k : Fin 32) (y1 : Fin 2048) (hi : t.val % 4 * 32 + k.val < 128) (hq : t.val / 4 * 2048 + y1.val < 2048) :
    iblk1 V c 0 t (ix2 k y1) = V c main_v10 (ix2 (⟨t.val % 4 * 32 + k.val, hi⟩ : Fin 128) (⟨t.val / 4 * 2048 + y1.val, hq⟩ : Fin 2048)) := by
  show V c main_v10 (((cfg1.win 0).blk t).view.emb (ix2 k y1)) = _
  refine congrArg (V c main_v10) (funext fun a => Fin.ext ?_)
  match a with
  | ⟨0, _⟩ =>
    show win1_0.index t (0 : Fin 2) * 32 + 1 * k.val = t.val % 4 * 32 + k.val
    rw [(idx1_0 t).1]; omega
  | ⟨1, _⟩ =>
    show win1_0.index t (1 : Fin 2) * 2048 + 1 * y1.val = t.val / 4 * 2048 + y1.val
    rw [(idx1_0 t).2]; omega

theorem iblk1_1_apply (c : Dev nD) (t : Fin cfg1.N) (k : Fin 32) (y1 : Fin 1) (y2 : Fin 5) (hi : t.val % 4 * 32 + k.val < 128) :
    iblk1 V c 1 t (ix3 k y1 y2) = V c main_v11 (ix3 (⟨t.val % 4 * 32 + k.val, hi⟩ : Fin 128) y1 y2) := by
  show V c main_v11 (((cfg1.win 1).blk t).view.emb (ix3 k y1 y2)) = _
  refine congrArg (V c main_v11) (funext fun a => Fin.ext ?_)
  match a with
  | ⟨0, _⟩ =>
    show win1_1.index t (0 : Fin 3) * 32 + 1 * k.val = t.val % 4 * 32 + k.val
    rw [(idx1_1 t).1]; omega
  | ⟨1, _⟩ =>
    show win1_1.index t (1 : Fin 3) * 1 + 1 * y1.val = y1.val
    rw [(idx1_1 t).2.1]; omega
  | ⟨2, _⟩ =>
    show win1_1.index t (2 : Fin 3) * 5 + 1 * y2.val = y2.val
    rw [(idx1_1 t).2.2]; omega

theorem iblk1_2_apply (c : Dev nD) (t : Fin cfg1.N) (k : Fin 32) (y1 : Fin 1) (y2 : Fin 5) (hi : t.val % 4 * 32 + k.val < 128) :
    iblk1 V c 2 t (ix3 k y1 y2) = V c main_v12 (ix3 (⟨t.val % 4 * 32 + k.val, hi⟩ : Fin 128) y1 y2) := by
  show V c main_v12 (((cfg1.win 2).blk t).view.emb (ix3 k y1 y2)) = _
  refine congrArg (V c main_v12) (funext fun a => Fin.ext ?_)
  match a with
  | ⟨0, _⟩ =>
    show win1_2.index t (0 : Fin 3) * 32 + 1 * k.val = t.val % 4 * 32 + k.val
    rw [(idx1_2 t).1]; omega
  | ⟨1, _⟩ =>
    show win1_2.index t (1 : Fin 3) * 1 + 1 * y1.val = y1.val
    rw [(idx1_2 t).2.1]; omega
  | ⟨2, _⟩ =>
    show win1_2.index t (2 : Fin 3) * 5 + 1 * y2.val = y2.val
    rw [(idx1_2 t).2.2]; omega

theorem iblk1_3_apply (c : Dev nD) (t : Fin cfg1.N) (k : Fin 32) (y1 : Fin 5) (y2 : Fin 1) (y3 : Fin 5) (hi : t.val % 4 * 32 + k.val < 128) :
    iblk1 V c 3 t (ix4 k y1 y2 y3) = V c main_v14 (ix4 (⟨t.val % 4 * 32 + k.val, hi⟩ : Fin 128) y1 y2 y3) := by
  show V c main_v14 (((cfg1.win 3).blk t).view.emb (ix4 k y1 y2 y3)) = _
  refine congrArg (V c main_v14) (funext fun a => Fin.ext ?_)
  match a with
  | ⟨0, _⟩ =>
    show win1_3.index t (0 : Fin 4) * 32 + 1 * k.val = t.val % 4 * 32 + k.val
    rw [(idx1_3 t).1]; omega
  | ⟨1, _⟩ =>
    show win1_3.index t (1 : Fin 4) * 5 + 1 * y1.val = y1.val
    rw [(idx1_3 t).2.1]; omega
  | ⟨2, _⟩ =>
    show win1_3.index t (2 : Fin 4) * 1 + 1 * y2.val = y2.val
    rw [(idx1_3 t).2.2.1]; omega
  | ⟨3, _⟩ =>
    show win1_3.index t (3 : Fin 4) * 5 + 1 * y3.val = y3.val
    rw [(idx1_3 t).2.2.2]; omega

theorem iblk1_4_apply (c : Dev nD) (t : Fin cfg1.N) (k : Fin 32) (y1 : Fin 1) (y2 : Fin 5) (hi : t.val % 4 * 32 + k.val < 128) :
    iblk1 V c 4 t (ix3 k y1 y2) = V c main_v15 (ix3 (⟨t.val % 4 * 32 + k.val, hi⟩ : Fin 128) y1 y2) := by
  show V c main_v15 (((cfg1.win 4).blk t).view.emb (ix3 k y1 y2)) = _
  refine congrArg (V c main_v15) (funext fun a => Fin.ext ?_)
  match a with
  | ⟨0, _⟩ =>
    show win1_4.index t (0 : Fin 3) * 32 + 1 * k.val = t.val % 4 * 32 + k.val
    rw [(idx1_4 t).1]; omega
  | ⟨1, _⟩ =>
    show win1_4.index t (1 : Fin 3) * 1 + 1 * y1.val = y1.val
    rw [(idx1_4 t).2.1]; omega
  | ⟨2, _⟩ =>
    show win1_4.index t (2 : Fin 3) * 5 + 1 * y2.val = y2.val
    rw [(idx1_4 t).2.2]; omega

theorem iblk1_5_apply (c : Dev nD) (t : Fin cfg1.N) (k : Fin 32) (y1 : Fin 1) (y2 : Fin 5) (hi : t.val % 4 * 32 + k.val < 128) :
    iblk1 V c 5 t (ix3 k y1 y2) = V c main_arg11 (ix3 (⟨t.val % 4 * 32 + k.val, hi⟩ : Fin 128) y1 y2) := by
  show V c main_arg11 (((cfg1.win 5).blk t).view.emb (ix3 k y1 y2)) = _
  refine congrArg (V c main_arg11) (funext fun a => Fin.ext ?_)
  match a with
  | ⟨0, _⟩ =>
    show win1_5.index t (0 : Fin 3) * 32 + 1 * k.val = t.val % 4 * 32 + k.val
    rw [(idx1_5 t).1]; omega
  | ⟨1, _⟩ =>
    show win1_5.index t (1 : Fin 3) * 1 + 1 * y1.val = y1.val
    rw [(idx1_5 t).2.1]; omega
  | ⟨2, _⟩ =>
    show win1_5.index t (2 : Fin 3) * 5 + 1 * y2.val = y2.val
    rw [(idx1_5 t).2.2]; omega

theorem iblk1_6_apply (c : Dev nD) (t : Fin cfg1.N) (k : Fin 32) (y1 : Fin 1) (y2 : Fin 1) (hi : t.val % 4 * 32 + k.val < 128) :
    iblk1 V c 6 t (ix3 k y1 y2) = V c main_arg14 (ix3 (⟨t.val % 4 * 32 + k.val, hi⟩ : Fin 128) y1 y2) := by
  show V c main_arg14 (((cfg1.win 6).blk t).view.emb (ix3 k y1 y2)) = _
  refine congrArg (V c main_arg14) (funext fun a => Fin.ext ?_)
  match a with
  | ⟨0, _⟩ =>
    show win1_6.index t (0 : Fin 3) * 32 + 1 * k.val = t.val % 4 * 32 + k.val
    rw [(idx1_6 t).1]; omega
  | ⟨1, _⟩ =>
    show win1_6.index t (1 : Fin 3) * 1 + 1 * y1.val = y1.val
    rw [(idx1_6 t).2.1]; omega
  | ⟨2, _⟩ =>
    show win1_6.index t (2 : Fin 3) * 1 + 1 * y2.val = y2.val
    rw [(idx1_6 t).2.2]; omega

theorem iblk1_7_apply (c : Dev nD) (t : Fin cfg1.N) (k : Fin 32) (y1 : Fin 1) (y2 : Fin 1) (hi : t.val % 4 * 32 + k.val < 128) :
    iblk1 V c 7 t (ix3 k y1 y2) = V c main_arg15 (ix3 (⟨t.val % 4 * 32 + k.val, hi⟩ : Fin 128) y1 y2) := by
  show V c main_arg15 (((cfg1.win 7).blk t).view.emb (ix3 k y1 y2)) = _
  refine congrArg (V c main_arg15) (funext fun a => Fin.ext ?_)
  match a with
  | ⟨0, _⟩ =>
    show win1_7.index t (0 : Fin 3) * 32 + 1 * k.val = t.val % 4 * 32 + k.val
    rw [(idx1_7 t).1]; omega
  | ⟨1, _⟩ =>
    show win1_7.index t (1 : Fin 3) * 1 + 1 * y1.val = y1.val
    rw [(idx1_7 t).2.1]; omega
  | ⟨2, _⟩ =>
    show win1_7.index t (2 : Fin 3) * 1 + 1 * y2.val = y2.val
    rw [(idx1_7 t).2.2]; omega

theorem iblk1_8_apply (c : Dev nD) (t : Fin cfg1.N) (k : Fin 32) (y1 : Fin 1) (y2 : Fin 1) (hi : t.val % 4 * 32 + k.val < 128) :
    iblk1 V c 8 t (ix3 k y1 y2) = V c main_arg16 (ix3 (⟨t.val % 4 * 32 + k.val, hi⟩ : Fin 128) y1 y2) := by
  show V c main_arg16 (((cfg1.win 8).blk t).view.emb (ix3 k y1 y2)) = _
  refine congrArg (V c main_arg16) (funext fun a => Fin.ext ?_)
  match a with
  | ⟨0, _⟩ =>
    show win1_8.index t (0 : Fin 3) * 32 + 1 * k.val = t.val % 4 * 32 + k.val
    rw [(idx1_8 t).1]; omega
  | ⟨1, _⟩ =>
    show win1_8.index t (1 : Fin 3) * 1 + 1 * y1.val = y1.val
    rw [(idx1_8 t).2.1]; omega
  | ⟨2, _⟩ =>
    show win1_8.index t (2 : Fin 3) * 1 + 1 * y2.val = y2.val
    rw [(idx1_8 t).2.2]; omega

/-! ## The trips' row loads -/

theorem row1_0_apply (arg2 : Memref sig .tc .vmem S32x2048 .f32) (harg2 : arg2.IsWhole) (x : Vec F S32x2048 .f32)
    (k : Fin k1_t1_loop.trips) (hk : k.val < 32) (y1 : Fin 2048) :
    View.readAt (Elt F) arg2.view (Rect.unit (s := S32x2048) (k1_off1 k) S1x2048.size (k1_off1_inb k)).toLoadRect (harg2.unread x) (ix2 (0 : Fin 1) y1)
      = x (ix2 (⟨k.val, hk⟩ : Fin 32) y1) := by
  rw [View.readAt_eq_ld, harg2.read_unread]
  show x ((Rect.unit (s := S32x2048) (k1_off1 k) S1x2048.size (k1_off1_inb k)).emb (ix2 (0 : Fin 1) y1)) = _
  refine congrArg x (funext fun a => Fin.ext ?_)
  rw [Rect.emb_apply]
  match a with
  | ⟨0, _⟩ => show k1_off1 k (0 : Fin 2) + 1 * 0 = k.val; rw [k1_off1_eq k]; rfl
  | ⟨1, _⟩ => show k1_off1 k (1 : Fin 2) + 1 * y1.val = y1.val; rw [k1_off1_eq k]; show 0 + 1 * y1.val = y1.val; omega

theorem row1_1_apply (arg3 : Memref sig .tc .vmem S32x1x5 .f32) (harg3 : arg3.IsWhole) (x : Vec F S32x1x5 .f32)
    (k : Fin k1_t1_loop.trips) (hk : k.val < 32) (y1 : Fin 1) (y2 : Fin 5) :
    View.readAt (Elt F) arg3.view (Rect.unit (s := S32x1x5) (k1_off2 k) S1x1x5.size (k1_off2_inb k)).toLoadRect (harg3.unread x) (ix3 (0 : Fin 1) y1 y2)
      = x (ix3 (⟨k.val, hk⟩ : Fin 32) y1 y2) := by
  rw [View.readAt_eq_ld, harg3.read_unread]
  show x ((Rect.unit (s := S32x1x5) (k1_off2 k) S1x1x5.size (k1_off2_inb k)).emb (ix3 (0 : Fin 1) y1 y2)) = _
  refine congrArg x (funext fun a => Fin.ext ?_)
  rw [Rect.emb_apply]
  match a with
  | ⟨0, _⟩ => show k1_off2 k (0 : Fin 3) + 1 * 0 = k.val; rw [k1_off2_eq k]; rfl
  | ⟨1, _⟩ => show k1_off2 k (1 : Fin 3) + 1 * y1.val = y1.val; rw [k1_off2_eq k]; show 0 + 1 * y1.val = y1.val; omega
  | ⟨2, _⟩ => show k1_off2 k (2 : Fin 3) + 1 * y2.val = y2.val; rw [k1_off2_eq k]; show 0 + 1 * y2.val = y2.val; omega

theorem row1_2_apply (arg4 : Memref sig .tc .vmem S32x1x5 .f32) (harg4 : arg4.IsWhole) (x : Vec F S32x1x5 .f32)
    (k : Fin k1_t1_loop.trips) (hk : k.val < 32) (y1 : Fin 1) (y2 : Fin 5) :
    View.readAt (Elt F) arg4.view (Rect.unit (s := S32x1x5) (k1_off2 k) S1x1x5.size (k1_off2_inb k)).toLoadRect (harg4.unread x) (ix3 (0 : Fin 1) y1 y2)
      = x (ix3 (⟨k.val, hk⟩ : Fin 32) y1 y2) := by
  rw [View.readAt_eq_ld, harg4.read_unread]
  show x ((Rect.unit (s := S32x1x5) (k1_off2 k) S1x1x5.size (k1_off2_inb k)).emb (ix3 (0 : Fin 1) y1 y2)) = _
  refine congrArg x (funext fun a => Fin.ext ?_)
  rw [Rect.emb_apply]
  match a with
  | ⟨0, _⟩ => show k1_off2 k (0 : Fin 3) + 1 * 0 = k.val; rw [k1_off2_eq k]; rfl
  | ⟨1, _⟩ => show k1_off2 k (1 : Fin 3) + 1 * y1.val = y1.val; rw [k1_off2_eq k]; show 0 + 1 * y1.val = y1.val; omega
  | ⟨2, _⟩ => show k1_off2 k (2 : Fin 3) + 1 * y2.val = y2.val; rw [k1_off2_eq k]; show 0 + 1 * y2.val = y2.val; omega

theorem row1_3_apply (arg5 : Memref sig .tc .vmem S32x5x1x5 .f32) (harg5 : arg5.IsWhole) (x : Vec F S32x5x1x5 .f32)
    (k : Fin k1_t1_loop.trips) (hk : k.val < 32) (y1 : Fin 5) (y2 : Fin 1) (y3 : Fin 5) :
    View.readAt (Elt F) arg5.view (Rect.unit (s := S32x5x1x5) (k1_off3 k) S1x5x1x5.size (k1_off3_inb k)).toLoadRect (harg5.unread x) (ix4 (0 : Fin 1) y1 y2 y3)
      = x (ix4 (⟨k.val, hk⟩ : Fin 32) y1 y2 y3) := by
  rw [View.readAt_eq_ld, harg5.read_unread]
  show x ((Rect.unit (s := S32x5x1x5) (k1_off3 k) S1x5x1x5.size (k1_off3_inb k)).emb (ix4 (0 : Fin 1) y1 y2 y3)) = _
  refine congrArg x (funext fun a => Fin.ext ?_)
  rw [Rect.emb_apply]
  match a with
  | ⟨0, _⟩ => show k1_off3 k (0 : Fin 4) + 1 * 0 = k.val; rw [k1_off3_eq k]; rfl
  | ⟨1, _⟩ => show k1_off3 k (1 : Fin 4) + 1 * y1.val = y1.val; rw [k1_off3_eq k]; show 0 + 1 * y1.val = y1.val; omega
  | ⟨2, _⟩ => show k1_off3 k (2 : Fin 4) + 1 * y2.val = y2.val; rw [k1_off3_eq k]; show 0 + 1 * y2.val = y2.val; omega
  | ⟨3, _⟩ => show k1_off3 k (3 : Fin 4) + 1 * y3.val = y3.val; rw [k1_off3_eq k]; show 0 + 1 * y3.val = y3.val; omega

theorem row1_4_apply (arg6 : Memref sig .tc .vmem S32x1x5 .f32) (harg6 : arg6.IsWhole) (x : Vec F S32x1x5 .f32)
    (k : Fin k1_t1_loop.trips) (hk : k.val < 32) (y1 : Fin 1) (y2 : Fin 5) :
    View.readAt (Elt F) arg6.view (Rect.unit (s := S32x1x5) (k1_off2 k) S1x1x5.size (k1_off2_inb k)).toLoadRect (harg6.unread x) (ix3 (0 : Fin 1) y1 y2)
      = x (ix3 (⟨k.val, hk⟩ : Fin 32) y1 y2) := by
  rw [View.readAt_eq_ld, harg6.read_unread]
  show x ((Rect.unit (s := S32x1x5) (k1_off2 k) S1x1x5.size (k1_off2_inb k)).emb (ix3 (0 : Fin 1) y1 y2)) = _
  refine congrArg x (funext fun a => Fin.ext ?_)
  rw [Rect.emb_apply]
  match a with
  | ⟨0, _⟩ => show k1_off2 k (0 : Fin 3) + 1 * 0 = k.val; rw [k1_off2_eq k]; rfl
  | ⟨1, _⟩ => show k1_off2 k (1 : Fin 3) + 1 * y1.val = y1.val; rw [k1_off2_eq k]; show 0 + 1 * y1.val = y1.val; omega
  | ⟨2, _⟩ => show k1_off2 k (2 : Fin 3) + 1 * y2.val = y2.val; rw [k1_off2_eq k]; show 0 + 1 * y2.val = y2.val; omega

theorem row1_5_apply (arg7 : Memref sig .tc .vmem S32x1x5 .f32) (harg7 : arg7.IsWhole) (x : Vec F S32x1x5 .f32)
    (k : Fin k1_t1_loop.trips) (hk : k.val < 32) (y1 : Fin 1) (y2 : Fin 5) :
    View.readAt (Elt F) arg7.view (Rect.unit (s := S32x1x5) (k1_off2 k) S1x1x5.size (k1_off2_inb k)).toLoadRect (harg7.unread x) (ix3 (0 : Fin 1) y1 y2)
      = x (ix3 (⟨k.val, hk⟩ : Fin 32) y1 y2) := by
  rw [View.readAt_eq_ld, harg7.read_unread]
  show x ((Rect.unit (s := S32x1x5) (k1_off2 k) S1x1x5.size (k1_off2_inb k)).emb (ix3 (0 : Fin 1) y1 y2)) = _
  refine congrArg x (funext fun a => Fin.ext ?_)
  rw [Rect.emb_apply]
  match a with
  | ⟨0, _⟩ => show k1_off2 k (0 : Fin 3) + 1 * 0 = k.val; rw [k1_off2_eq k]; rfl
  | ⟨1, _⟩ => show k1_off2 k (1 : Fin 3) + 1 * y1.val = y1.val; rw [k1_off2_eq k]; show 0 + 1 * y1.val = y1.val; omega
  | ⟨2, _⟩ => show k1_off2 k (2 : Fin 3) + 1 * y2.val = y2.val; rw [k1_off2_eq k]; show 0 + 1 * y2.val = y2.val; omega

theorem row1_6_apply (arg8 : Memref sig .tc .vmem S32x1x1 .f32) (harg8 : arg8.IsWhole) (x : Vec F S32x1x1 .f32)
    (k : Fin k1_t1_loop.trips) (hk : k.val < 32) (y1 : Fin 1) (y2 : Fin 1) :
    View.readAt (Elt F) arg8.view (Rect.unit (s := S32x1x1) (k1_off4 k) S1x1x1.size (k1_off4_inb k)).toLoadRect (harg8.unread x) (ix3 (0 : Fin 1) y1 y2)
      = x (ix3 (⟨k.val, hk⟩ : Fin 32) y1 y2) := by
  rw [View.readAt_eq_ld, harg8.read_unread]
  show x ((Rect.unit (s := S32x1x1) (k1_off4 k) S1x1x1.size (k1_off4_inb k)).emb (ix3 (0 : Fin 1) y1 y2)) = _
  refine congrArg x (funext fun a => Fin.ext ?_)
  rw [Rect.emb_apply]
  match a with
  | ⟨0, _⟩ => show k1_off4 k (0 : Fin 3) + 1 * 0 = k.val; rw [k1_off4_eq k]; rfl
  | ⟨1, _⟩ => show k1_off4 k (1 : Fin 3) + 1 * y1.val = y1.val; rw [k1_off4_eq k]; show 0 + 1 * y1.val = y1.val; omega
  | ⟨2, _⟩ => show k1_off4 k (2 : Fin 3) + 1 * y2.val = y2.val; rw [k1_off4_eq k]; show 0 + 1 * y2.val = y2.val; omega

theorem row1_7_apply (arg9 : Memref sig .tc .vmem S32x1x1 .f32) (harg9 : arg9.IsWhole) (x : Vec F S32x1x1 .f32)
    (k : Fin k1_t1_loop.trips) (hk : k.val < 32) (y1 : Fin 1) (y2 : Fin 1) :
    View.readAt (Elt F) arg9.view (Rect.unit (s := S32x1x1) (k1_off4 k) S1x1x1.size (k1_off4_inb k)).toLoadRect (harg9.unread x) (ix3 (0 : Fin 1) y1 y2)
      = x (ix3 (⟨k.val, hk⟩ : Fin 32) y1 y2) := by
  rw [View.readAt_eq_ld, harg9.read_unread]
  show x ((Rect.unit (s := S32x1x1) (k1_off4 k) S1x1x1.size (k1_off4_inb k)).emb (ix3 (0 : Fin 1) y1 y2)) = _
  refine congrArg x (funext fun a => Fin.ext ?_)
  rw [Rect.emb_apply]
  match a with
  | ⟨0, _⟩ => show k1_off4 k (0 : Fin 3) + 1 * 0 = k.val; rw [k1_off4_eq k]; rfl
  | ⟨1, _⟩ => show k1_off4 k (1 : Fin 3) + 1 * y1.val = y1.val; rw [k1_off4_eq k]; show 0 + 1 * y1.val = y1.val; omega
  | ⟨2, _⟩ => show k1_off4 k (2 : Fin 3) + 1 * y2.val = y2.val; rw [k1_off4_eq k]; show 0 + 1 * y2.val = y2.val; omega

theorem row1_8_apply (arg10 : Memref sig .tc .vmem S32x1x1 .f32) (harg10 : arg10.IsWhole) (x : Vec F S32x1x1 .f32)
    (k : Fin k1_t1_loop.trips) (hk : k.val < 32) (y1 : Fin 1) (y2 : Fin 1) :
    View.readAt (Elt F) arg10.view (Rect.unit (s := S32x1x1) (k1_off4 k) S1x1x1.size (k1_off4_inb k)).toLoadRect (harg10.unread x) (ix3 (0 : Fin 1) y1 y2)
      = x (ix3 (⟨k.val, hk⟩ : Fin 32) y1 y2) := by
  rw [View.readAt_eq_ld, harg10.read_unread]
  show x ((Rect.unit (s := S32x1x1) (k1_off4 k) S1x1x1.size (k1_off4_inb k)).emb (ix3 (0 : Fin 1) y1 y2)) = _
  refine congrArg x (funext fun a => Fin.ext ?_)
  rw [Rect.emb_apply]
  match a with
  | ⟨0, _⟩ => show k1_off4 k (0 : Fin 3) + 1 * 0 = k.val; rw [k1_off4_eq k]; rfl
  | ⟨1, _⟩ => show k1_off4 k (1 : Fin 3) + 1 * y1.val = y1.val; rw [k1_off4_eq k]; show 0 + 1 * y1.val = y1.val; omega
  | ⟨2, _⟩ => show k1_off4 k (2 : Fin 3) + 1 * y2.val = y2.val; rw [k1_off4_eq k]; show 0 + 1 * y2.val = y2.val; omega

end Cert.KernelIdeal.Hand

end
-- ==== Proof.TripMath1Pay.lean ====
/-
  Each pure value of one trip of the second layer's loop, read at the one output feature and batch lane b.

  The second layer has one output, so the tiles are [1, 2048]: row 0 is the output, lane b a batch position, and a
  parameter enters as the one entry of a [1, 5] (or [5, 1, 5]) row spread along the lanes. The values are those of the
  first layer's trip: five first-layer units, five second-layer units accumulated from the bias left to right, the
  read-out, the scale and the skip term added to the accumulator.
-/
import proofs.«107607_j19129784336543_2_alg».proof.Proof.Gen.KernelIdeal.Skeleton
import proofs.«107607_j19129784336543_2_alg».proof.Proof.Spec
import proofs.«107607_j19129784336543_2_alg».proof.Proof.TripMath0Cols

noncomputable section

namespace Cert.KernelIdeal.Val1

open Idealize.ShloMosaic Idealize.ShloMosaic.ValueIdx
open Cert.KernelIdeal Cert.KernelIdeal.Gen Cert.KernelIdeal.Val

theorem logistic_apply {s : Shape} {φ : FTy} (a : FVec Ideal s φ) (i : s.Idx) : logistic a i = Ideal.logistic (a i) := rfl

/-! ## The rows as the trip loads them -/

theorem pay5_at (v15 : Vec Ideal S1x2048 .f32) (j : Fin 1) (b : Fin 2048) :
    k1_pay5 (F := Ideal) v15 (ix2 j b) = v15 (ix2 (0 : Fin 1) b) := by
  unfold k1_pay5
  simp only [shapeCast_a_1a_apply, shapeCast_1a_a_apply]

theorem pay6_at (v : Vec Ideal S1x1x5 .f32) (j : Fin 1) (k : Fin 5) :
    k1_pay6 (F := Ideal) v (ix2 j k) = v (ix3 (0 : Fin 1) j k) := by
  unfold k1_pay6
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay7_at (v : Vec Ideal S1x1x5 .f32) (j : Fin 1) (k : Fin 5) :
    k1_pay7 (F := Ideal) v (ix2 j k) = v (ix3 (0 : Fin 1) j k) := by
  unfold k1_pay7
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay15_at (v : Vec Ideal S1x1x5 .f32) (j : Fin 1) (k : Fin 5) :
    k1_pay15 (F := Ideal) v (ix2 j k) = v (ix3 (0 : Fin 1) j k) := by
  unfold k1_pay15
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay14_at (v95 : Vec Ideal S1x5x1x5 .f32) (m : Fin 5) (j : Fin 1) (c : Fin 5) :
    k1_pay14 (F := Ideal) v95 (ix3 m j c) = v95 (ix4 (0 : Fin 1) m j c) := by
  unfold k1_pay14
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

/-! ## The five first-layer units -/

theorem pay8_at (v15 : Vec Ideal S1x2048 .f32) (v19 v22 : Vec Ideal S1x1x5 .f32) (j : Fin 1) (b : Fin 2048) :
    k1_pay8 (F := Ideal) v15 v19 v22 (ix2 j b)
      = Cert.Spec.silu (v19 (ix3 (0 : Fin 1) j (0 : Fin 5)) * v15 (ix2 (0 : Fin 1) b) + v22 (ix3 (0 : Fin 1) j (0 : Fin 5))) := by
  unfold k1_pay8
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay9_at (v15 : Vec Ideal S1x2048 .f32) (v19 v22 : Vec Ideal S1x1x5 .f32) (j : Fin 1) (b : Fin 2048) :
    k1_pay9 (F := Ideal) v15 v19 v22 (ix2 j b)
      = Cert.Spec.silu (v19 (ix3 (0 : Fin 1) j (1 : Fin 5)) * v15 (ix2 (0 : Fin 1) b) + v22 (ix3 (0 : Fin 1) j (1 : Fin 5))) := by
  unfold k1_pay9
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay10_at (v15 : Vec Ideal S1x2048 .f32) (v19 v22 : Vec Ideal S1x1x5 .f32) (j : Fin 1) (b : Fin 2048) :
    k1_pay10 (F := Ideal) v15 v19 v22 (ix2 j b)
      = Cert.Spec.silu (v19 (ix3 (0 : Fin 1) j (2 : Fin 5)) * v15 (ix2 (0 : Fin 1) b) + v22 (ix3 (0 : Fin 1) j (2 : Fin 5))) := by
  unfold k1_pay10
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay5_at, pay6_at, pay7_at]
  rfl

theorem pay11_at (v19 : Vec Ideal S1x1x5 .f32) (j : Fin 1) :
    k1_pay11 (F := Ideal) v19 (ix1 j) = v19 (ix3 (0 : Fin 1) j (3 : Fin 5)) := by
  unfold k1_pay11
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay6_at]

theorem pay12_at (v17 : FVec Ideal S1x2048 .f32) (v23 : FVec Ideal S1x5 .f32) (v67 : FVec Ideal S1 .f32) (j : Fin 1) (b : Fin 2048) :
    k1_pay12 (F := Ideal) v17 v23 v67 (ix2 j b)
      = Cert.Spec.silu (v67 (ix1 j) * v17 (ix2 j b) + v23 (ix2 j (3 : Fin 5))) := by
  unfold k1_pay12
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay13_at (v17 : FVec Ideal S1x2048 .f32) (v20 v23 : FVec Ideal S1x5 .f32) (j : Fin 1) (b : Fin 2048) :
    k1_pay13 (F := Ideal) v17 v20 v23 (ix2 j b)
      = Cert.Spec.silu (v20 (ix2 j (4 : Fin 5)) * v17 (ix2 j b) + v23 (ix2 j (4 : Fin 5))) := by
  unfold k1_pay13
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

/-! ## The five second-layer units: pre-activations accumulated from the bias, left to right -/

theorem pay16_at (v37 v51 : FVec Ideal S1x2048 .f32) (v95 : Vec Ideal S1x5x1x5 .f32) (v98 : Vec Ideal S1x1x5 .f32) (j : Fin 1) (b : Fin 2048) :
    k1_pay16 (F := Ideal) v37 v51 v95 v98 (ix2 j b)
      = v98 (ix3 (0 : Fin 1) j (0 : Fin 5)) + v95 (ix4 (0 : Fin 1) (0 : Fin 5) j (0 : Fin 5)) * v37 (ix2 j b)
        + v95 (ix4 (0 : Fin 1) (1 : Fin 5) j (0 : Fin 5)) * v51 (ix2 j b) := by
  unfold k1_pay16
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay14_at, pay15_at]

theorem pay17_at (v95 : Vec Ideal S1x5x1x5 .f32) (j : Fin 1) (z : Fin 1) :
    k1_pay17 (F := Ideal) v95 (ix2 j z) = v95 (ix4 (0 : Fin 1) (2 : Fin 5) j (0 : Fin 5)) := by
  unfold k1_pay17
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4, pay14_at]

theorem pay18_at (v65 v79 v93 : FVec Ideal S1x2048 .f32) (v96 : FVec Ideal S5x1x5 .f32) (v118 : FVec Ideal S1x2048 .f32) (v122 : FVec Ideal S1x1 .f32) (j : Fin 1) (b : Fin 2048) :
    k1_pay18 (F := Ideal) v65 v79 v93 v96 v118 v122 (ix2 j b)
      = Cert.Spec.silu (v118 (ix2 j b) + v122 (ix2 j (0 : Fin 1)) * v65 (ix2 j b) + v96 (ix3 (3 : Fin 5) j (0 : Fin 5)) * v79 (ix2 j b)
          + v96 (ix3 (4 : Fin 5) j (0 : Fin 5)) * v93 (ix2 j b)) := by
  unfold k1_pay18
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay19_at (v37 v51 v65 v79 v93 : FVec Ideal S1x2048 .f32) (v96 : FVec Ideal S5x1x5 .f32) (v99 : FVec Ideal S1x5 .f32) (j : Fin 1) (b : Fin 2048) :
    k1_pay19 (F := Ideal) v37 v51 v65 v79 v93 v96 v99 (ix2 j b)
      = v99 (ix2 j (1 : Fin 5)) + v96 (ix3 (0 : Fin 5) j (1 : Fin 5)) * v37 (ix2 j b) + v96 (ix3 (1 : Fin 5) j (1 : Fin 5)) * v51 (ix2 j b) + v96 (ix3 (2 : Fin 5) j (1 : Fin 5)) * v65 (ix2 j b)
        + v96 (ix3 (3 : Fin 5) j (1 : Fin 5)) * v79 (ix2 j b) + v96 (ix3 (4 : Fin 5) j (1 : Fin 5)) * v93 (ix2 j b) := by
  unfold k1_pay19
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay20_at (v37 v51 v65 v79 v93 : FVec Ideal S1x2048 .f32) (v96 : FVec Ideal S5x1x5 .f32) (v99 : FVec Ideal S1x5 .f32) (j : Fin 1) (b : Fin 2048) :
    k1_pay20 (F := Ideal) v37 v51 v65 v79 v93 v96 v99 (ix2 j b)
      = Ideal.logistic (k1_pay19 (F := Ideal) v37 v51 v65 v79 v93 v96 v99 (ix2 j b)) := by
  unfold k1_pay20
  simp only [logistic_apply]

theorem pay21_at (v181 v182 : FVec Ideal S1x2048 .f32) (j : Fin 1) (b : Fin 2048) :
    k1_pay21 (F := Ideal) v181 v182 (ix2 j b) = v181 (ix2 j b) * v182 (ix2 j b) := by
  unfold k1_pay21
  simp only [mulf_apply]

theorem pay22_at (v37 v51 v65 v79 v93 : FVec Ideal S1x2048 .f32) (v96 : FVec Ideal S5x1x5 .f32) (v99 : FVec Ideal S1x5 .f32) (j : Fin 1) (b : Fin 2048) :
    k1_pay22 (F := Ideal) v37 v51 v65 v79 v93 v96 v99 (ix2 j b)
      = Cert.Spec.silu (v99 (ix2 j (2 : Fin 5)) + v96 (ix3 (0 : Fin 5) j (2 : Fin 5)) * v37 (ix2 j b) + v96 (ix3 (1 : Fin 5) j (2 : Fin 5)) * v51 (ix2 j b) + v96 (ix3 (2 : Fin 5) j (2 : Fin 5)) * v65 (ix2 j b)
          + v96 (ix3 (3 : Fin 5) j (2 : Fin 5)) * v79 (ix2 j b) + v96 (ix3 (4 : Fin 5) j (2 : Fin 5)) * v93 (ix2 j b)) := by
  unfold k1_pay22
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay23_at (v37 : FVec Ideal S1x2048 .f32) (v96 : FVec Ideal S5x1x5 .f32) (v99 : FVec Ideal S1x5 .f32) (j : Fin 1) (b : Fin 2048) :
    k1_pay23 (F := Ideal) v37 v96 v99 (ix2 j b) = v99 (ix2 j (3 : Fin 5)) + v96 (ix3 (0 : Fin 5) j (3 : Fin 5)) * v37 (ix2 j b) := by
  unfold k1_pay23
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay24_at (v96 : FVec Ideal S5x1x5 .f32) (j : Fin 1) (b : Fin 2048) :
    k1_pay24 (F := Ideal) v96 (ix2 j b) = v96 (ix3 (1 : Fin 5) j (3 : Fin 5)) := by
  unfold k1_pay24
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay25_at (v51 v65 v79 v93 : FVec Ideal S1x2048 .f32) (v96 : FVec Ideal S5x1x5 .f32) (v237 v242 : FVec Ideal S1x2048 .f32) (j : Fin 1) (b : Fin 2048) :
    k1_pay25 (F := Ideal) v51 v65 v79 v93 v96 v237 v242 (ix2 j b)
      = Cert.Spec.silu (v237 (ix2 j b) + v242 (ix2 j b) * v51 (ix2 j b) + v96 (ix3 (2 : Fin 5) j (3 : Fin 5)) * v65 (ix2 j b) + v96 (ix3 (3 : Fin 5) j (3 : Fin 5)) * v79 (ix2 j b)
          + v96 (ix3 (4 : Fin 5) j (3 : Fin 5)) * v93 (ix2 j b)) := by
  unfold k1_pay25
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay26_at (v37 v51 v65 v79 : FVec Ideal S1x2048 .f32) (v96 : FVec Ideal S5x1x5 .f32) (v99 : FVec Ideal S1x5 .f32) (j : Fin 1) (b : Fin 2048) :
    k1_pay26 (F := Ideal) v37 v51 v65 v79 v96 v99 (ix2 j b)
      = v99 (ix2 j (4 : Fin 5)) + v96 (ix3 (0 : Fin 5) j (4 : Fin 5)) * v37 (ix2 j b) + v96 (ix3 (1 : Fin 5) j (4 : Fin 5)) * v51 (ix2 j b) + v96 (ix3 (2 : Fin 5) j (4 : Fin 5)) * v65 (ix2 j b)
        + v96 (ix3 (3 : Fin 5) j (4 : Fin 5)) * v79 (ix2 j b) := by
  unfold k1_pay26
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay27_at (v96 : FVec Ideal S5x1x5 .f32) (j : Fin 1) :
    k1_pay27 (F := Ideal) v96 (ix1 j) = v96 (ix3 (4 : Fin 5) j (4 : Fin 5)) := by
  unfold k1_pay27
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

/-! ## The read-out, and the trip's result -/

theorem pay28_at (v93 v141 v183 v225 v267 v300 : FVec Ideal S1x2048 .f32) (v302 : FVec Ideal S1 .f32) (v311 : Vec Ideal S1x1x5 .f32)
    (v314 : Vec Ideal S1x1x1 .f32) (j : Fin 1) (b : Fin 2048) :
    k1_pay28 (F := Ideal) v93 v141 v183 v225 v267 v300 v302 v311 v314 (ix2 j b)
      = v314 (ix3 (0 : Fin 1) j (0 : Fin 1)) + v311 (ix3 (0 : Fin 1) j (0 : Fin 5)) * v141 (ix2 j b) + v311 (ix3 (0 : Fin 1) j (1 : Fin 5)) * v183 (ix2 j b)
        + v311 (ix3 (0 : Fin 1) j (2 : Fin 5)) * v225 (ix2 j b) + v311 (ix3 (0 : Fin 1) j (3 : Fin 5)) * v267 (ix2 j b)
        + v311 (ix3 (0 : Fin 1) j (4 : Fin 5)) * Cert.Spec.silu (v300 (ix2 j b) + v302 (ix1 j) * v93 (ix2 j b)) := by
  unfold k1_pay28
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]
  rfl

theorem pay29_at (v354 : Vec Ideal S1x1x1 .f32) (j : Fin 1) (z : Fin 1) :
    k1_pay29 (F := Ideal) v354 (ix2 j z) = v354 (ix3 (0 : Fin 1) j z) := by
  unfold k1_pay29
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

theorem pay3_at (arg14 v17 v352 : FVec Ideal S1x2048 .f32) (v356 : FVec Ideal S1x1 .f32) (v359 : Vec Ideal S1x1x1 .f32) (j : Fin 1) (b : Fin 2048) :
    k1_pay3 (F := Ideal) arg14 v17 v352 v356 v359 (ix2 j b)
      = arg14 (ix2 j b) + (v352 (ix2 j b) * v356 (ix2 j (0 : Fin 1)) + v17 (ix2 j b) * v359 (ix3 (0 : Fin 1) j (0 : Fin 1))) := by
  unfold k1_pay3
  simp only [mulf_apply, addf_apply, logistic_apply, bcol_apply, shapeCast_self, cast_a_a1_apply, cast_a1_a_apply, cast_1a1_a_apply, shapeCast_1ab_ab_apply, shapeCast_1abc_abc_apply, sl2_0, sl2_1, sl2_2, sl2_3, sl2_4, sl3_0_0, sl3_0_1, sl3_0_2, sl3_0_3, sl3_0_4, sl3_1_0, sl3_1_1, sl3_1_2, sl3_1_3, sl3_1_4, sl3_2_0, sl3_2_1, sl3_2_2, sl3_2_3, sl3_2_4, sl3_3_0, sl3_3_1, sl3_3_2, sl3_3_3, sl3_3_4, sl3_4_0, sl3_4_1, sl3_4_2, sl3_4_3, sl3_4_4]

end Cert.KernelIdeal.Val1

end
-- ==== Proof.TripMath1.lean ====
/-
  One trip of the second layer's loop adds one sub-network to the accumulator.

  Trip t of the loop over the block of first-layer outputs reads row t of that block and of the eight parameter blocks
  and returns the accumulator plus, at batch lane b, the 1-5-5-1 perceptron of the specification with the parameters the
  rows hold, applied to the row's entry at b. As in the first layer the kernel adds each bias first and then the five
  products from left to right: the two orders agree by commutativity and associativity of addition on the extended reals.
-/
import proofs.«107607_j19129784336543_2_alg».proof.Proof.TripTerm1
import proofs.«107607_j19129784336543_2_alg».proof.Proof.TripMath1Pay

noncomputable section

open scoped BigOperators

namespace Cert.KernelIdeal.Val

open Idealize.ShloMosaic Idealize.ShloMosaic.ValueIdx
open Cert.KernelIdeal Cert.KernelIdeal.Gen

/-- Five terms and a bias: the sum plus the bias is the bias with the terms added one after the other. -/
theorem sum5_bias' (f : Fin 5 → EReal) (b : EReal) :
    (∑ k : Fin 5, f k) + b = b + f 0 + f 1 + f 2 + f 3 + f 4 := by
  rw [Fin.sum_univ_five]
  ac_rfl

/-- z · logistic z is silu z. -/
theorem mul_logistic (z : EReal) : z * Ideal.logistic z = Cert.Spec.silu z := rfl

theorem tripTerm1_apply (acc : FVec Ideal S1x2048 .f32) (v2 : Vec Ideal S1x2048 .f32) (v3 v4 : Vec Ideal S1x1x5 .f32)
    (v5 : Vec Ideal S1x5x1x5 .f32) (v6 v7 : Vec Ideal S1x1x5 .f32) (v8 v9 v10 : Vec Ideal S1x1x1 .f32) (b : Fin 2048) :
    tripTerm1 (F := Ideal) acc v2 v3 v4 v5 v6 v7 v8 v9 v10 (ix2 (0 : Fin 1) b)
      = acc (ix2 (0 : Fin 1) b) + Cert.Spec.net (fun k => v3 (ix3 (0 : Fin 1) (0 : Fin 1) k))
          (fun k => v4 (ix3 (0 : Fin 1) (0 : Fin 1) k)) (fun m k => v5 (ix4 (0 : Fin 1) k (0 : Fin 1) m))
          (fun m => v6 (ix3 (0 : Fin 1) (0 : Fin 1) m)) (fun m => v7 (ix3 (0 : Fin 1) (0 : Fin 1) m))
          (v8 (ix3 (0 : Fin 1) (0 : Fin 1) (0 : Fin 1))) (v9 (ix3 (0 : Fin 1) (0 : Fin 1) (0 : Fin 1)))
          (v10 (ix3 (0 : Fin 1) (0 : Fin 1) (0 : Fin 1))) (v2 (ix2 (0 : Fin 1) b)) := by
  unfold tripTerm1
  simp only [Val1.pay3_at, Val1.pay29_at, Val1.pay28_at, Val1.pay27_at, Val1.pay26_at, Val1.pay25_at, Val1.pay24_at, Val1.pay23_at, Val1.pay22_at, Val1.pay21_at, Val1.pay20_at, Val1.pay19_at, Val1.pay18_at, Val1.pay17_at, Val1.pay16_at, Val1.pay15_at, Val1.pay14_at, Val1.pay13_at, Val1.pay12_at, Val1.pay11_at, Val1.pay10_at, Val1.pay9_at, Val1.pay8_at, Val1.pay7_at, Val1.pay6_at, Val1.pay5_at, mul_logistic]
  simp only [Cert.Spec.net, sum5_bias']

end Cert.KernelIdeal.Val

end
-- ==== Proof.R1Acc.lean ====
/-
  The second layer's kernel region at the ideal instance: the accumulator after a point, read at a batch lane, is the
  sum of the networks of the layer's input features met so far in the point's batch block.
-/
import proofs.«107607_j19129784336543_2_alg».proof.Proof.R1Sum
import proofs.«107607_j19129784336543_2_alg».proof.Proof.R1Block
import proofs.«107607_j19129784336543_2_alg».proof.Proof.Spec
import proofs.«107607_j19129784336543_2_alg».proof.Proof.Nets
import proofs.«107607_j19129784336543_2_alg».proof.Proof.TripMath1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry Ideal)

/-- The second layer's network of input feature i at batch position bq · 2048 + b, over natural numbers and zero
    outside the arrays: the summand of the running sums. -/
def g1 (c : Dev nD) (bq : ℕ) (b : Fin 2048) (i : ℕ) : EReal :=
  if h : i < 128 ∧ bq * 2048 + b.val < 2048 then net1 V c ⟨i, h.1⟩ ⟨bq * 2048 + b.val, h.2⟩ else 0

theorem pay2_apply1 (y : S1x2048.Idx) : k1_pay2 (F := Ideal) y = 0 := by
  unfold k1_pay2
  show Scalar.ofBits (F := Ideal) .f32 0x00000000#32 = 0
  exact Ideal.ofBits_zero_f32

theorem zero1_apply (y : S1x2048.Idx) : zero1 (F := Ideal) y = 0 := by
  unfold zero1 k1_pay1
  simp only [shapeCast_self]
  show Scalar.ofBits (F := Ideal) .f32 0x00000000#32 = 0
  exact Ideal.ofBits_zero_f32

theorem trips1 : k1_t1_loop.trips = 32 := by decide

set_option maxHeartbeats 4000000 in
/-- The loop's carried value after n trips at point t, at lane b: the sum of the networks of the first n input
    features of the point's block. -/
theorem loop1_apply (c : Dev nD) (t : Fin cfg1.N) (b : Fin 2048) : ∀ (n : ℕ) (hn : n ≤ 32),
    loop1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) n (ix2 (0 : Fin 1) b)
      = ∑ k ∈ Finset.range n, g1 V c (t.val / 4) b (t.val % 4 * 32 + k) := by
  intro n
  induction n with
  | zero =>
    intro _
    rw [Finset.range_zero, Finset.sum_empty]
    show k1_pay2 (F := Ideal) (ix2 (0 : Fin 1) b) = 0
    exact pay2_apply1 (ix2 (0 : Fin 1) b)
  | succ n ih =>
    intro hn
    have hk : n < k1_t1_loop.trips := by rw [trips1]; omega
    have h32 : n < 32 := by omega
    have hN : t.val < 4 := lt_of_lt_of_eq t.isLt (show cfg1.N = 4 from N_1)
    have hi : t.val % 4 * 32 + n < 128 := by omega
    have hq : t.val / 4 * 2048 + b.val < 2048 := by have := b.isLt; omega
    rw [Finset.sum_range_succ, ← ih (by omega)]
    unfold loop1
    rw [show n + 1 = (⟨n, hk⟩ : Fin k1_t1_loop.trips).val + 1 from rfl, st_k1_t1_succ, tripR1_eq,
      Cert.KernelIdeal.Val.tripTerm1_apply]
    congr 1
    rw [show g1 V c (t.val / 4) b (t.val % 4 * 32 + n) = net1 V c ⟨t.val % 4 * 32 + n, hi⟩ ⟨t.val / 4 * 2048 + b.val, hq⟩ from dif_pos ⟨hi, hq⟩]
    unfold net1
    simp only [row1_0_apply (ms1_0 t) (hs1_0 t) (iblk1 V c 0 t) ⟨n, hk⟩ h32,
      row1_1_apply (ms1_1 t) (hs1_1 t) (iblk1 V c 1 t) ⟨n, hk⟩ h32,
      row1_2_apply (ms1_2 t) (hs1_2 t) (iblk1 V c 2 t) ⟨n, hk⟩ h32,
      row1_3_apply (ms1_3 t) (hs1_3 t) (iblk1 V c 3 t) ⟨n, hk⟩ h32,
      row1_4_apply (ms1_4 t) (hs1_4 t) (iblk1 V c 4 t) ⟨n, hk⟩ h32,
      row1_5_apply (ms1_5 t) (hs1_5 t) (iblk1 V c 5 t) ⟨n, hk⟩ h32,
      row1_6_apply (ms1_6 t) (hs1_6 t) (iblk1 V c 6 t) ⟨n, hk⟩ h32,
      row1_7_apply (ms1_7 t) (hs1_7 t) (iblk1 V c 7 t) ⟨n, hk⟩ h32,
      row1_8_apply (ms1_8 t) (hs1_8 t) (iblk1 V c 8 t) ⟨n, hk⟩ h32,
      iblk1_0_apply V c t ⟨n, h32⟩ b hi hq,
      (fun y1 y2 => iblk1_1_apply V c t ⟨n, h32⟩ y1 y2 hi),
      (fun y1 y2 => iblk1_2_apply V c t ⟨n, h32⟩ y1 y2 hi),
      (fun y1 y2 y3 => iblk1_3_apply V c t ⟨n, h32⟩ y1 y2 y3 hi),
      (fun y1 y2 => iblk1_4_apply V c t ⟨n, h32⟩ y1 y2 hi),
      (fun y1 y2 => iblk1_5_apply V c t ⟨n, h32⟩ y1 y2 hi),
      (fun y1 y2 => iblk1_6_apply V c t ⟨n, h32⟩ y1 y2 hi),
      (fun y1 y2 => iblk1_7_apply V c t ⟨n, h32⟩ y1 y2 hi),
      (fun y1 y2 => iblk1_8_apply V c t ⟨n, h32⟩ y1 y2 hi)]

theorem L1_apply (c : Dev nD) (t : Fin cfg1.N) (b : Fin 2048) :
    L1 V c t (ix2 (0 : Fin 1) b) = ∑ k ∈ Finset.range 32, g1 V c (t.val / 4) b (t.val % 4 * 32 + k) := by
  unfold L1
  rw [trips1]
  exact loop1_apply V c t b 32 (le_refl _)

/-- After position n the accumulator holds, at lane b, the sum over the first (n mod 4 + 1) · 32 input features. -/
theorem acc1_apply (c : Dev nD) (b : Fin 2048) : ∀ (n : ℕ) (hn : n < cfg1.N),
    acc1 V c n hn (ix2 (0 : Fin 1) b) = ∑ i ∈ Finset.range ((n % 4 + 1) * 32), g1 V c (n / 4) b i := by
  intro n
  induction n with
  | zero =>
    intro hn
    show zero1 (F := Ideal) (ix2 (0 : Fin 1) b) + L1 V c ⟨0, hn⟩ (ix2 (0 : Fin 1) b) = _
    rw [zero1_apply, zero_add, L1_apply]
    refine Finset.sum_congr rfl fun k _ => ?_
    show g1 V c (0 / 4) b (0 % 4 * 32 + k) = g1 V c (0 / 4) b k
    congr 1; omega
  | succ n ih =>
    intro hn
    by_cases h0 : (n + 1) % 4 = 0
    · rw [show acc1 V c (n + 1) hn = addf zero1 (L1 V c ⟨n + 1, hn⟩) from if_pos h0]
      show zero1 (F := Ideal) (ix2 (0 : Fin 1) b) + L1 V c ⟨n + 1, hn⟩ (ix2 (0 : Fin 1) b) = _
      rw [zero1_apply, zero_add, L1_apply]
      show ∑ k ∈ Finset.range 32, g1 V c ((n + 1) / 4) b ((n + 1) % 4 * 32 + k) = _
      rw [h0]
      refine Finset.sum_congr rfl fun k _ => ?_
      congr 1; omega
    · rw [show acc1 V c (n + 1) hn = addf (acc1 V c n (Nat.lt_of_succ_lt hn)) (L1 V c ⟨n + 1, hn⟩) from if_neg h0]
      show acc1 V c n (Nat.lt_of_succ_lt hn) (ix2 (0 : Fin 1) b) + L1 V c ⟨n + 1, hn⟩ (ix2 (0 : Fin 1) b) = _
      rw [ih (Nat.lt_of_succ_lt hn), L1_apply]
      show _ + ∑ k ∈ Finset.range 32, g1 V c ((n + 1) / 4) b ((n + 1) % 4 * 32 + k) = _
      have e1 : (n + 1) / 4 = n / 4 := by omega
      have e2 : (n + 1) % 4 = n % 4 + 1 := by omega
      rw [e1, e2, show (n % 4 + 1 + 1) * 32 = (n % 4 + 1) * 32 + 32 by ring, Finset.sum_range_add]

end Cert.KernelIdeal.Hand

end
-- ==== Proof.R1Arr.lean ====
/-
  The second layer's kernel region at the ideal instance: the array it leaves. Where ib = 3 the point writes back,
  as the one block of the result, the accumulator — at batch position q the sum over all 128 input features j of the
  network of j applied to the first layer's result at (j, q); that one block is the whole result array.
-/
import proofs.«107607_j19129784336543_2_alg».proof.Proof.R1Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : Entry Ideal)

/-- What the region leaves in its result array. -/
def G1 (c : Dev nD) : S1x2048.Idx → EReal :=
  fun y => ∑ j : Fin 128, net1 V c j ⟨(y 1).val, idx2_lt1 y⟩

theorem G1_apply (c : Dev nD) (q : Fin 2048) : G1 V c (ix2 (0 : Fin 1) q) = ∑ j : Fin 128, net1 V c j q := rfl

/-- What the point with ib = 3 writes back is its block of G1. -/
theorem flushed1_eq (c : Dev nD) (t : Fin cfg1.N) (hf : (cfg1.win 9).flush t = true) :
    (dat1 V c).flushed 9 t = ((cfg1.win 9).blk t).view.read (Elt Ideal) (G1 V c) := by
  have h3 : t.val % 4 = 3 := (flush1_9 t).mp hf
  have hN : t.val < 4 := lt_of_lt_of_eq t.isLt (show cfg1.N = 4 from N_1)
  show (cfg1.win 9).cut (grid1.coords t) ((dat1 V c).after 9 t) = _
  rw [after1_9]
  funext y
  obtain ⟨z, b, rfl⟩ : ∃ (z : Fin 1) (b : Fin 2048), y = ix2 z b := ⟨y 0, y 1, eq_ix2 y⟩
  obtain rfl : z = 0 := Subsingleton.elim _ _
  have hq : t.val / 4 * 2048 + b.val < 2048 := by have := b.isLt; omega
  have hemb : ((cfg1.win 9).blk t).view.emb (ix2 (0 : Fin 1) b) = ix2 (0 : Fin 1) (⟨t.val / 4 * 2048 + b.val, hq⟩ : Fin 2048) := by
    funext a; apply Fin.ext
    match a with
    | ⟨0, _⟩ => show win1_9.index t (0 : Fin 2) * 1 + 1 * (0 : Fin 1).val = (0 : Fin 1).val; rw [(idx1_9 t).1]; omega
    | ⟨1, _⟩ => show win1_9.index t (1 : Fin 2) * 2048 + 1 * b.val = t.val / 4 * 2048 + b.val; rw [(idx1_9 t).2]; omega
  show (outsAt1 V c t.val t.isLt).1 (ix2 (0 : Fin 1) b) = G1 V c (((cfg1.win 9).blk t).view.emb (ix2 (0 : Fin 1) b))
  rw [hemb, G1_apply, outsAt1_fst V c t h3, acc1_apply V c b t.val t.isLt, h3, Finset.sum_range]
  refine Finset.sum_congr rfl fun i _ => ?_
  exact dif_pos ⟨i.isLt, hq⟩

theorem mem_blk1_9 (t : Fin cfg1.N) (i : S1x2048.Idx) :
    i ∈ ((cfg1.win 9).blk t).view.set ↔ ∀ a : Fin 2, win1_9.index t a * S1x2048.size a ≤ (i a).val ∧ (i a).val < win1_9.index t a * S1x2048.size a + S1x2048.size a := by
  show i ∈ ((View.whole main_v16).slice (win1_9.rect t)).set ↔ _
  rw [View.set_slice_whole, Rect.mem_set_unit]
  exact Iff.rfl

/-- The one written-back block is the whole result. -/
theorem cover1 (i : S1x2048.Idx) : ∃ t : Fin cfg1.N, (cfg1.win 9).flush t = true ∧ i ∈ ((cfg1.win 9).blk t).view.set := by
  have hi0 : (i 0).val < 1 := (i 0).isLt
  have hi1 : (i 1).val < 2048 := (i 1).isLt
  have hlt : 3 < cfg1.N := by rw [show cfg1.N = 4 from N_1]; omega
  refine ⟨⟨3, hlt⟩, (flush1_9 _).mpr (by show 3 % 4 = 3; rfl), ?_⟩
  rw [mem_blk1_9]
  intro a
  match a with
  | ⟨0, _⟩ =>
    show win1_9.index _ (0 : Fin 2) * 1 ≤ (i 0).val ∧ (i 0).val < win1_9.index _ (0 : Fin 2) * 1 + 1
    rw [(idx1_9 _).1]; omega
  | ⟨1, _⟩ =>
    show win1_9.index _ (1 : Fin 2) * 2048 ≤ (i 1).val ∧ (i 1).val < win1_9.index _ (1 : Fin 2) * 2048 + 2048
    rw [(idx1_9 _).2]
    show 3 / 4 * 2048 ≤ (i 1).val ∧ (i 1).val < 3 / 4 * 2048 + 2048
    omega

/-- The array the second layer's region leaves: at batch position q the sum over the input features of their networks. -/
theorem arr1_final (c : Dev nD) (q : Fin 2048) :
    (region1.dat V c).arrAt 9 cfg1.N (ix2 (0 : Fin 1) q) = ∑ j : Fin 128, net1 V c j q := by
  show (dat1 V c).arrAt 9 cfg1.N (ix2 (0 : Fin 1) q) = _
  rw [(dat1 V c).arrAt_eq_of_cover 9 (G1 V c) (fun t hf => flushed1_eq V c t hf) (cover1)]
  exact G1_apply V c q

end Cert.KernelIdeal.Hand

end
-- ==== Proof.HostReads.lean ====
/-
  The host stretches read at an index. The entry function's host operations are reshapes and transposes only, so
  every buffer a stretch writes holds, at each index, the contents of ONE argument (or of a region's result) at an
  index given by arithmetic on the coordinates: a reshape keeps the row-major position, a transpose permutes the
  coordinates. With n(i, j) = i * 128 + j the number of the first layer's sub-network from input i to output j:
  the first stretch lays the first layer's parameters out as [input, output, unit] (the second-layer weights as
  [input, output unit, output, input unit]) and transposes the batch; the second stretch does the same for the second
  layer, whose remaining operands are arguments read as they are; the last stretch transposes the result.
  Nothing here depends on the float model: no arithmetic is involved.
-/
import proofs.«107607_j19129784336543_2_alg».proof.Proof.Assemble
import proofs.«107607_j19129784336543_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.ShloMosaic.StableHlo
open Cert.KernelIdeal Cert.KernelIdeal.Gen
open Cert.Spec (nidx nidx_val)

variable {F : FTy → Type} [FloatOps F]

/-! ## Each stretch's results as terms of what it starts from (any contents Wv) -/

section Terms
variable (Wv : Valuation τ sig (Elt F))
theorem after0_v0 : (StableHlo.after hostOps0 Wv (Proc.devRef .tc main_v0) : S128x2048.Idx → Elt F .f32)
    = transpose S128x2048 [1, 0] (Wv (Proc.devRef .tc main_arg0)) transposes_S2048x128_S128x2048_1_0 := by
  dsimp only [hostOps0]
  after_results
  first | done | rfl
theorem after0_v1 : (StableHlo.after hostOps0 Wv (Proc.devRef .tc main_v1) : S128x128x5.Idx → Elt F .f32)
    = shapeCast S128x128x5 (Wv (Proc.devRef .tc main_arg1)) shapeCasts_S16384x5x1_S128x128x5 := by
  dsimp only [hostOps0]
  after_results
  first | done | rfl
theorem after0_v2 : (StableHlo.after hostOps0 Wv (Proc.devRef .tc main_v2) : S128x128x5.Idx → Elt F .f32)
    = shapeCast S128x128x5 (Wv (Proc.devRef .tc main_arg4)) shapeCasts_S16384x5x1_S128x128x5 := by
  dsimp only [hostOps0]
  after_results
  first | done | rfl
theorem after0_v4 : (StableHlo.after hostOps0 Wv (Proc.devRef .tc main_v4) : S128x5x128x5.Idx → Elt F .f32)
    = transpose S128x5x128x5 [0, 3, 1, 2] (shapeCast S128x128x5x5 (Wv (Proc.devRef .tc main_arg2)) shapeCasts_S16384x5x5_S128x128x5x5) transposes_S128x128x5x5_S128x5x128x5_0_3_1_2 := by
  dsimp only [hostOps0]
  after_results
  first | done | rfl
theorem after0_v5 : (StableHlo.after hostOps0 Wv (Proc.devRef .tc main_v5) : S128x128x5.Idx → Elt F .f32)
    = shapeCast S128x128x5 (Wv (Proc.devRef .tc main_arg5)) shapeCasts_S16384x5x1_S128x128x5 := by
  dsimp only [hostOps0]
  after_results
  first | done | rfl
theorem after0_v6 : (StableHlo.after hostOps0 Wv (Proc.devRef .tc main_v6) : S128x128x5.Idx → Elt F .f32)
    = shapeCast S128x128x5 (Wv (Proc.devRef .tc main_arg3)) shapeCasts_S16384x1x5_S128x128x5 := by
  dsimp only [hostOps0]
  after_results
  first | done | rfl
theorem after0_v7 : (StableHlo.after hostOps0 Wv (Proc.devRef .tc main_v7) : S128x128x1.Idx → Elt F .f32)
    = shapeCast S128x128x1 (Wv (Proc.devRef .tc main_arg6)) shapeCasts_S16384x1x1_S128x128x1 := by
  dsimp only [hostOps0]
  after_results
  first | done | rfl
theorem after0_v8 : (StableHlo.after hostOps0 Wv (Proc.devRef .tc main_v8) : S128x128x1.Idx → Elt F .f32)
    = shapeCast S128x128x1 (Wv (Proc.devRef .tc main_arg7)) shapeCasts_S16384x1x1_S128x128x1 := by
  dsimp only [hostOps0]
  after_results
  first | done | rfl
theorem after0_v9 : (StableHlo.after hostOps0 Wv (Proc.devRef .tc main_v9) : S128x128x1.Idx → Elt F .f32)
    = shapeCast S128x128x1 (Wv (Proc.devRef .tc main_arg8)) shapeCasts_S16384x1x1_S128x128x1 := by
  dsimp only [hostOps0]
  after_results
  first | done | rfl
theorem after1_v11 : (StableHlo.after hostOps1 Wv (Proc.devRef .tc main_v11) : S128x1x5.Idx → Elt F .f32)
    = shapeCast S128x1x5 (Wv (Proc.devRef .tc main_arg9)) shapeCasts_S128x5x1_S128x1x5 := by
  dsimp only [hostOps1]
  after_results
  first | done | rfl
theorem after1_v12 : (StableHlo.after hostOps1 Wv (Proc.devRef .tc main_v12) : S128x1x5.Idx → Elt F .f32)
    = shapeCast S128x1x5 (Wv (Proc.devRef .tc main_arg12)) shapeCasts_S128x5x1_S128x1x5 := by
  dsimp only [hostOps1]
  after_results
  first | done | rfl
theorem after1_v14 : (StableHlo.after hostOps1 Wv (Proc.devRef .tc main_v14) : S128x5x1x5.Idx → Elt F .f32)
    = transpose S128x5x1x5 [0, 3, 1, 2] (shapeCast S128x1x5x5 (Wv (Proc.devRef .tc main_arg10)) shapeCasts_S128x5x5_S128x1x5x5) transposes_S128x1x5x5_S128x5x1x5_0_3_1_2 := by
  dsimp only [hostOps1]
  after_results
  first | done | rfl
theorem after1_v15 : (StableHlo.after hostOps1 Wv (Proc.devRef .tc main_v15) : S128x1x5.Idx → Elt F .f32)
    = shapeCast S128x1x5 (Wv (Proc.devRef .tc main_arg13)) shapeCasts_S128x5x1_S128x1x5 := by
  dsimp only [hostOps1]
  after_results
  first | done | rfl
theorem after2_v17 : (StableHlo.after hostOps2 Wv (Proc.devRef .tc main_v17) : S2048x1.Idx → Elt F .f32)
    = transpose S2048x1 [1, 0] (Wv (Proc.devRef .tc main_v16)) transposes_S1x2048_S2048x1_1_0 := by
  dsimp only [hostOps2]
  after_results
  first | done | rfl

end Terms

/-! ## The layout operations read at an index (any array X of the operand's shape) -/

section Layout
variable {α : Type}

/-- [16384, 5, 1] read as [128, 128, 5]: (i, j, k) is sub-network n(i, j), unit k. -/
theorem cast_n51 (X : S16384x5x1.Idx → α) (h : S16384x5x1.ShapeCasts S128x128x5) (i j : Fin 128) (k : Fin 5) :
    shapeCast S128x128x5 X h (ix3 i j k) = X (ix3 (nidx i j) k (0 : Fin 1)) := by
  refine shapeCast_apply X h _ _ ?_
  rw [Shape.rowMajor_val_three, Shape.rowMajor_val_three]
  show ((nidx i j).val * 5 + k.val) * 1 + 0 = (i.val * 128 + j.val) * 5 + k.val
  rw [nidx_val]; omega

/-- [16384, 1, 5] read as [128, 128, 5]: (i, j, k) is sub-network n(i, j), unit k on the last axis. -/
theorem cast_n15 (X : S16384x1x5.Idx → α) (h : S16384x1x5.ShapeCasts S128x128x5) (i j : Fin 128) (k : Fin 5) :
    shapeCast S128x128x5 X h (ix3 i j k) = X (ix3 (nidx i j) (0 : Fin 1) k) := by
  refine shapeCast_apply X h _ _ ?_
  rw [Shape.rowMajor_val_three, Shape.rowMajor_val_three]
  show ((nidx i j).val * 1 + 0) * 5 + k.val = (i.val * 128 + j.val) * 5 + k.val
  rw [nidx_val]; omega

/-- [16384, 1, 1] read as [128, 128, 1]: (i, j, u) is sub-network n(i, j). -/
theorem cast_n11 (X : S16384x1x1.Idx → α) (h : S16384x1x1.ShapeCasts S128x128x1) (i j : Fin 128) (u : Fin 1) :
    shapeCast S128x128x1 X h (ix3 i j u) = X (ix3 (nidx i j) (0 : Fin 1) (0 : Fin 1)) := by
  refine shapeCast_apply X h _ _ ?_
  rw [Shape.rowMajor_val_three, Shape.rowMajor_val_three]
  show ((nidx i j).val * 1 + 0) * 1 + 0 = (i.val * 128 + j.val) * 1 + u.val
  have := u.isLt
  rw [nidx_val]; omega

/-- [16384, 5, 5] read as [128, 128, 5, 5] and its axes permuted to [128, 5, 128, 5] (result axis b is operand axis
    [0, 3, 1, 2] b): (i, a, j, k) is sub-network n(i, j) at (k, a). -/
theorem cast_transpose_n55 (X : S16384x5x5.Idx → α) (h : S16384x5x5.ShapeCasts S128x128x5x5)
    (ht : S128x128x5x5.Transposes [0, 3, 1, 2] S128x5x128x5) (i : Fin 128) (a : Fin 5) (j : Fin 128) (k : Fin 5) :
    transpose S128x5x128x5 [0, 3, 1, 2] (shapeCast S128x128x5x5 X h) ht (ix4 i a j k) = X (ix3 (nidx i j) k a) := by
  refine (transpose_apply _ _ ht _ (ix4 i j k a) fun b => match b with
    | ⟨0, _⟩ => rfl | ⟨1, _⟩ => rfl | ⟨2, _⟩ => rfl | ⟨3, _⟩ => rfl).trans ?_
  refine shapeCast_apply X h _ _ ?_
  rw [Shape.rowMajor_val_three, Shape.rowMajor_val_four]
  show ((nidx i j).val * 5 + k.val) * 5 + a.val = ((i.val * 128 + j.val) * 5 + k.val) * 5 + a.val
  rw [nidx_val]

/-- [128, 5, 1] read as [128, 1, 5]: (j, u, k) is sub-network j, unit k. -/
theorem cast_51_15 (X : S128x5x1.Idx → α) (h : S128x5x1.ShapeCasts S128x1x5) (j : Fin 128) (u : Fin 1) (k : Fin 5) :
    shapeCast S128x1x5 X h (ix3 j u k) = X (ix3 j k (0 : Fin 1)) := by
  refine shapeCast_apply X h _ _ ?_
  rw [Shape.rowMajor_val_three, Shape.rowMajor_val_three]
  show (j.val * 5 + k.val) * 1 + 0 = (j.val * 1 + u.val) * 5 + k.val
  have := u.isLt
  omega

/-- [128, 5, 5] read as [128, 1, 5, 5] and its axes permuted to [128, 5, 1, 5]: (j, a, u, k) is sub-network j at (k, a). -/
theorem cast_transpose_55 (X : S128x5x5.Idx → α) (h : S128x5x5.ShapeCasts S128x1x5x5)
    (ht : S128x1x5x5.Transposes [0, 3, 1, 2] S128x5x1x5) (j : Fin 128) (a : Fin 5) (u : Fin 1) (k : Fin 5) :
    transpose S128x5x1x5 [0, 3, 1, 2] (shapeCast S128x1x5x5 X h) ht (ix4 j a u k) = X (ix3 j k a) := by
  refine (transpose_apply _ _ ht _ (ix4 j u k a) fun b => match b with
    | ⟨0, _⟩ => rfl | ⟨1, _⟩ => rfl | ⟨2, _⟩ => rfl | ⟨3, _⟩ => rfl).trans ?_
  refine shapeCast_apply X h _ _ ?_
  rw [Shape.rowMajor_val_three, Shape.rowMajor_val_four]
  show (j.val * 5 + k.val) * 5 + a.val = ((j.val * 1 + u.val) * 5 + k.val) * 5 + a.val
  have := u.isLt
  omega

end Layout

/-! ## The first stretch: what the first region is entered from -/

section Reads
variable (R0 : Region0 F) (R1 : Region1 F)
variable (m : (ℓ : Loc nD τ sig) → Buf (Elt F) ℓ) (ρ : Dev nD → PrngReg)

/-- The batch, transposed: [2048, 128] read as [128, 2048]. -/
theorem V1_main_v0 (c : Dev nD) (i : Fin 128) (q : Fin 2048) :
    V1 m ρ c main_v0 (ix2 i q) = m ((c.tc : Thread nD τ).loc main_arg0) (ix2 q i) := by
  show StableHlo.after hostOps0 (W0 m ρ c) (Proc.devRef .tc main_v0) (ix2 i q) = _
  rw [after0_v0]; exact transpose_ix2_apply _ _ i q
/-- The first-layer weights [n, k, 0] as [i, j, k]. -/
theorem V1_main_v1 (c : Dev nD) (i j : Fin 128) (k : Fin 5) :
    V1 m ρ c main_v1 (ix3 i j k) = m ((c.tc : Thread nD τ).loc main_arg1) (ix3 (nidx i j) k (0 : Fin 1)) := by
  show StableHlo.after hostOps0 (W0 m ρ c) (Proc.devRef .tc main_v1) (ix3 i j k) = _
  rw [after0_v1]; exact cast_n51 _ _ i j k
/-- The first-layer biases [n, k, 0] as [i, j, k]. -/
theorem V1_main_v2 (c : Dev nD) (i j : Fin 128) (k : Fin 5) :
    V1 m ρ c main_v2 (ix3 i j k) = m ((c.tc : Thread nD τ).loc main_arg4) (ix3 (nidx i j) k (0 : Fin 1)) := by
  show StableHlo.after hostOps0 (W0 m ρ c) (Proc.devRef .tc main_v2) (ix3 i j k) = _
  rw [after0_v2]; exact cast_n51 _ _ i j k
/-- The second-layer weights [n, k, a] as [i, a, j, k]. -/
theorem V1_main_v4 (c : Dev nD) (i : Fin 128) (a : Fin 5) (j : Fin 128) (k : Fin 5) :
    V1 m ρ c main_v4 (ix4 i a j k) = m ((c.tc : Thread nD τ).loc main_arg2) (ix3 (nidx i j) k a) := by
  show StableHlo.after hostOps0 (W0 m ρ c) (Proc.devRef .tc main_v4) (ix4 i a j k) = _
  rw [after0_v4]; exact cast_transpose_n55 _ _ _ i a j k
/-- The second-layer biases [n, k, 0] as [i, j, k]. -/
theorem V1_main_v5 (c : Dev nD) (i j : Fin 128) (k : Fin 5) :
    V1 m ρ c main_v5 (ix3 i j k) = m ((c.tc : Thread nD τ).loc main_arg5) (ix3 (nidx i j) k (0 : Fin 1)) := by
  show StableHlo.after hostOps0 (W0 m ρ c) (Proc.devRef .tc main_v5) (ix3 i j k) = _
  rw [after0_v5]; exact cast_n51 _ _ i j k
/-- The read-out weights [n, 0, a] as [i, j, a]. -/
theorem V1_main_v6 (c : Dev nD) (i j : Fin 128) (a : Fin 5) :
    V1 m ρ c main_v6 (ix3 i j a) = m ((c.tc : Thread nD τ).loc main_arg3) (ix3 (nidx i j) (0 : Fin 1) a) := by
  show StableHlo.after hostOps0 (W0 m ρ c) (Proc.devRef .tc main_v6) (ix3 i j a) = _
  rw [after0_v6]; exact cast_n15 _ _ i j a
/-- The read-out bias [n, 0, 0] as [i, j, 0]. -/
theorem V1_main_v7 (c : Dev nD) (i j : Fin 128) (u : Fin 1) :
    V1 m ρ c main_v7 (ix3 i j u) = m ((c.tc : Thread nD τ).loc main_arg6) (ix3 (nidx i j) (0 : Fin 1) (0 : Fin 1)) := by
  show StableHlo.after hostOps0 (W0 m ρ c) (Proc.devRef .tc main_v7) (ix3 i j u) = _
  rw [after0_v7]; exact cast_n11 _ _ i j u
/-- The scale [n, 0, 0] as [i, j, 0]. -/
theorem V1_main_v8 (c : Dev nD) (i j : Fin 128) (u : Fin 1) :
    V1 m ρ c main_v8 (ix3 i j u) = m ((c.tc : Thread nD τ).loc main_arg7) (ix3 (nidx i j) (0 : Fin 1) (0 : Fin 1)) := by
  show StableHlo.after hostOps0 (W0 m ρ c) (Proc.devRef .tc main_v8) (ix3 i j u) = _
  rw [after0_v8]; exact cast_n11 _ _ i j u
/-- The skip [n, 0, 0] as [i, j, 0]. -/
theorem V1_main_v9 (c : Dev nD) (i j : Fin 128) (u : Fin 1) :
    V1 m ρ c main_v9 (ix3 i j u) = m ((c.tc : Thread nD τ).loc main_arg8) (ix3 (nidx i j) (0 : Fin 1) (0 : Fin 1)) := by
  show StableHlo.after hostOps0 (W0 m ρ c) (Proc.devRef .tc main_v9) (ix3 i j u) = _
  rw [after0_v9]; exact cast_n11 _ _ i j u

/-! ## The second stretch: what the second region is entered from -/

/-- An argument reaches the second stretch as launched: the first stretch does not write it and it is no array of
    the first region. -/
theorem W2_arg (c : Dev nD) (r : Ref sig .tc) (h0 : r ∉ hostOps0_W) (ha0 : ∀ w, Pipeline.arrRef spec0 w ≠ r) :
    W2 R0 m ρ c (Proc.devRef .tc r) = m ((c.tc : Thread nD τ).loc r) :=
  (W2_of_ne R0 m ρ c r ha0).trans ((W1_of m ρ c r h0).trans rfl)

/-- The second layer's first-layer weights [j, k, 0] as [j, 0, k]. -/
theorem V3_main_v11 (c : Dev nD) (j : Fin 128) (u : Fin 1) (k : Fin 5) :
    V3 R0 m ρ c main_v11 (ix3 j u k) = m ((c.tc : Thread nD τ).loc main_arg9) (ix3 j k (0 : Fin 1)) := by
  show StableHlo.after hostOps1 (W2 R0 m ρ c) (Proc.devRef .tc main_v11) (ix3 j u k) = _
  rw [after1_v11, W2_arg R0 m ρ c main_arg9 (by decide) (by decide)]; exact cast_51_15 _ _ j u k
/-- The second layer's first-layer biases [j, k, 0] as [j, 0, k]. -/
theorem V3_main_v12 (c : Dev nD) (j : Fin 128) (u : Fin 1) (k : Fin 5) :
    V3 R0 m ρ c main_v12 (ix3 j u k) = m ((c.tc : Thread nD τ).loc main_arg12) (ix3 j k (0 : Fin 1)) := by
  show StableHlo.after hostOps1 (W2 R0 m ρ c) (Proc.devRef .tc main_v12) (ix3 j u k) = _
  rw [after1_v12, W2_arg R0 m ρ c main_arg12 (by decide) (by decide)]; exact cast_51_15 _ _ j u k
/-- The second layer's second-layer weights [j, k, a] as [j, a, 0, k]. -/
theorem V3_main_v14 (c : Dev nD) (j : Fin 128) (a : Fin 5) (u : Fin 1) (k : Fin 5) :
    V3 R0 m ρ c main_v14 (ix4 j a u k) = m ((c.tc : Thread nD τ).loc main_arg10) (ix3 j k a) := by
  show StableHlo.after hostOps1 (W2 R0 m ρ c) (Proc.devRef .tc main_v14) (ix4 j a u k) = _
  rw [after1_v14, W2_arg R0 m ρ c main_arg10 (by decide) (by decide)]; exact cast_transpose_55 _ _ _ j a u k
/-- The second layer's second-layer biases [j, k, 0] as [j, 0, k]. -/
theorem V3_main_v15 (c : Dev nD) (j : Fin 128) (u : Fin 1) (k : Fin 5) :
    V3 R0 m ρ c main_v15 (ix3 j u k) = m ((c.tc : Thread nD τ).loc main_arg13) (ix3 j k (0 : Fin 1)) := by
  show StableHlo.after hostOps1 (W2 R0 m ρ c) (Proc.devRef .tc main_v15) (ix3 j u k) = _
  rw [after1_v15, W2_arg R0 m ρ c main_arg13 (by decide) (by decide)]; exact cast_51_15 _ _ j u k
/-- The second layer's remaining operands are arguments, read as launched. -/
theorem V3_main_arg11 (c : Dev nD) : V3 R0 m ρ c main_arg11 = m ((c.tc : Thread nD τ).loc main_arg11) :=
  (W3_of R0 m ρ c main_arg11 (by decide)).trans (W2_arg R0 m ρ c main_arg11 (by decide) (by decide))
theorem V3_main_arg14 (c : Dev nD) : V3 R0 m ρ c main_arg14 = m ((c.tc : Thread nD τ).loc main_arg14) :=
  (W3_of R0 m ρ c main_arg14 (by decide)).trans (W2_arg R0 m ρ c main_arg14 (by decide) (by decide))
theorem V3_main_arg15 (c : Dev nD) : V3 R0 m ρ c main_arg15 = m ((c.tc : Thread nD τ).loc main_arg15) :=
  (W3_of R0 m ρ c main_arg15 (by decide)).trans (W2_arg R0 m ρ c main_arg15 (by decide) (by decide))
theorem V3_main_arg16 (c : Dev nD) : V3 R0 m ρ c main_arg16 = m ((c.tc : Thread nD τ).loc main_arg16) :=
  (W3_of R0 m ρ c main_arg16 (by decide)).trans (W2_arg R0 m ρ c main_arg16 (by decide) (by decide))

/-! ## The last stretch: the result -/

/-- The returned buffer is the second region's output array transposed: [1, 2048] read as [2048, 1]. -/
theorem W5_main_v17 (c : Dev nD) (q : Fin 2048) (u : Fin 1) :
    W5 R0 R1 m ρ c (Proc.devRef .tc main_v17) (ix2 q u) = (R1.dat (V3 R0 m ρ) c).arrAt 9 cfg1.N (ix2 u q) := by
  show StableHlo.after hostOps2 (W4 R0 R1 m ρ c) (Proc.devRef .tc main_v17) (ix2 q u) = _
  rw [after2_v17, W4_out]; exact transpose_ix2_apply _ _ q u

end Reads

end Cert.KernelIdeal.Hand

end
-- ==== Proof.Final.lean ====
/-
  The kernel's program computes the specification, and the two programs agree.

  Given what the two kernel regions leave in their output arrays — the first, at (j, q), the sum over the 128 inputs
  i of the first layer's sub-network (i, j) on the entry contents; the second, at (0, q), the sum over the 128 first-layer
  outputs j of the second layer's sub-network j on its entry contents — the returned buffer is the specification of the
  seventeen arguments: the last host stretch transposes the second region's output; the second region is entered
  with the second layer's parameters laid out by the second stretch and with the first region's output; the first
  region is entered with the first layer's parameters and the transposed batch laid out by the first stretch; and
  each of those layouts, read at an index, is the argument at the index the specification reads. The reference's run
  ends at the same specification of its own arguments, which agree with the kernel's.
-/
import proofs.«107607_j19129784336543_2_alg».proof.Defs
import proofs.«107607_j19129784336543_2_alg».proof.Proof.HostReads
import proofs.«107607_j19129784336543_2_alg».proof.Proof.R0Dat
import proofs.«107607_j19129784336543_2_alg».proof.Proof.R1Dat
import proofs.«107607_j19129784336543_2_alg».proof.Proof.Nets
import proofs.«107607_j19129784336543_2_alg».proof.Proof.RefIsSpec

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen
open Cert.Spec (nidx)

/-- Two sub-networks with equal parameters and equal input are equal. -/
theorem net_congr {w0 w0' b0 b0' : Fin 5 → EReal} {w1 w1' : Fin 5 → Fin 5 → EReal} {b1 b1' w2 w2' : Fin 5 → EReal}
    {b2 b2' s s' r r' x x' : EReal} (h0 : w0 = w0') (h1 : b0 = b0') (h2 : w1 = w1') (h3 : b1 = b1') (h4 : w2 = w2')
    (h5 : b2 = b2') (h6 : s = s') (h7 : r = r') (h8 : x = x') :
    Cert.Spec.net w0 b0 w1 b1 w2 b2 s r x = Cert.Spec.net w0' b0' w1' b1' w2' b2' s' r' x' := by
  subst h0 h1 h2 h3 h4 h5 h6 h7 h8; rfl

variable (m : (ℓ : Loc nD τ sig) → Buf (Elt Ideal) ℓ) (ρ : Dev nD → PrngReg)

/-- The first layer's sub-networks on the first region's entry contents, summed over the inputs, are the
    specification's first layer on the arguments. -/
theorem sum_net0 (c : Dev nD) (j : Fin 128) (q : Fin 2048) :
    ∑ i : Fin 128, net0 (V1 m ρ) c i j q
      = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) j q := by
  unfold Cert.Spec.hidden
  refine Finset.sum_congr rfl fun i _ => ?_
  unfold net0
  exact net_congr (funext fun k => V1_main_v1 m ρ c i j k) (funext fun k => V1_main_v2 m ρ c i j k)
    (funext fun a => funext fun k => V1_main_v4 m ρ c i k j a) (funext fun a => V1_main_v5 m ρ c i j a)
    (funext fun a => V1_main_v6 m ρ c i j a) (V1_main_v7 m ρ c i j 0) (V1_main_v8 m ρ c i j 0) (V1_main_v9 m ρ c i j 0)
    (V1_main_v0 m ρ c i q)

variable (H0 : ∀ (V : Entry Ideal) (c : Dev nD) (j : Fin 128) (q : Fin 2048),
    (region0.dat V c).arrAt 9 cfg0.N (ix2 j q) = ∑ i : Fin 128, net0 V c i j q)
variable (H1 : ∀ (V : Entry Ideal) (c : Dev nD) (q : Fin 2048),
    (region1.dat V c).arrAt 9 cfg1.N (ix2 (0 : Fin 1) q) = ∑ j : Fin 128, net1 V c j q)

include H0 in
/-- The second region reads, in its first window, the specification's first layer on the arguments. -/
theorem V3_hidden (c : Dev nD) (j : Fin 128) (q : Fin 2048) :
    V3 region0 m ρ c main_v10 (ix2 j q)
      = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) j q := by
  rw [V3_main_v10, H0]; exact sum_net0 m ρ c j q

include H0 in
/-- The second layer's sub-networks on the second region's entry contents, summed over the first layer's outputs,
    are the specification on the arguments at batch row b. -/
theorem sum_net1 (c : Dev nD) (b : Fin 2048) :
    ∑ j : Fin 128, net1 (V3 region0 m ρ) c j b
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (ix2 b (0 : Fin 1)) := by
  unfold Cert.Spec.G
  refine Finset.sum_congr rfl fun j _ => ?_
  unfold net1
  exact net_congr (funext fun k => V3_main_v11 region0 m ρ c j 0 k) (funext fun k => V3_main_v12 region0 m ρ c j 0 k)
    (funext fun a => funext fun k => V3_main_v14 region0 m ρ c j k 0 a) (funext fun a => V3_main_v15 region0 m ρ c j 0 a)
    (funext fun a => congrFun (V3_main_arg11 region0 m ρ c) (ix3 j (0 : Fin 1) a))
    (congrFun (V3_main_arg14 region0 m ρ c) _) (congrFun (V3_main_arg15 region0 m ρ c) _) (congrFun (V3_main_arg16 region0 m ρ c) _)
    (V3_hidden m ρ H0 c j b)

include H0 H1 in
/-- THE KERNEL'S VALUE: the returned buffer holds the specification of the seventeen arguments. -/
theorem kernel_value (c : Dev nD) :
    W5 region0 region1 m ρ c (Proc.devRef .tc main_v17)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  funext q
  obtain ⟨b, z, rfl⟩ : ∃ (b : Fin 2048) (z : Fin 1), q = ix2 b z := ⟨q 0, q 1, eq_ix2 q⟩
  obtain rfl : z = 0 := Subsingleton.elim _ _
  rw [W5_main_v17, H1]
  exact sum_net1 m ρ H0 c b

include H0 H1 in
/-- THE AGREEMENT of the two idealized programs: run from memories that agree on the seventeen arguments, both
    terminate, nothing faulting, with their result buffers at one and the same array — the specification of the
    arguments — and their arguments unchanged. -/
theorem algebraic_of : Cert.algebraic_KernelIdeal_ReferenceIdeal := by
  intro m ρ m' ρ' _ hagree
  refine ⟨fun c => Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)), ?_, ?_⟩
  · exact (θ_run Cert.KernelIdeal.defs _ _).mono (fun r h c =>
      ⟨(h c _ (mem_uc main_v17 (by decide))).trans (kernel_value m ρ H0 H1 c),
       (h c _ (mem_uc main_arg0 (by decide))).trans (W5_kept region0 region1 m ρ c main_arg0 (by decide) (by decide) (by decide) (by decide) (Or.inl (by decide))),
       (h c _ (mem_uc main_arg1 (by decide))).trans (W5_kept region0 region1 m ρ c main_arg1 (by decide) (by decide) (by decide) (by decide) (Or.inl (by decide))),
       (h c _ (mem_uc main_arg2 (by decide))).trans (W5_kept region0 region1 m ρ c main_arg2 (by decide) (by decide) (by decide) (by decide) (Or.inl (by decide))),
       (h c _ (mem_uc main_arg3 (by decide))).trans (W5_kept region0 region1 m ρ c main_arg3 (by decide) (by decide) (by decide) (by decide) (Or.inl (by decide))),
       (h c _ (mem_uc main_arg4 (by decide))).trans (W5_kept region0 region1 m ρ c main_arg4 (by decide) (by decide) (by decide) (by decide) (Or.inl (by decide))),
       (h c _ (mem_uc main_arg5 (by decide))).trans (W5_kept region0 region1 m ρ c main_arg5 (by decide) (by decide) (by decide) (by decide) (Or.inl (by decide))),
       (h c _ (mem_uc main_arg6 (by decide))).trans (W5_kept region0 region1 m ρ c main_arg6 (by decide) (by decide) (by decide) (by decide) (Or.inl (by decide))),
       (h c _ (mem_uc main_arg7 (by decide))).trans (W5_kept region0 region1 m ρ c main_arg7 (by decide) (by decide) (by decide) (by decide) (Or.inl (by decide))),
       (h c _ (mem_uc main_arg8 (by decide))).trans (W5_kept region0 region1 m ρ c main_arg8 (by decide) (by decide) (by decide) (by decide) (Or.inl (by decide))),
       (h c _ (mem_uc main_arg9 (by decide))).trans (W5_kept region0 region1 m ρ c main_arg9 (by decide) (by decide) (by decide) (by decide) (Or.inl (by decide))),
       (h c _ (mem_uc main_arg10 (by decide))).trans (W5_kept region0 region1 m ρ c main_arg10 (by decide) (by decide) (by decide) (by decide) (Or.inl (by decide))),
       (h c _ (mem_uc main_arg11 (by decide))).trans (W5_kept region0 region1 m ρ c main_arg11 (by decide) (by decide) (by decide) (by decide) (Or.inr ⟨5, rfl, rfl⟩)),
       (h c _ (mem_uc main_arg12 (by decide))).trans (W5_kept region0 region1 m ρ c main_arg12 (by decide) (by decide) (by decide) (by decide) (Or.inl (by decide))),
       (h c _ (mem_uc main_arg13 (by decide))).trans (W5_kept region0 region1 m ρ c main_arg13 (by decide) (by decide) (by decide) (by decide) (Or.inl (by decide))),
       (h c _ (mem_uc main_arg14 (by decide))).trans (W5_kept region0 region1 m ρ c main_arg14 (by decide) (by decide) (by decide) (by decide) (Or.inr ⟨6, rfl, rfl⟩)),
       (h c _ (mem_uc main_arg15 (by decide))).trans (W5_kept region0 region1 m ρ c main_arg15 (by decide) (by decide) (by decide) (by decide) (Or.inr ⟨7, rfl, rfl⟩)),
       (h c _ (mem_uc main_arg16 (by decide))).trans (W5_kept region0 region1 m ρ c main_arg16 (by decide) (by decide) (by decide) (by decide) (Or.inr ⟨8, rfl, rfl⟩))⟩)
      (run_all region0 region1 m ρ)
  · refine (θ_run Cert.ReferenceIdeal.defs _ _).mono (fun r h c => ⟨(h c).1.trans ?_, (h c).2⟩)
      (Cert.ReferenceIdeal.RefValue.ref_run m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

end Cert.KernelIdeal.Hand

end
-- ==== Proof.lean ====
/-
  The certificate's five claims. The two kernel programs run a host stretch of reshapes and transposes, the first
  layer's pallas_call, a second host stretch, the second layer's pallas_call and a final transpose; each
  pallas_call sums, over blocks of input features along its inner grid axis, the outputs of one small 1-5-5-1
  network per (input feature, output feature) pair into an accumulator kept in scratch memory, and writes the
  accumulator out at the last block. Their frames come from the run of @main as five segments, each region
  entered from and returned to the class invariant with the accumulator's contents tracked point by point. The
  reference's frame is its host run. No operation was rewritten by the ideal pass, so the idealization claim is
  trivial. At the ideal instance both sides compute, at batch position b, the sum over the second layer's inputs
  j of the second-layer network applied to the sum over the first layer's inputs i of the first-layer network
  applied to x[b, i].
-/
import proofs.«107607_j19129784336543_2_alg».proof.Defs
import proofs.«107607_j19129784336543_2_alg».proof.Proof.Gen.Kernel
import proofs.«107607_j19129784336543_2_alg».proof.Proof.Gen.KernelIdeal
import proofs.«107607_j19129784336543_2_alg».proof.Proof.Gen.ReferenceIdeal
import proofs.«107607_j19129784336543_2_alg».proof.Proof.Gen.Pre_finite_inputs
import proofs.«107607_j19129784336543_2_alg».proof.Proof.Gen.ReferenceIdeal.Read
import proofs.«107607_j19129784336543_2_alg».proof.Proof.R0Dat
import proofs.«107607_j19129784336543_2_alg».proof.Proof.R1Dat
import proofs.«107607_j19129784336543_2_alg».proof.Proof.Assemble
import proofs.«107607_j19129784336543_2_alg».proof.Proof.Bits.R0Dat
import proofs.«107607_j19129784336543_2_alg».proof.Proof.Bits.R1Dat
import proofs.«107607_j19129784336543_2_alg».proof.Proof.Bits.Assemble
import proofs.«107607_j19129784336543_2_alg».proof.Proof.RefIsSpec
import proofs.«107607_j19129784336543_2_alg».proof.Proof.R0Arr
import proofs.«107607_j19129784336543_2_alg».proof.Proof.R1Arr
import proofs.«107607_j19129784336543_2_alg».proof.Proof.Final
import Idealize.ShloMosaic.Adequacy
import Idealize.ShloMosaic.Init

noncomputable section

namespace Cert.Proof

open Idealize.ShloMosaic Idealize.SL.Sem

theorem frame_k : Cert.frame_Kernel := fun m ρ _ =>
  Cert.Kernel.Hand.frame_all Cert.Kernel.Hand.region0 Cert.Kernel.Hand.region1 m ρ

theorem frame_ki : Cert.frame_KernelIdeal := fun m ρ _ =>
  Cert.KernelIdeal.Hand.frame_all Cert.KernelIdeal.Hand.region0 Cert.KernelIdeal.Hand.region1 m ρ

theorem frame_ri : Cert.frame_ReferenceIdeal := Cert.ReferenceIdeal.RefValue.frame_ri

theorem preserves : Cert.preserves_Kernel_KernelIdeal := trivial

/-- The two region-level results — each region leaves, in its result array, the sum over its layer's input features
    of their sub-networks over the arrays it was entered with — composed with the host reshapes and transposes on the
    kernel side, against the reference's run read as the same double sum. -/
theorem algebraic : Cert.algebraic_KernelIdeal_ReferenceIdeal :=
  Cert.KernelIdeal.Hand.algebraic_of Cert.KernelIdeal.Hand.arr0_final Cert.KernelIdeal.Hand.arr1_final

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
